-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v24_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v24_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S768x768 : Shape := ⟨2, ![768, 768]⟩
abbrev S768 : Shape := ⟨1, ![768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768x768 .f32) (main_arg8 : FVec F S768 .f32) (main_v33 : IVec S_ 1) : IVec S_ 1 :=
  let main_v34 : FVec F S768x768 .f32 := Host.absf main_arg7
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S768 .f32) (main_arg5 : FVec F S768x768 .f32) (main_arg6 : FVec F S768 .f32) (main_arg7 : FVec F S768x768 .f32) (main_arg8 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S2x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_v13 main_v16
-- ==== Kernel.lean ====
abbrev S2x2048x768 : Shape := ⟨3, ![2, 2048, 768]⟩
abbrev S768x768 : Shape := ⟨2, ![768, 768]⟩
abbrev S768 : Shape := ⟨1, ![768]⟩
abbrev S4096x768 : Shape := ⟨2, ![4096, 768]⟩
abbrev S768x2304 : Shape := ⟨2, ![768, 2304]⟩
abbrev S2304 : Shape := ⟨1, ![2304]⟩
abbrev S1x2304 : Shape := ⟨2, ![1, 2304]⟩
abbrev S4096x2304 : Shape := ⟨2, ![4096, 2304]⟩
abbrev S512x768 : Shape := ⟨2, ![512, 768]⟩
abbrev S512x2304 : Shape := ⟨2, ![512, 2304]⟩
abbrev S2x2048x12x64 : Shape := ⟨4, ![2, 2048, 12, 64]⟩
abbrev S2x12x2048x64 : Shape := ⟨4, ![2, 12, 2048, 64]⟩
abbrev S24x2048x64 : Shape := ⟨3, ![24, 2048, 64]⟩
abbrev S1x768 : Shape := ⟨2, ![1, 768]⟩
abbrev S2x12x2048x2048 : Shape := ⟨4, ![2, 12, 2048, 2048]⟩
abbrev S1x512x64 : Shape := ⟨3, ![1, 512, 64]⟩
abbrev S1x2048x64 : Shape := ⟨3, ![1, 2048, 64]⟩
abbrev S64x768 : Shape := ⟨2, ![64, 768]⟩
abbrev S1x1x512x2048 : Shape := ⟨4, ![1, 1, 512, 2048]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 36
  | .vmem => 19
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S4096x768, .f32⟩
  | .hbm, ⟨10, _⟩ => ⟨S768x768, .f32⟩
  | .hbm, ⟨11, _⟩ => ⟨S768x768, .f32⟩
  | .hbm, ⟨12, _⟩ => ⟨S768x768, .f32⟩
  | .hbm, ⟨13, _⟩ => ⟨S768x2304, .f32⟩
  | .hbm, ⟨14, _⟩ => ⟨S768x2304, .bf16⟩
  | .hbm, ⟨15, _⟩ => ⟨S2304, .f32⟩
  | .hbm, ⟨16, _⟩ => ⟨S1x2304, .f32⟩
  | .hbm, ⟨17, _⟩ => ⟨S4096x2304, .bf16⟩
  | .hbm, ⟨18, _⟩ => ⟨S4096x768, .bf16⟩
  | .hbm, ⟨19, _⟩ => ⟨S4096x768, .bf16⟩
  | .hbm, ⟨20, _⟩ => ⟨S4096x768, .bf16⟩
  | .hbm, ⟨21, _⟩ => ⟨S2x2048x12x64, .bf16⟩
  | .hbm, ⟨22, _⟩ => ⟨S2x12x2048x64, .bf16⟩
  | .hbm, ⟨23, _⟩ => ⟨S24x2048x64, .bf16⟩
  | .hbm, ⟨24, _⟩ => ⟨S2x2048x12x64, .bf16⟩
  | .hbm, ⟨25, _⟩ => ⟨S2x12x2048x64, .bf16⟩
  | .hbm, ⟨26, _⟩ => ⟨S24x2048x64, .bf16⟩
  | .hbm, ⟨27, _⟩ => ⟨S2x2048x12x64, .bf16⟩
  | .hbm, ⟨28, _⟩ => ⟨S2x12x2048x64, .bf16⟩
  | .hbm, ⟨29, _⟩ => ⟨S24x2048x64, .bf16⟩
  | .hbm, ⟨30, _⟩ => ⟨S768x768, .f32⟩
  | .hbm, ⟨31, _⟩ => ⟨S768x768, .bf16⟩
  | .hbm, ⟨32, _⟩ => ⟨S1x768, .f32⟩
  | .hbm, ⟨33, _⟩ => ⟨S2x12x2048x2048, .f32⟩
  | .hbm, ⟨34, _⟩ => ⟨S4096x768, .f32⟩
  | .hbm, ⟨35, _⟩ => ⟨S2x2048x768, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S1x2304, .f32⟩
  | .local _ .vmem, ⟨4, _⟩ => ⟨S512x2304, .bf16⟩
  | .local _ .vmem, ⟨5, _⟩ => ⟨S512x2304, .bf16⟩
  | .local _ .vmem, ⟨6, _⟩ => ⟨S1x512x64, .bf16⟩
  | .local _ .vmem, ⟨7, _⟩ => ⟨S1x512x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S64x768, .bf16⟩
  | .local _ .vmem, ⟨13, _⟩ => ⟨S64x768, .bf16⟩
  | .local _ .vmem, ⟨14, _⟩ => ⟨S1x768, .f32⟩
  | .local _ .vmem, ⟨15, _⟩ => ⟨S1x1x512x2048, .f32⟩
  | .local _ .vmem, ⟨16, _⟩ => ⟨S1x1x512x2048, .f32⟩
  | .local _ .vmem, ⟨17, _⟩ => ⟨S512x768, .f32⟩
  | .local _ .vmem, ⟨18, _⟩ => ⟨S512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 4, 12], ![false, false, false]⟩

def k1_cond1 (i : grid1.Coords) : BitVec 1 :=
  let arg2 : BitVec 32 := BitVec.ofNat 32 (i 2).val
  let c0_i32 : BitVec 32 := 0#32
  let v28 : BitVec 1 := Scalar.cmpi .eq arg2 c0_i32
  let v29 : BitVec 32 := Scalar.extui v28
  let c0_i32_19 : BitVec 32 := 0#32
  let v30 : BitVec 1 := Scalar.cmpi .ne v29 c0_i32_19
  v30

def k1_cond2 (i : grid1.Coords) : BitVec 1 :=
  let arg2 : BitVec 32 := BitVec.ofNat 32 (i 2).val
  let c0_i32_20 : BitVec 32 := 0#32
  let v31 : BitVec 1 := Scalar.cmpi .ne arg2 c0_i32_20
  let v32 : BitVec 32 := Scalar.extui v31
  let c0_i32_21 : BitVec 32 := 0#32
  let v33 : BitVec 1 := Scalar.cmpi .ne v32 c0_i32_21
  v33

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c0_i32 : BitVec 32 := 0#32
  let c0_i32_0 : BitVec 32 := 0#32
  ![v1.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S64x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x1x512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S512x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S2x2048x768_S4096x768 : S2x2048x768.ShapeCasts S4096x768
  transposes_S768x768_S768x768_1_0 : S768x768.Transposes [1, 0] S768x768
  concatenates_S768x768_S768x768_S768x768_S768x2304_d1 : Shape.Concatenates [S768x768, S768x768, S768x768] S768x2304 1
  bitsLt_bf16_f32 : FTy.bits .bf16 < FTy.bits .f32
  concatenates_S768_S768_S768_S2304_d0 : Shape.Concatenates [S768, S768, S768] S2304 0
  shapeCasts_S2304_S1x2304 : S2304.ShapeCasts S1x2304
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  slices_S4096x2304_S4096x768_0_0 : S4096x2304.Slices ![0, 0] S4096x768
  slices_S4096x2304_S4096x768_0_768 : S4096x2304.Slices ![0, 768] S4096x768
  slices_S4096x2304_S4096x768_0_1536 : S4096x2304.Slices ![0, 1536] S4096x768
  shapeCasts_S4096x768_S2x2048x12x64 : S4096x768.ShapeCasts S2x2048x12x64
  transposes_S2x2048x12x64_S2x12x2048x64_0_2_1_3 : S2x2048x12x64.Transposes [0, 2, 1, 3] S2x12x2048x64
  shapeCasts_S2x12x2048x64_S24x2048x64 : S2x12x2048x64.ShapeCasts S24x2048x64
  shapeCasts_S768_S1x768 : S768.ShapeCasts S1x768
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S4096x768_S2x2048x768 : S4096x768.ShapeCasts S2x2048x768
  dot_S512x768_S768x2304_S512x2304_1_0_0_1_n_n_wf : DotDims.WF S512x768 S768x2304 S512x2304 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S512x64_S64x768_S512x768_1_0_0_1_n_n_wf : DotDims.WF S512x64 S64x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S4096x2304.size a
  hwx0_3 : ∀ i : grid0.Coords, EltTy.bits .bf16 = 32 ∨ (Rect.block (s := S4096x2304) S512x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S24x2048x64.size a
  hwx1_0 : ∀ i : grid1.Coords, EltTy.bits .bf16 = 32 ∨ (Rect.block (s := S24x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S24x2048x64.size a
  hwx1_1 : ∀ i : grid1.Coords, EltTy.bits .bf16 = 32 ∨ (Rect.block (s := S24x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S24x2048x64.size a
  hwx1_2 : ∀ i : grid1.Coords, EltTy.bits .bf16 = 32 ∨ (Rect.block (s := S24x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x768.size a ≤ S768x768.size a
  hwx1_3 : ∀ i : grid1.Coords, EltTy.bits .bf16 = 32 ∨ (Rect.block (s := S768x768) S64x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x512x2048.size a ≤ S2x12x2048x2048.size a
  hwx1_5 : ∀ i : grid1.Coords, EltTy.bits .f32 = 32 ∨ (Rect.block (s := S2x12x2048x2048) S1x1x512x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x768.size a ≤ S4096x768.size a
  hwx1_6 : ∀ i : grid1.Coords, EltTy.bits .f32 = 32 ∨ (Rect.block (s := S4096x768) S512x768.size (cc1_transform_6 i) (hinb1_6 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x768_S512x768_1_0_0_1_n_n : DotDims S512x64 S64x768 S512x768 where
  lhsContracting := [1]
  rhsContracting := [0]
  lhsNonContracting := [0]
  rhsNonContracting := [1]
  lhsBatch := []
  rhsBatch := []
  wf := dot_S512x64_S64x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S64x768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24_0) S1x1x512x2048.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24_1) S512x768.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond1 i == 1#1) && !(k1_cond2 i == 1#1) | ⟨_ + 7, h⟩ => absurd h (Nat.not_lt.2 (Nat.le_add_left _ _))

class Facts : Prop extends Facts₀ where

variable [Facts]
-- ==== ReferenceIdeal.lean ====
abbrev S2x2048x768 : Shape := ⟨3, ![2, 2048, 768]⟩
abbrev S768x768 : Shape := ⟨2, ![768, 768]⟩
abbrev S768 : Shape := ⟨1, ![768]⟩
abbrev S1x1x768 : Shape := ⟨3, ![1, 1, 768]⟩
abbrev S2x2048x12x64 : Shape := ⟨4, ![2, 2048, 12, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S2x2048x768, .f32⟩
  | .hbm, ⟨10, _⟩ => ⟨S1x1x768, .f32⟩
  | .hbm, ⟨11, _⟩ => ⟨S2x2048x768, .f32⟩
  | .hbm, ⟨12, _⟩ => ⟨S2x2048x768, .f32⟩
  | .hbm, ⟨13, _⟩ => ⟨S2x2048x12x64, .f32⟩
  | .hbm, ⟨14, _⟩ => ⟨S2x12x2048x64, .f32⟩
  | .hbm, ⟨15, _⟩ => ⟨S2x2048x768, .f32⟩
  | .hbm, ⟨16, _⟩ => ⟨S1x1x768, .f32⟩
  | .hbm, ⟨17, _⟩ => ⟨S2x2048x768, .f32⟩
  | .hbm, ⟨18, _⟩ => ⟨S2x2048x768, .f32⟩
  | .hbm, ⟨19, _⟩ => ⟨S2x2048x12x64, .f32⟩
  | .hbm, ⟨20, _⟩ => ⟨S2x12x2048x64, .f32⟩
  | .hbm, ⟨21, _⟩ => ⟨S2x2048x768, .f32⟩
  | .hbm, ⟨22, _⟩ => ⟨S1x1x768, .f32⟩
  | .hbm, ⟨23, _⟩ => ⟨S2x2048x768, .f32⟩
  | .hbm, ⟨24, _⟩ => ⟨S2x2048x768, .f32⟩
  | .hbm, ⟨25, _⟩ => ⟨S2x2048x12x64, .f32⟩
  | .hbm, ⟨26, _⟩ => ⟨S2x12x2048x64, .f32⟩
  | .hbm, ⟨27, _⟩ => ⟨S2x12x2048x2048, .f32⟩
  | .hbm, ⟨28, _⟩ => ⟨S_, .f32⟩
  | .hbm, ⟨29, _⟩ => ⟨S2x12x2048x2048, .f32⟩
  | .hbm, ⟨30, _⟩ => ⟨S2x12x2048x2048, .f32⟩
  | .hbm, ⟨31, _⟩ => ⟨S_, .f32⟩
  | .hbm, ⟨32, _⟩ => ⟨S2x12x2048, .f32⟩
  | .hbm, ⟨33, _⟩ => ⟨S_, .f32⟩
  | .hbm, ⟨34, _⟩ => ⟨S2x12x2048, .f32⟩
  | .hbm, ⟨35, _⟩ => ⟨S2x12x2048, .f32⟩
  | .hbm, ⟨36, _⟩ => ⟨S2x12x2048x1, .f32⟩
  | .hbm, ⟨37, _⟩ => ⟨S2x12x2048x2048, .f32⟩
  | .hbm, ⟨38, _⟩ => ⟨S2x12x2048x2048, .f32⟩
  | .hbm, ⟨39, _⟩ => ⟨S2x12x2048x2048, .f32⟩
  | .hbm, ⟨40, _⟩ => ⟨S_, .f32⟩
  | .hbm, ⟨41, _⟩ => ⟨S2x12x2048, .f32⟩
  | .hbm, ⟨42, _⟩ => ⟨S2x12x2048x1, .f32⟩
  | .hbm, ⟨43, _⟩ => ⟨S2x12x2048x2048, .f32⟩
  | .hbm, ⟨44, _⟩ => ⟨S2x12x2048x2048, .f32⟩
  | .hbm, ⟨45, _⟩ => ⟨S2x12x2048x64, .f32⟩
  | .hbm, ⟨46, _⟩ => ⟨S2x2048x12x64, .f32⟩
  | .hbm, ⟨47, _⟩ => ⟨S2x2048x768, .f32⟩
  | .hbm, ⟨48, _⟩ => ⟨S2x2048x768, .f32⟩
  | .hbm, ⟨49, _⟩ => ⟨S1x1x768, .f32⟩
  | .hbm, ⟨50, _⟩ => ⟨S2x2048x768, .f32⟩
  | .hbm, ⟨51, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S2x2048x768_0_1_2 : S1x1x768.BroadcastsInDim S2x2048x768 (![0, 1, 2] : Fin 3 → Fin S2x2048x768.rank)
  shapeCasts_S2x2048x768_S2x2048x12x64 : S2x2048x768.ShapeCasts S2x2048x12x64
  transposes_S2x2048x12x64_S2x12x2048x64_0_2_1_3 : S2x2048x12x64.Transposes [0, 2, 1, 3] S2x12x2048x64
  bcast_S_S2x12x2048x2048 : S_.BroadcastsInDim S2x12x2048x2048 (![] : Fin 0 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  shapeCasts_S2x2048x12x64_S2x2048x768 : S2x2048x12x64.ShapeCasts S2x2048x768
  dot_S2x2048x768_S768x768_S2x2048x768_2_1_01_0_n_n_wf : DotDims.WF S2x2048x768 S768x768 S2x2048x768 [2] [1] [0, 1] [0] [] []
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x2048x768_S768x768_S2x2048x768_2_1_01_0_n_n : DotDims S2x2048x768 S768x768 S2x2048x768 where
  lhsContracting := [2]
  rhsContracting := [1]
  lhsNonContracting := [0, 1]
  rhsNonContracting := [0]
  lhsBatch := []
  rhsBatch := []
  wf := dot_S2x2048x768_S768x768_S2x2048x768_2_1_01_0_n_n_wf
def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.KB.Linear.lean ====
/-
  The first pallas_call (the fused q/k/v projection, one block of 512 rows per grid point) as a pipeline, at any
  float instance and at any contents `V` of the buffers when the region is entered: each window's block at a point,
  what the body leaves in the output block (its one store, of the payload of the three loaded blocks), the body's
  triple, the pipeline's proof data and the body obligation at every point.
-/
import proofs.«150536_j50783693308250_2_alg».proof.Proof.Gen.Kernel.Launch
import proofs.«150536_j50783693308250_2_alg».proof.Proof.Gen.Kernel.Skeleton
import proofs.«150536_j50783693308250_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's four accesses: each a whole block. -/
abbrev rX : Rect S512x768 := Rect.unit (s := S512x768) ![0, 0] S512x768.size inb_S512x768_S512x768_0_0
abbrev rW : Rect S768x2304 := Rect.unit (s := S768x2304) ![0, 0] S768x2304.size inb_S768x2304_S768x2304_0_0
abbrev rB : Rect S1x2304 := Rect.unit (s := S1x2304) ![0, 0] S1x2304.size inb_S1x2304_S1x2304_0_0
abbrev rO : Rect S512x2304 := Rect.unit (s := S512x2304) ![0, 0] S512x2304.size inb_S512x2304_S512x2304_0_0

/-- The output block after the body, from the three input blocks: its one store. -/
def out0_3 (x0 : Vec F S512x768 .f32) (x1 : Vec F S768x2304 .bf16) (x2 : Vec F S1x2304 .f32) : Vec F S512x2304 .bf16 :=
  View.canon [⟨rO, k0_pay1 (View.ld x0 rX) (View.ld x1 rW) (View.ld x2 rB)⟩]

/-- The store covers the block. -/
theorem cover0_3 (p0 : Vec F S512x2304 .bf16) (y : S512x2304.Idx) :
    ∃ pc ∈ ([⟨rO, p0⟩] : List (View.Piece (Elt F) S512x2304 .bf16)), y ∈ pc.1.set :=
  View.cover_of_tiled [⟨rO, p0⟩] S512x2304.size (by rfl) y

set_option maxHeartbeats 1000000 in
/-- The body on whole staging buffers, the inputs' at contents `x0 x1 x2` and the output's at anything, runs to the
    continuation holding the inputs' as they were and the output's at `out0_3` of them. -/
theorem sound_kernel0 (c : Dev nD) (E : Set ℕ) (i : grid0.Coords) (arg1 : Memref sig .tc .vmem S512x768 .f32) (harg1 : arg1.IsWhole)
    (arg2 : Memref sig .tc .vmem S768x2304 .bf16) (harg2 : arg2.IsWhole) (arg3 : Memref sig .tc .vmem S1x2304 .f32) (harg3 : arg3.IsWhole)
    (arg4 : Memref sig .tc .vmem S512x2304 .bf16) (harg4 : arg4.IsWhole)
    (x0 : Vec F S512x768 .f32) (x1 : Vec F S768x2304 .bf16) (x2 : Vec F S1x2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core `c`: the arrays as the region finds them; after the body at point `t`
    each input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KB.AttnShared.lean ====
/-
  The second pallas_call (attention fused with the output projection; grid batch × query tile × head, the head axis
  innermost) as a pipeline, at any float instance and any entry contents `V`: the windows' blocks; the two control cases
  of the body — the first head of a tile stores `bias + contribution` into the output tile, every later head adds its
  contribution to what the tile holds — decided over the grid; the body's accesses; and what each case leaves in the
  attention-weight block and in the output tile.
-/
import proofs.«150536_j50783693308250_2_alg».proof.Proof.Gen.Kernel.Launch
import proofs.«150536_j50783693308250_2_alg».proof.Proof.Gen.Kernel.Skeleton
import proofs.«150536_j50783693308250_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The first head of a tile: the head coordinate is zero. -/
abbrev isFirst (i : grid1.Coords) : Prop := k1_cond1 i = 1#1
/-- A later head: the head coordinate is not zero. -/
abbrev isLater (i : grid1.Coords) : Prop := k1_cond2 i = 1#1
/-- The head coordinate of point `t` is `t mod 12`: the first-head condition, decided over the grid. -/
theorem isFirst_iff : ∀ t : Fin cfg1.N, isFirst (grid1.coords t) ↔ t.val % 12 = 0 :=
  (by decide +kernel : ∀ t : Fin grid1.N, isFirst (grid1.coords t) ↔ t.val % 12 = 0)
theorem isLater_iff : ∀ t : Fin cfg1.N, isLater (grid1.coords t) ↔ ¬t.val % 12 = 0 :=
  (by decide +kernel : ∀ t : Fin grid1.N, isLater (grid1.coords t) ↔ ¬t.val % 12 = 0)
/-- The output tile's window is never idle: one of the two stores happens at every point. -/
theorem live6 : ∀ i : grid1.Coords, cfg1.idle 6 i = false :=
  (by decide +kernel : ∀ i : grid1.Coords, idle1 6 i = false)

/-- The body's accesses: each a whole block. -/
abbrev rQ : Rect S1x512x64 := Rect.unit (s := S1x512x64) ![0, 0, 0] S1x512x64.size inb_S1x512x64_S1x512x64_0_0_0
abbrev rKV : Rect S1x2048x64 := Rect.unit (s := S1x2048x64) ![0, 0, 0] S1x2048x64.size inb_S1x2048x64_S1x2048x64_0_0_0
abbrev rWo : Rect S64x768 := Rect.unit (s := S64x768) ![0, 0] S64x768.size inb_S64x768_S64x768_0_0
abbrev rBo : Rect S1x768 := Rect.unit (s := S1x768) ![0, 0] S1x768.size inb_S1x768_S1x768_0_0
abbrev rAt : Rect S1x1x512x2048 := Rect.unit (s := S1x1x512x2048) ![0, 0, 0, 0] S1x1x512x2048.size inb_S1x1x512x2048_S1x1x512x2048_0_0_0_0
abbrev rOt : Rect S512x768 := Rect.unit (s := S512x768) ![0, 0] S512x768.size inb_S512x768_S512x768_0_0

/-- The attention-weight block after the body: its one store, of the softmax payload. -/
def outAttn (x0 : Vec F S1x512x64 .bf16) (x1 : Vec F S1x2048x64 .bf16) : Vec F S1x1x512x2048 .f32 :=
  View.canon [⟨rAt, k1_pay3 (View.ld x0 rQ) (View.ld x1 rKV)⟩]
/-- The output tile after the first head: the bias row plus the head's contribution. -/
def outFirst (x0 : Vec F S1x512x64 .bf16) (x1 : Vec F S1x2048x64 .bf16) (x2 : Vec F S1x2048x64 .bf16) (x3 : Vec F S64x768 .bf16) (x4 : Vec F S1x768 .f32) : Vec F S512x768 .f32 :=
  View.canon [⟨rOt, k1_pay5 (View.ld x0 rQ) (View.ld x1 rKV) (View.ld x2 rKV) (View.ld x3 rWo) (View.ld x4 rBo)⟩]
/-- The output tile after a later head: what it held (`xo`) plus the head's contribution. -/
def outLater (x0 : Vec F S1x512x64 .bf16) (x1 : Vec F S1x2048x64 .bf16) (x2 : Vec F S1x2048x64 .bf16) (x3 : Vec F S64x768 .bf16)
    (xo : Vec F S512x768 .f32) : Vec F S512x768 .f32 :=
  View.canon [⟨rOt, k1_pay1 (k1_pay4 (View.ld x0 rQ) (View.ld x1 rKV) (View.ld x2 rKV) (View.ld x3 rWo)) (View.ld xo rOt)⟩]

/-- Each store covers its block. -/
theorem coverAt (p0 : Vec F S1x1x512x2048 .f32) (y : S1x1x512x2048.Idx) :
    ∃ pc ∈ ([⟨rAt, p0⟩] : List (View.Piece (Elt F) S1x1x512x2048 .f32)), y ∈ pc.1.set :=
  View.cover_of_tiled [⟨rAt, p0⟩] S1x1x512x2048.size (by rfl) y
theorem coverOt (p0 : Vec F S512x768 .f32) (y : S512x768.Idx) :
    ∃ pc ∈ ([⟨rOt, p0⟩] : List (View.Piece (Elt F) S512x768 .f32)), y ∈ pc.1.set :=
  View.cover_of_tiled [⟨rOt, p0⟩] S512x768.size (by rfl) y

end Cert.Kernel.Frm

end
-- ==== Proof.KB.AttnFirst.lean ====
/-
  The attention body at the first head of a tile (head coordinate zero), on whole staging buffers: the inputs' at
  their contents, the two outputs' at anything; it leaves the softmax payload in the attention-weight block and
  `bias + contribution` in the output tile.
-/
import proofs.«150536_j50783693308250_2_alg».proof.Proof.KB.AttnShared

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem sound_first (c : Dev nD) (E : Set ℕ) (i : grid1.Coords) (arg3 : Memref sig .tc .vmem S1x512x64 .bf16) (harg3 : arg3.IsWhole) (arg4 : Memref sig .tc .vmem S1x2048x64 .bf16) (harg4 : arg4.IsWhole)
    (arg5 : Memref sig .tc .vmem S1x2048x64 .bf16) (harg5 : arg5.IsWhole) (arg6 : Memref sig .tc .vmem S64x768 .bf16) (harg6 : arg6.IsWhole)
    (arg7 : Memref sig .tc .vmem S1x768 .f32) (harg7 : arg7.IsWhole) (arg8 : Memref sig .tc .vmem S1x1x512x2048 .f32) (harg8 : arg8.IsWhole)
    (arg9 : Memref sig .tc .vmem S512x768 .f32) (harg9 : arg9.IsWhole)
    (hc0 : isFirst i) (hc1 : ¬isLater i) (x0 : Vec F S1x512x64 .bf16) (x1 : Vec F S1x2048x64 .bf16) (x2 : Vec F S1x2048x64 .bf16) (x3 : Vec F S64x768 .bf16) (x4 : Vec F S1x768 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
            ∗ owns (c : Thread nD τ) arg8 fullShare (outAttn x0 x1) ∗ owns (c : Thread nD τ) arg9 fullShare (outFirst x0 x1 x2 x3 x4)) -∗ K ⟨⟩))
      ⊢ wp frame (wpE (defs₀ (F := F)) Variants.none c none) E
          (cc1__attn_o_kernel i arg3 harg3 arg4 harg4 arg5 harg5 arg6 harg6 arg7 harg7 arg8 harg8 arg9 harg9) K := by
  simp only [cc1__attn_o_kernel_eq_skeleton]; unfold cc1__attn_o_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    exact View.read_writes_eq_canon _ _ _ (coverAt _)
  iexists _; isplitr
  swap; · iexact H9
  ipureintro
  exact View.read_writes_eq_canon _ _ _ (coverOt _)

end Cert.Kernel.Frm

end
-- ==== Proof.KB.AttnLater.lean ====
/-
  The attention body at a later head of a tile (head coordinate not zero), on whole staging buffers: the inputs' at
  their contents, the attention-weight block's at anything, the output tile's at what the heads before left (`xo`);
  it leaves the softmax payload in the attention-weight block and `xo + contribution` in the output tile.
-/
import proofs.«150536_j50783693308250_2_alg».proof.Proof.KB.AttnShared

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem sound_later (c : Dev nD) (E : Set ℕ) (i : grid1.Coords) (arg3 : Memref sig .tc .vmem S1x512x64 .bf16) (harg3 : arg3.IsWhole) (arg4 : Memref sig .tc .vmem S1x2048x64 .bf16) (harg4 : arg4.IsWhole)
    (arg5 : Memref sig .tc .vmem S1x2048x64 .bf16) (harg5 : arg5.IsWhole) (arg6 : Memref sig .tc .vmem S64x768 .bf16) (harg6 : arg6.IsWhole)
    (arg7 : Memref sig .tc .vmem S1x768 .f32) (harg7 : arg7.IsWhole) (arg8 : Memref sig .tc .vmem S1x1x512x2048 .f32) (harg8 : arg8.IsWhole)
    (arg9 : Memref sig .tc .vmem S512x768 .f32) (harg9 : arg9.IsWhole)
    (hc0 : ¬isFirst i) (hc1 : isLater i) (x0 : Vec F S1x512x64 .bf16) (x1 : Vec F S1x2048x64 .bf16) (x2 : Vec F S1x2048x64 .bf16) (x3 : Vec F S64x768 .bf16) (x4 : Vec F S1x768 .f32) (xo : Vec F S512x768 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ owns (c : Thread nD τ) arg9 fullShare xo
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
            ∗ owns (c : Thread nD τ) arg8 fullShare (outAttn x0 x1) ∗ owns (c : Thread nD τ) arg9 fullShare (outLater x0 x1 x2 x3 xo)) -∗ K ⟨⟩))
      ⊢ wp frame (wpE (defs₀ (F := F)) Variants.none c none) E
          (cc1__attn_o_kernel i arg3 harg3 arg4 harg4 arg5 harg5 arg6 harg6 arg7 harg7 arg8 harg8 arg9 harg9) K := by
  simp only [cc1__attn_o_kernel_eq_skeleton]; unfold cc1__attn_o_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%f9, %hf9, H9⟩, Hk⟩
  subst hf0 hf1 hf2 hf3 hf4 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    exact View.read_writes_eq_canon _ _ _ (coverAt _)
  iexists _; isplitr
  swap; · iexact H9
  ipureintro
  exact View.read_writes_eq_canon _ _ _ (coverOt _)

end Cert.Kernel.Frm

end
-- ==== Proof.KB.Attn.lean ====
/-
  The second pallas_call's proof data and body obligation, at any float instance and any entry contents `V`: what the
  output tile holds after each grid point (reset at the first head of a tile, accumulated over the later heads), the
  attention-weight block written afresh at every point, and the body's triple at every point from the two cases.
-/
import proofs.«150536_j50783693308250_2_alg».proof.Proof.KB.AttnFirst
import proofs.«150536_j50783693308250_2_alg».proof.Proof.KB.AttnLater

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- THE ACCUMULATION. What the output tile's staging buffer holds after the body at position `n`: at the first head
    of a tile the bias plus that head's contribution, at a later head what the position before left plus its
    contribution (the tile is not written back between). -/
def accAt (c : Dev nD) : (n : ℕ) → n < cfg1.N → Vec F S512x768 .f32
  | 0, hn => outFirst (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if (n + 1) % 12 = 0 then
      outFirst (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      outLater (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn))

theorem accAt_first (c : Dev nD) (t : Fin cfg1.N) (h0 : t.val % 12 = 0) :
    accAt V c t.val t.isLt = outFirst (iblk1 V c 0 t) (iblk1 V c 1 t) (iblk1 V c 2 t) (iblk1 V c 3 t) (iblk1 V c 4 t) := by
  obtain ⟨n, hn⟩ := t
  cases n with
  | zero => exact rfl
  | succ n => exact (if_pos h0).trans rfl

theorem accAt_later (c : Dev nD) (t : Fin cfg1.N) (h0 : ¬t.val % 12 = 0) :
    accAt V c t.val t.isLt = outLater (iblk1 V c 0 t) (iblk1 V c 1 t) (iblk1 V c 2 t) (iblk1 V c 3 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAttn (iblk1 V c 0 t) (iblk1 V c 1 t)
    | ⟨6, _⟩ => accAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAttn (iblk1 V c 0 t) (iblk1 V c 1 t) := by dsimp only [dat1]
theorem after1_6 (c : Dev nD) (t : Fin cfg1.N) : (dat1 V c).after 6 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- At a later head the output tile's staging buffer holds what the body left at the point before: the point is not
    the first, the tile was not written back between, the window is live and uncut. -/
theorem before1_6_later (c : Dev nD) (t : Fin cfg1.N) (h0 : ¬t.val % 12 = 0) (d) :
    (dat1 V c).before 6 t d = accAt V c (t.val - 1) (Nat.lt_of_le_of_lt (Nat.sub_le _ _) t.isLt) := by
  have hN : t.val < 96 := lt_of_lt_of_eq t.isLt (show cfg1.N = 96 from N_1)
  rw [Dat.before_out_kept _ 6 rfl t (by omega) (Bool.eq_false_iff.mpr fun h => by have := (flush1_6 _).mp h; dsimp only at this; omega)
    live6 (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

/-- A window live at a point is left at what the body leaves there. -/
theorem leaves1 (c : Dev nD) (t : Fin cfg1.N) (w : Fin cfg1.W) (hw : cfg1.idle w (cfg1.grid.coords t) = false) :
    (dat1 V c).leavesExact w t = owns (c : Thread nD τ) ((cfg1.win w).stage (cfg1.slots t w)) fullShare ((dat1 V c).after w t) := by
  unfold Dat.leavesExact; rw [hw]

set_option maxHeartbeats 800000 in
/-- The body at any point: the inputs' buffers hold their blocks; the head coordinate says which case the point is
    in; at a later head the output tile holds what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [leaves1 V c t 0 rfl, leaves1 V c t 1 rfl, leaves1 V c t 2 rfl, leaves1 V c t 3 rfl, leaves1 V c t 4 rfl, leaves1 V c t 5 rfl,
    leaves1 V c t 6 (live6 _)]
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h0 : t.val % 12 = 0
  · rw [accAt_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_first c Set.univ (grid1.coords t) _ _ _ _ _ _ _ _ _ _ _ _ _ _ ((isFirst_iff t).mpr h0) (fun h => (isLater_iff t).mp h h0)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt_later V c t h0]
    simp only [before1_6_later V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_later c Set.univ (grid1.coords t) _ _ _ _ _ _ _ _ _ _ _ _ _ _ (fun h => h0 ((isFirst_iff t).mp h)) ((isLater_iff t).mpr h0)
      (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KB.Run.lean ====
/-
  The whole program's run, at any float instance: @main is five items — a stretch of host operations, the projection
  pipeline, a second stretch, the attention pipeline, a last reshape. The buffers' contents at each boundary are a fold
  from the launch memory (a stretch applies its operations; a pipeline leaves its arrays at what its write-backs make of
  them and every other buffer alone). Every weakly fair execution terminates without a fault with every unscoped buffer
  at the last boundary's contents; the two results and the nine arguments are read off it.
-/
import proofs.«150536_j50783693308250_2_alg».proof.Proof.KB.Linear
import proofs.«150536_j50783693308250_2_alg».proof.Proof.KB.Attn
import proofs.«150536_j50783693308250_2_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the first stretch (the projection pipeline's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the projection pipeline's exit: its arrays at what it leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second stretch (the attention pipeline's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the attention pipeline's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last stretch: the contents the program ends with. -/
abbrev B5 : Dev nD → Valuation τ sig (Elt F) := fun c => StableHlo.after hostOps2 (B4 m ρ c)

/-- A buffer no stretch writes and no pipeline stages ends as launched. -/
theorem B5_untouched (c : Dev nD) (r : Ref sig .tc) (h0 : r ∉ (hostOps0_W : List (Ref sig .tc))) (h1 : r ∉ (hostOps1_W : List (Ref sig .tc)))
    (h2 : r ∉ (hostOps2_W : List (Ref sig .tc))) (hw0 : ∀ w, Pipeline.arrRef spec0 w ≠ r) (hw1 : ∀ w, Pipeline.arrRef spec1 w ≠ r) :
    B5 m ρ c (Proc.devRef .tc r) = m ((c : Thread nD τ).loc r) :=
  calc B5 m ρ c (Proc.devRef .tc r)
    _ = B4 m ρ c (Proc.devRef .tc r) := StableHlo.after_of_writes_sub hostOps2 _ hostOps2_writes h2
    _ = B3 m ρ c (Proc.devRef .tc r) := B4_of_ne m ρ c r hw1
    _ = B2 m ρ c (Proc.devRef .tc r) := StableHlo.after_of_writes_sub hostOps1 _ hostOps1_writes h1
    _ = B1 m ρ c (Proc.devRef .tc r) := B2_of_ne m ρ c r hw0
    _ = B0 m ρ c (Proc.devRef .tc r) := StableHlo.after_of_writes_sub hostOps0 _ hostOps0_writes h0
    _ = m ((c : Thread nD τ).loc r) := rfl

theorem B5_main_arg0 (c : Dev nD) : B5 m ρ c (Proc.devRef .tc main_arg0) = m ((c : Thread nD τ).loc main_arg0) :=
  B5_untouched m ρ c main_arg0 (by decide) (by decide) (by decide) (by decide) (by decide)
theorem B5_main_arg1 (c : Dev nD) : B5 m ρ c (Proc.devRef .tc main_arg1) = m ((c : Thread nD τ).loc main_arg1) :=
  B5_untouched m ρ c main_arg1 (by decide) (by decide) (by decide) (by decide) (by decide)
theorem B5_main_arg2 (c : Dev nD) : B5 m ρ c (Proc.devRef .tc main_arg2) = m ((c : Thread nD τ).loc main_arg2) :=
  B5_untouched m ρ c main_arg2 (by decide) (by decide) (by decide) (by decide) (by decide)
theorem B5_main_arg3 (c : Dev nD) : B5 m ρ c (Proc.devRef .tc main_arg3) = m ((c : Thread nD τ).loc main_arg3) :=
  B5_untouched m ρ c main_arg3 (by decide) (by decide) (by decide) (by decide) (by decide)
theorem B5_main_arg4 (c : Dev nD) : B5 m ρ c (Proc.devRef .tc main_arg4) = m ((c : Thread nD τ).loc main_arg4) :=
  B5_untouched m ρ c main_arg4 (by decide) (by decide) (by decide) (by decide) (by decide)
theorem B5_main_arg5 (c : Dev nD) : B5 m ρ c (Proc.devRef .tc main_arg5) = m ((c : Thread nD τ).loc main_arg5) :=
  B5_untouched m ρ c main_arg5 (by decide) (by decide) (by decide) (by decide) (by decide)
theorem B5_main_arg6 (c : Dev nD) : B5 m ρ c (Proc.devRef .tc main_arg6) = m ((c : Thread nD τ).loc main_arg6) :=
  B5_untouched m ρ c main_arg6 (by decide) (by decide) (by decide) (by decide) (by decide)
theorem B5_main_arg7 (c : Dev nD) : B5 m ρ c (Proc.devRef .tc main_arg7) = m ((c : Thread nD τ).loc main_arg7) :=
  B5_untouched m ρ c main_arg7 (by decide) (by decide) (by decide) (by decide) (by decide)
theorem B5_main_arg8 (c : Dev nD) : B5 m ρ c (Proc.devRef .tc main_arg8) = m ((c : Thread nD τ).loc main_arg8) :=
  B5_untouched m ρ c main_arg8 (by decide) (by decide) (by decide) (by decide) (by decide)

/-! ## The proof data family and the thread state -/

abbrev admT : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admT p) c
  | ⟨0, _⟩ => fun c => dat0 (E1 m ρ) c
  | ⟨1, _⟩ => fun c => dat1 (E3 m ρ) c
abbrev 𝒱n : Variants := Variants.none
abbrev Ln : GSem nD τ sig → Finset Unit := fun _ => ∅
abbrev lvn : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
/-- A host stretch as an item. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (B5 m ρ c) ∗ ∃ r, prngReg c r)

/-! ## The pipelines as items -/

set_option backward.isDefEq.respectTransparency.types false in
/-- Region 0 over the thread state: entered with every unscoped buffer at `B1`, left with them at `B2`: its
    arrays are split out of the unscoped buffers and put back at what the pipeline leaves; the generator register goes
    into the pipeline's invariant and comes back; nothing is owed; the kernel has no semaphore of its own. -/
def reg0 : Pipeline.RegionSeg (pcfgs (F := F)) admT (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Ln lvn 0 fun _ _ => rfl
  pre c := iprop(StableHlo.held (c : Thread nD τ) (Pipeline.ucRefs τ sig) (B1 m ρ c) ∗ Rst c)
  post c := iprop(StableHlo.held (c : Thread nD τ) (Pipeline.ucRefs τ sig) (B2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B3`, left with them at `B4`: its
    arrays are split out of the unscoped buffers and put back at what the pipeline leaves; the generator register goes
    into the pipeline's invariant and comes back; nothing is owed; the kernel has no semaphore of its own. -/
def reg1 : Pipeline.RegionSeg (pcfgs (F := F)) admT (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Ln lvn 1 fun _ _ => rfl
  pre c := iprop(StableHlo.held (c : Thread nD τ) (Pipeline.ucRefs τ sig) (B3 m ρ c) ∗ Rst c)
  post c := iprop(StableHlo.held (c : Thread nD τ) (Pipeline.ucRefs τ sig) (B4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev items : List (Pipeline.Seg (pcfgs (F := F)) admT (pdats m ρ) () defs₀ 𝒱n Ln lvn) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) admT (pdats m ρ) () cellOf_inj emb₁ defs₀ 𝒱n Ln lvn m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rst c)) (Tₙ := Tend m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ Rst c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Ln lvn fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_ucRefs main_arg0 (by decide))).trans (B5_main_arg0 m ρ c),
      (h c _ (mem_ucRefs main_arg1 (by decide))).trans (B5_main_arg1 m ρ c),
      (h c _ (mem_ucRefs main_arg2 (by decide))).trans (B5_main_arg2 m ρ c),
      (h c _ (mem_ucRefs main_arg3 (by decide))).trans (B5_main_arg3 m ρ c),
      (h c _ (mem_ucRefs main_arg4 (by decide))).trans (B5_main_arg4 m ρ c),
      (h c _ (mem_ucRefs main_arg5 (by decide))).trans (B5_main_arg5 m ρ c),
      (h c _ (mem_ucRefs main_arg6 (by decide))).trans (B5_main_arg6 m ρ c),
      (h c _ (mem_ucRefs main_arg7 (by decide))).trans (B5_main_arg7 m ρ c),
      (h c _ (mem_ucRefs main_arg8 (by decide))).trans (B5_main_arg8 m ρ c)⟩) (run_all m ρ)

/-- THE RUN WITH THE RESULTS NAMED: the two results at the last boundary's contents, the arguments as launched. -/
theorem run_results : θ_run defs (onTc (τ := τ) (main (F := F))) ⟨m, fun _ => 0, ρ⟩ (fun r => ∀ c : Dev nD,
      r.2.mem ((c.tc : Thread nD τ).loc main_v25) = B5 m ρ c (Proc.devRef .tc main_v25)
      ∧ r.2.mem ((c.tc : Thread nD τ).loc main_v24_0) = B5 m ρ c (Proc.devRef .tc main_v24_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c _ (mem_ucRefs main_v25 (by decide)), h c _ (mem_ucRefs main_v24_0 (by decide)),
      (h c _ (mem_ucRefs main_arg0 (by decide))).trans (B5_main_arg0 m ρ c),
      (h c _ (mem_ucRefs main_arg1 (by decide))).trans (B5_main_arg1 m ρ c),
      (h c _ (mem_ucRefs main_arg2 (by decide))).trans (B5_main_arg2 m ρ c),
      (h c _ (mem_ucRefs main_arg3 (by decide))).trans (B5_main_arg3 m ρ c),
      (h c _ (mem_ucRefs main_arg4 (by decide))).trans (B5_main_arg4 m ρ c),
      (h c _ (mem_ucRefs main_arg5 (by decide))).trans (B5_main_arg5 m ρ c),
      (h c _ (mem_ucRefs main_arg6 (by decide))).trans (B5_main_arg6 m ρ c),
      (h c _ (mem_ucRefs main_arg7 (by decide))).trans (B5_main_arg7 m ρ c),
      (h c _ (mem_ucRefs main_arg8 (by decide))).trans (B5_main_arg8 m ρ c)⟩) (run_all m ρ)

end Cert.Kernel.Frm

end
-- ==== Proof.KI.Linear.lean ====
/-
  The first pallas_call (the fused q/k/v projection, one block of 512 rows per grid point) as a pipeline, at any
  float instance and at any contents `V` of the buffers when the region is entered: each window's block at a point,
  what the body leaves in the output block (its one store, of the payload of the three loaded blocks), the body's
  triple, the pipeline's proof data and the body obligation at every point.
-/
import proofs.«150536_j50783693308250_2_alg».proof.Proof.Gen.KernelIdeal.Launch
import proofs.«150536_j50783693308250_2_alg».proof.Proof.Gen.KernelIdeal.Skeleton
import proofs.«150536_j50783693308250_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's four accesses: each a whole block. -/
abbrev rX : Rect S512x768 := Rect.unit (s := S512x768) ![0, 0] S512x768.size inb_S512x768_S512x768_0_0
abbrev rW : Rect S768x2304 := Rect.unit (s := S768x2304) ![0, 0] S768x2304.size inb_S768x2304_S768x2304_0_0
abbrev rB : Rect S1x2304 := Rect.unit (s := S1x2304) ![0, 0] S1x2304.size inb_S1x2304_S1x2304_0_0
abbrev rO : Rect S512x2304 := Rect.unit (s := S512x2304) ![0, 0] S512x2304.size inb_S512x2304_S512x2304_0_0

/-- The output block after the body, from the three input blocks: its one store. -/
def out0_3 (x0 : Vec F S512x768 .f32) (x1 : Vec F S768x2304 .bf16) (x2 : Vec F S1x2304 .f32) : Vec F S512x2304 .bf16 :=
  View.canon [⟨rO, k0_pay1 (View.ld x0 rX) (View.ld x1 rW) (View.ld x2 rB)⟩]

/-- The store covers the block. -/
theorem cover0_3 (p0 : Vec F S512x2304 .bf16) (y : S512x2304.Idx) :
    ∃ pc ∈ ([⟨rO, p0⟩] : List (View.Piece (Elt F) S512x2304 .bf16)), y ∈ pc.1.set :=
  View.cover_of_tiled [⟨rO, p0⟩] S512x2304.size (by rfl) y

set_option maxHeartbeats 1000000 in
/-- The body on whole staging buffers, the inputs' at contents `x0 x1 x2` and the output's at anything, runs to the
    continuation holding the inputs' as they were and the output's at `out0_3` of them. -/
theorem sound_kernel0 (c : Dev nD) (E : Set ℕ) (i : grid0.Coords) (arg1 : Memref sig .tc .vmem S512x768 .f32) (harg1 : arg1.IsWhole)
    (arg2 : Memref sig .tc .vmem S768x2304 .bf16) (harg2 : arg2.IsWhole) (arg3 : Memref sig .tc .vmem S1x2304 .f32) (harg3 : arg3.IsWhole)
    (arg4 : Memref sig .tc .vmem S512x2304 .bf16) (harg4 : arg4.IsWhole)
    (x0 : Vec F S512x768 .f32) (x1 : Vec F S768x2304 .bf16) (x2 : Vec F S1x2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core `c`: the arrays as the region finds them; after the body at point `t`
    each input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.AttnShared.lean ====
/-
  The second pallas_call (attention fused with the output projection; grid batch × query tile × head, the head axis
  innermost) as a pipeline, at any float instance and any entry contents `V`: the windows' blocks; the two control cases
  of the body — the first head of a tile stores `bias + contribution` into the output tile, every later head adds its
  contribution to what the tile holds — decided over the grid; the body's accesses; and what each case leaves in the
  attention-weight block and in the output tile.
-/
import proofs.«150536_j50783693308250_2_alg».proof.Proof.Gen.KernelIdeal.Launch
import proofs.«150536_j50783693308250_2_alg».proof.Proof.Gen.KernelIdeal.Skeleton
import proofs.«150536_j50783693308250_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The first head of a tile: the head coordinate is zero. -/
abbrev isFirst (i : grid1.Coords) : Prop := k1_cond1 i = 1#1
/-- A later head: the head coordinate is not zero. -/
abbrev isLater (i : grid1.Coords) : Prop := k1_cond2 i = 1#1
/-- The head coordinate of point `t` is `t mod 12`: the first-head condition, decided over the grid. -/
theorem isFirst_iff : ∀ t : Fin cfg1.N, isFirst (grid1.coords t) ↔ t.val % 12 = 0 :=
  (by decide +kernel : ∀ t : Fin grid1.N, isFirst (grid1.coords t) ↔ t.val % 12 = 0)
theorem isLater_iff : ∀ t : Fin cfg1.N, isLater (grid1.coords t) ↔ ¬t.val % 12 = 0 :=
  (by decide +kernel : ∀ t : Fin grid1.N, isLater (grid1.coords t) ↔ ¬t.val % 12 = 0)
/-- The output tile's window is never idle: one of the two stores happens at every point. -/
theorem live6 : ∀ i : grid1.Coords, cfg1.idle 6 i = false :=
  (by decide +kernel : ∀ i : grid1.Coords, idle1 6 i = false)

/-- The body's accesses: each a whole block. -/
abbrev rQ : Rect S1x512x64 := Rect.unit (s := S1x512x64) ![0, 0, 0] S1x512x64.size inb_S1x512x64_S1x512x64_0_0_0
abbrev rKV : Rect S1x2048x64 := Rect.unit (s := S1x2048x64) ![0, 0, 0] S1x2048x64.size inb_S1x2048x64_S1x2048x64_0_0_0
abbrev rWo : Rect S64x768 := Rect.unit (s := S64x768) ![0, 0] S64x768.size inb_S64x768_S64x768_0_0
abbrev rBo : Rect S1x768 := Rect.unit (s := S1x768) ![0, 0] S1x768.size inb_S1x768_S1x768_0_0
abbrev rAt : Rect S1x1x512x2048 := Rect.unit (s := S1x1x512x2048) ![0, 0, 0, 0] S1x1x512x2048.size inb_S1x1x512x2048_S1x1x512x2048_0_0_0_0
abbrev rOt : Rect S512x768 := Rect.unit (s := S512x768) ![0, 0] S512x768.size inb_S512x768_S512x768_0_0

/-- The attention-weight block after the body: its one store, of the softmax payload. -/
def outAttn (x0 : Vec F S1x512x64 .bf16) (x1 : Vec F S1x2048x64 .bf16) : Vec F S1x1x512x2048 .f32 :=
  View.canon [⟨rAt, k1_pay3 (View.ld x0 rQ) (View.ld x1 rKV)⟩]
/-- The output tile after the first head: the bias row plus the head's contribution. -/
def outFirst (x0 : Vec F S1x512x64 .bf16) (x1 : Vec F S1x2048x64 .bf16) (x2 : Vec F S1x2048x64 .bf16) (x3 : Vec F S64x768 .bf16) (x4 : Vec F S1x768 .f32) : Vec F S512x768 .f32 :=
  View.canon [⟨rOt, k1_pay5 (View.ld x0 rQ) (View.ld x1 rKV) (View.ld x2 rKV) (View.ld x3 rWo) (View.ld x4 rBo)⟩]
/-- The output tile after a later head: what it held (`xo`) plus the head's contribution. -/
def outLater (x0 : Vec F S1x512x64 .bf16) (x1 : Vec F S1x2048x64 .bf16) (x2 : Vec F S1x2048x64 .bf16) (x3 : Vec F S64x768 .bf16)
    (xo : Vec F S512x768 .f32) : Vec F S512x768 .f32 :=
  View.canon [⟨rOt, k1_pay1 (k1_pay4 (View.ld x0 rQ) (View.ld x1 rKV) (View.ld x2 rKV) (View.ld x3 rWo)) (View.ld xo rOt)⟩]

/-- Each store covers its block. -/
theorem coverAt (p0 : Vec F S1x1x512x2048 .f32) (y : S1x1x512x2048.Idx) :
    ∃ pc ∈ ([⟨rAt, p0⟩] : List (View.Piece (Elt F) S1x1x512x2048 .f32)), y ∈ pc.1.set :=
  View.cover_of_tiled [⟨rAt, p0⟩] S1x1x512x2048.size (by rfl) y
theorem coverOt (p0 : Vec F S512x768 .f32) (y : S512x768.Idx) :
    ∃ pc ∈ ([⟨rOt, p0⟩] : List (View.Piece (Elt F) S512x768 .f32)), y ∈ pc.1.set :=
  View.cover_of_tiled [⟨rOt, p0⟩] S512x768.size (by rfl) y

end Cert.KernelIdeal.Frm

end
-- ==== Proof.KI.AttnFirst.lean ====
/-
  The attention body at the first head of a tile (head coordinate zero), on whole staging buffers: the inputs' at
  their contents, the two outputs' at anything; it leaves the softmax payload in the attention-weight block and
  `bias + contribution` in the output tile.
-/
import proofs.«150536_j50783693308250_2_alg».proof.Proof.KI.AttnShared

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem sound_first (c : Dev nD) (E : Set ℕ) (i : grid1.Coords) (arg3 : Memref sig .tc .vmem S1x512x64 .bf16) (harg3 : arg3.IsWhole) (arg4 : Memref sig .tc .vmem S1x2048x64 .bf16) (harg4 : arg4.IsWhole)
    (arg5 : Memref sig .tc .vmem S1x2048x64 .bf16) (harg5 : arg5.IsWhole) (arg6 : Memref sig .tc .vmem S64x768 .bf16) (harg6 : arg6.IsWhole)
    (arg7 : Memref sig .tc .vmem S1x768 .f32) (harg7 : arg7.IsWhole) (arg8 : Memref sig .tc .vmem S1x1x512x2048 .f32) (harg8 : arg8.IsWhole)
    (arg9 : Memref sig .tc .vmem S512x768 .f32) (harg9 : arg9.IsWhole)
    (hc0 : isFirst i) (hc1 : ¬isLater i) (x0 : Vec F S1x512x64 .bf16) (x1 : Vec F S1x2048x64 .bf16) (x2 : Vec F S1x2048x64 .bf16) (x3 : Vec F S64x768 .bf16) (x4 : Vec F S1x768 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
            ∗ owns (c : Thread nD τ) arg8 fullShare (outAttn x0 x1) ∗ owns (c : Thread nD τ) arg9 fullShare (outFirst x0 x1 x2 x3 x4)) -∗ K ⟨⟩))
      ⊢ wp frame (wpE (defs₀ (F := F)) Variants.none c none) E
          (cc1__attn_o_kernel i arg3 harg3 arg4 harg4 arg5 harg5 arg6 harg6 arg7 harg7 arg8 harg8 arg9 harg9) K := by
  simp only [cc1__attn_o_kernel_eq_skeleton]; unfold cc1__attn_o_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    exact View.read_writes_eq_canon _ _ _ (coverAt _)
  iexists _; isplitr
  swap; · iexact H9
  ipureintro
  exact View.read_writes_eq_canon _ _ _ (coverOt _)

end Cert.KernelIdeal.Frm

end
-- ==== Proof.KI.AttnLater.lean ====
/-
  The attention body at a later head of a tile (head coordinate not zero), on whole staging buffers: the inputs' at
  their contents, the attention-weight block's at anything, the output tile's at what the heads before left (`xo`);
  it leaves the softmax payload in the attention-weight block and `xo + contribution` in the output tile.
-/
import proofs.«150536_j50783693308250_2_alg».proof.Proof.KI.AttnShared

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem sound_later (c : Dev nD) (E : Set ℕ) (i : grid1.Coords) (arg3 : Memref sig .tc .vmem S1x512x64 .bf16) (harg3 : arg3.IsWhole) (arg4 : Memref sig .tc .vmem S1x2048x64 .bf16) (harg4 : arg4.IsWhole)
    (arg5 : Memref sig .tc .vmem S1x2048x64 .bf16) (harg5 : arg5.IsWhole) (arg6 : Memref sig .tc .vmem S64x768 .bf16) (harg6 : arg6.IsWhole)
    (arg7 : Memref sig .tc .vmem S1x768 .f32) (harg7 : arg7.IsWhole) (arg8 : Memref sig .tc .vmem S1x1x512x2048 .f32) (harg8 : arg8.IsWhole)
    (arg9 : Memref sig .tc .vmem S512x768 .f32) (harg9 : arg9.IsWhole)
    (hc0 : ¬isFirst i) (hc1 : isLater i) (x0 : Vec F S1x512x64 .bf16) (x1 : Vec F S1x2048x64 .bf16) (x2 : Vec F S1x2048x64 .bf16) (x3 : Vec F S64x768 .bf16) (x4 : Vec F S1x768 .f32) (xo : Vec F S512x768 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ owns (c : Thread nD τ) arg9 fullShare xo
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
            ∗ owns (c : Thread nD τ) arg8 fullShare (outAttn x0 x1) ∗ owns (c : Thread nD τ) arg9 fullShare (outLater x0 x1 x2 x3 xo)) -∗ K ⟨⟩))
      ⊢ wp frame (wpE (defs₀ (F := F)) Variants.none c none) E
          (cc1__attn_o_kernel i arg3 harg3 arg4 harg4 arg5 harg5 arg6 harg6 arg7 harg7 arg8 harg8 arg9 harg9) K := by
  simp only [cc1__attn_o_kernel_eq_skeleton]; unfold cc1__attn_o_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%f9, %hf9, H9⟩, Hk⟩
  subst hf0 hf1 hf2 hf3 hf4 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    exact View.read_writes_eq_canon _ _ _ (coverAt _)
  iexists _; isplitr
  swap; · iexact H9
  ipureintro
  exact View.read_writes_eq_canon _ _ _ (coverOt _)

end Cert.KernelIdeal.Frm

end
-- ==== Proof.KI.Attn.lean ====
/-
  The second pallas_call's proof data and body obligation, at any float instance and any entry contents `V`: what the
  output tile holds after each grid point (reset at the first head of a tile, accumulated over the later heads), the
  attention-weight block written afresh at every point, and the body's triple at every point from the two cases.
-/
import proofs.«150536_j50783693308250_2_alg».proof.Proof.KI.AttnFirst
import proofs.«150536_j50783693308250_2_alg».proof.Proof.KI.AttnLater

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- THE ACCUMULATION. What the output tile's staging buffer holds after the body at position `n`: at the first head
    of a tile the bias plus that head's contribution, at a later head what the position before left plus its
    contribution (the tile is not written back between). -/
def accAt (c : Dev nD) : (n : ℕ) → n < cfg1.N → Vec F S512x768 .f32
  | 0, hn => outFirst (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if (n + 1) % 12 = 0 then
      outFirst (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      outLater (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn))

theorem accAt_first (c : Dev nD) (t : Fin cfg1.N) (h0 : t.val % 12 = 0) :
    accAt V c t.val t.isLt = outFirst (iblk1 V c 0 t) (iblk1 V c 1 t) (iblk1 V c 2 t) (iblk1 V c 3 t) (iblk1 V c 4 t) := by
  obtain ⟨n, hn⟩ := t
  cases n with
  | zero => exact rfl
  | succ n => exact (if_pos h0).trans rfl

theorem accAt_later (c : Dev nD) (t : Fin cfg1.N) (h0 : ¬t.val % 12 = 0) :
    accAt V c t.val t.isLt = outLater (iblk1 V c 0 t) (iblk1 V c 1 t) (iblk1 V c 2 t) (iblk1 V c 3 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAttn (iblk1 V c 0 t) (iblk1 V c 1 t)
    | ⟨6, _⟩ => accAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAttn (iblk1 V c 0 t) (iblk1 V c 1 t) := by dsimp only [dat1]
theorem after1_6 (c : Dev nD) (t : Fin cfg1.N) : (dat1 V c).after 6 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- At a later head the output tile's staging buffer holds what the body left at the point before: the point is not
    the first, the tile was not written back between, the window is live and uncut. -/
theorem before1_6_later (c : Dev nD) (t : Fin cfg1.N) (h0 : ¬t.val % 12 = 0) (d) :
    (dat1 V c).before 6 t d = accAt V c (t.val - 1) (Nat.lt_of_le_of_lt (Nat.sub_le _ _) t.isLt) := by
  have hN : t.val < 96 := lt_of_lt_of_eq t.isLt (show cfg1.N = 96 from N_1)
  rw [Dat.before_out_kept _ 6 rfl t (by omega) (Bool.eq_false_iff.mpr fun h => by have := (flush1_6 _).mp h; dsimp only at this; omega)
    live6 (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

/-- A window live at a point is left at what the body leaves there. -/
theorem leaves1 (c : Dev nD) (t : Fin cfg1.N) (w : Fin cfg1.W) (hw : cfg1.idle w (cfg1.grid.coords t) = false) :
    (dat1 V c).leavesExact w t = owns (c : Thread nD τ) ((cfg1.win w).stage (cfg1.slots t w)) fullShare ((dat1 V c).after w t) := by
  unfold Dat.leavesExact; rw [hw]

set_option maxHeartbeats 800000 in
/-- The body at any point: the inputs' buffers hold their blocks; the head coordinate says which case the point is
    in; at a later head the output tile holds what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [leaves1 V c t 0 rfl, leaves1 V c t 1 rfl, leaves1 V c t 2 rfl, leaves1 V c t 3 rfl, leaves1 V c t 4 rfl, leaves1 V c t 5 rfl,
    leaves1 V c t 6 (live6 _)]
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h0 : t.val % 12 = 0
  · rw [accAt_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_first c Set.univ (grid1.coords t) _ _ _ _ _ _ _ _ _ _ _ _ _ _ ((isFirst_iff t).mpr h0) (fun h => (isLater_iff t).mp h h0)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt_later V c t h0]
    simp only [before1_6_later V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_later c Set.univ (grid1.coords t) _ _ _ _ _ _ _ _ _ _ _ _ _ _ (fun h => h0 ((isFirst_iff t).mp h)) ((isLater_iff t).mpr h0)
      (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.Run.lean ====
/-
  The whole program's run, at any float instance: @main is five items — a stretch of host operations, the projection
  pipeline, a second stretch, the attention pipeline, a last reshape. The buffers' contents at each boundary are a fold
  from the launch memory (a stretch applies its operations; a pipeline leaves its arrays at what its write-backs make of
  them and every other buffer alone). Every weakly fair execution terminates without a fault with every unscoped buffer
  at the last boundary's contents; the two results and the nine arguments are read off it.
-/
import proofs.«150536_j50783693308250_2_alg».proof.Proof.KI.Linear
import proofs.«150536_j50783693308250_2_alg».proof.Proof.KI.Attn
import proofs.«150536_j50783693308250_2_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the first stretch (the projection pipeline's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the projection pipeline's exit: its arrays at what it leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second stretch (the attention pipeline's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the attention pipeline's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last stretch: the contents the program ends with. -/
abbrev B5 : Dev nD → Valuation τ sig (Elt F) := fun c => StableHlo.after hostOps2 (B4 m ρ c)

/-- A buffer no stretch writes and no pipeline stages ends as launched. -/
theorem B5_untouched (c : Dev nD) (r : Ref sig .tc) (h0 : r ∉ (hostOps0_W : List (Ref sig .tc))) (h1 : r ∉ (hostOps1_W : List (Ref sig .tc)))
    (h2 : r ∉ (hostOps2_W : List (Ref sig .tc))) (hw0 : ∀ w, Pipeline.arrRef spec0 w ≠ r) (hw1 : ∀ w, Pipeline.arrRef spec1 w ≠ r) :
    B5 m ρ c (Proc.devRef .tc r) = m ((c : Thread nD τ).loc r) :=
  calc B5 m ρ c (Proc.devRef .tc r)
    _ = B4 m ρ c (Proc.devRef .tc r) := StableHlo.after_of_writes_sub hostOps2 _ hostOps2_writes h2
    _ = B3 m ρ c (Proc.devRef .tc r) := B4_of_ne m ρ c r hw1
    _ = B2 m ρ c (Proc.devRef .tc r) := StableHlo.after_of_writes_sub hostOps1 _ hostOps1_writes h1
    _ = B1 m ρ c (Proc.devRef .tc r) := B2_of_ne m ρ c r hw0
    _ = B0 m ρ c (Proc.devRef .tc r) := StableHlo.after_of_writes_sub hostOps0 _ hostOps0_writes h0
    _ = m ((c : Thread nD τ).loc r) := rfl

theorem B5_main_arg0 (c : Dev nD) : B5 m ρ c (Proc.devRef .tc main_arg0) = m ((c : Thread nD τ).loc main_arg0) :=
  B5_untouched m ρ c main_arg0 (by decide) (by decide) (by decide) (by decide) (by decide)
theorem B5_main_arg1 (c : Dev nD) : B5 m ρ c (Proc.devRef .tc main_arg1) = m ((c : Thread nD τ).loc main_arg1) :=
  B5_untouched m ρ c main_arg1 (by decide) (by decide) (by decide) (by decide) (by decide)
theorem B5_main_arg2 (c : Dev nD) : B5 m ρ c (Proc.devRef .tc main_arg2) = m ((c : Thread nD τ).loc main_arg2) :=
  B5_untouched m ρ c main_arg2 (by decide) (by decide) (by decide) (by decide) (by decide)
theorem B5_main_arg3 (c : Dev nD) : B5 m ρ c (Proc.devRef .tc main_arg3) = m ((c : Thread nD τ).loc main_arg3) :=
  B5_untouched m ρ c main_arg3 (by decide) (by decide) (by decide) (by decide) (by decide)
theorem B5_main_arg4 (c : Dev nD) : B5 m ρ c (Proc.devRef .tc main_arg4) = m ((c : Thread nD τ).loc main_arg4) :=
  B5_untouched m ρ c main_arg4 (by decide) (by decide) (by decide) (by decide) (by decide)
theorem B5_main_arg5 (c : Dev nD) : B5 m ρ c (Proc.devRef .tc main_arg5) = m ((c : Thread nD τ).loc main_arg5) :=
  B5_untouched m ρ c main_arg5 (by decide) (by decide) (by decide) (by decide) (by decide)
theorem B5_main_arg6 (c : Dev nD) : B5 m ρ c (Proc.devRef .tc main_arg6) = m ((c : Thread nD τ).loc main_arg6) :=
  B5_untouched m ρ c main_arg6 (by decide) (by decide) (by decide) (by decide) (by decide)
theorem B5_main_arg7 (c : Dev nD) : B5 m ρ c (Proc.devRef .tc main_arg7) = m ((c : Thread nD τ).loc main_arg7) :=
  B5_untouched m ρ c main_arg7 (by decide) (by decide) (by decide) (by decide) (by decide)
theorem B5_main_arg8 (c : Dev nD) : B5 m ρ c (Proc.devRef .tc main_arg8) = m ((c : Thread nD τ).loc main_arg8) :=
  B5_untouched m ρ c main_arg8 (by decide) (by decide) (by decide) (by decide) (by decide)

/-! ## The proof data family and the thread state -/

abbrev admT : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admT p) c
  | ⟨0, _⟩ => fun c => dat0 (E1 m ρ) c
  | ⟨1, _⟩ => fun c => dat1 (E3 m ρ) c
abbrev 𝒱n : Variants := Variants.none
abbrev Ln : GSem nD τ sig → Finset Unit := fun _ => ∅
abbrev lvn : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
/-- A host stretch as an item. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (B5 m ρ c) ∗ ∃ r, prngReg c r)

/-! ## The pipelines as items -/

set_option backward.isDefEq.respectTransparency.types false in
/-- Region 0 over the thread state: entered with every unscoped buffer at `B1`, left with them at `B2`: its
    arrays are split out of the unscoped buffers and put back at what the pipeline leaves; the generator register goes
    into the pipeline's invariant and comes back; nothing is owed; the kernel has no semaphore of its own. -/
def reg0 : Pipeline.RegionSeg (pcfgs (F := F)) admT (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Ln lvn 0 fun _ _ => rfl
  pre c := iprop(StableHlo.held (c : Thread nD τ) (Pipeline.ucRefs τ sig) (B1 m ρ c) ∗ Rst c)
  post c := iprop(StableHlo.held (c : Thread nD τ) (Pipeline.ucRefs τ sig) (B2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B3`, left with them at `B4`: its
    arrays are split out of the unscoped buffers and put back at what the pipeline leaves; the generator register goes
    into the pipeline's invariant and comes back; nothing is owed; the kernel has no semaphore of its own. -/
def reg1 : Pipeline.RegionSeg (pcfgs (F := F)) admT (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Ln lvn 1 fun _ _ => rfl
  pre c := iprop(StableHlo.held (c : Thread nD τ) (Pipeline.ucRefs τ sig) (B3 m ρ c) ∗ Rst c)
  post c := iprop(StableHlo.held (c : Thread nD τ) (Pipeline.ucRefs τ sig) (B4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev items : List (Pipeline.Seg (pcfgs (F := F)) admT (pdats m ρ) () defs₀ 𝒱n Ln lvn) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) admT (pdats m ρ) () cellOf_inj emb₁ defs₀ 𝒱n Ln lvn m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rst c)) (Tₙ := Tend m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ Rst c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Ln lvn fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_ucRefs main_arg0 (by decide))).trans (B5_main_arg0 m ρ c),
      (h c _ (mem_ucRefs main_arg1 (by decide))).trans (B5_main_arg1 m ρ c),
      (h c _ (mem_ucRefs main_arg2 (by decide))).trans (B5_main_arg2 m ρ c),
      (h c _ (mem_ucRefs main_arg3 (by decide))).trans (B5_main_arg3 m ρ c),
      (h c _ (mem_ucRefs main_arg4 (by decide))).trans (B5_main_arg4 m ρ c),
      (h c _ (mem_ucRefs main_arg5 (by decide))).trans (B5_main_arg5 m ρ c),
      (h c _ (mem_ucRefs main_arg6 (by decide))).trans (B5_main_arg6 m ρ c),
      (h c _ (mem_ucRefs main_arg7 (by decide))).trans (B5_main_arg7 m ρ c),
      (h c _ (mem_ucRefs main_arg8 (by decide))).trans (B5_main_arg8 m ρ c)⟩) (run_all m ρ)

/-- THE RUN WITH THE RESULTS NAMED: the two results at the last boundary's contents, the arguments as launched. -/
theorem run_results : θ_run defs (onTc (τ := τ) (main (F := F))) ⟨m, fun _ => 0, ρ⟩ (fun r => ∀ c : Dev nD,
      r.2.mem ((c.tc : Thread nD τ).loc main_v25) = B5 m ρ c (Proc.devRef .tc main_v25)
      ∧ r.2.mem ((c.tc : Thread nD τ).loc main_v24_0) = B5 m ρ c (Proc.devRef .tc main_v24_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c _ (mem_ucRefs main_v25 (by decide)), h c _ (mem_ucRefs main_v24_0 (by decide)),
      (h c _ (mem_ucRefs main_arg0 (by decide))).trans (B5_main_arg0 m ρ c),
      (h c _ (mem_ucRefs main_arg1 (by decide))).trans (B5_main_arg1 m ρ c),
      (h c _ (mem_ucRefs main_arg2 (by decide))).trans (B5_main_arg2 m ρ c),
      (h c _ (mem_ucRefs main_arg3 (by decide))).trans (B5_main_arg3 m ρ c),
      (h c _ (mem_ucRefs main_arg4 (by decide))).trans (B5_main_arg4 m ρ c),
      (h c _ (mem_ucRefs main_arg5 (by decide))).trans (B5_main_arg5 m ρ c),
      (h c _ (mem_ucRefs main_arg6 (by decide))).trans (B5_main_arg6 m ρ c),
      (h c _ (mem_ucRefs main_arg7 (by decide))).trans (B5_main_arg7 m ρ c),
      (h c _ (mem_ucRefs main_arg8 (by decide))).trans (B5_main_arg8 m ρ c)⟩) (run_all m ρ)

end Cert.KernelIdeal.Frm

end
-- ==== Proof.Spec.lean ====
/-
  Multi-head self-attention over the extended reals, index by index: the one function of the argument arrays that
  both programs compute.  An array is written here as a function of its literal coordinates (batch `Fin 2`, position
  `Fin 2048`, feature `Fin 768`, head `Fin 12`, head feature `Fin 64`), so the text depends on no program's shapes.

  * `proj x W b`: a linear layer, `y[b,s,f] = (∑ e, x[b,s,e] · W[f,e]) + b[f]`.
  * `hd h d`: feature `64·h + d`, the `d`-th feature of head `h`.
  * `score`: `(∑ d, q[b,i,hd h d] · k[b,j,hd h d]) · (1/8)` (the head dimension is 64, and `1/√64 = 1/8` exactly).
  * `rowMax`, `softmax`: the maximum of a row as the fold of `max` from `⊥`, and
    `softmax s j = exp (s j − max s) / ∑ j', exp (s j' − max s)` with the extended reals' quotient `Ideal.div`.
  * `attn`: the attention weights, `softmax` of a row of scores; `head`: `∑ k, attn[b,h,i,k] · v[b,k,hd h d]`.
  * `out`: the output projection of the heads laid side by side, `(∑ e, o[b,s,e] · Wo[f,e]) + bo[f]` with
    `o[b,s,64·h+d] = head[b,h,s,d]`.
-/
import Idealize.ShloMosaic.PureOps.Ideal
import Idealize.ShloMosaic.Lib.ValueIdx

noncomputable section

namespace Cert.Attn

open Idealize.ShloMosaic

/-- A batch of sequences of feature vectors, by coordinates. -/
abbrev Seq := Fin 2 → Fin 2048 → Fin 768 → EReal
/-- A square weight matrix `W[f, e]` (output feature first) and a bias. -/
abbrev Mat := Fin 768 → Fin 768 → EReal
abbrev Bias := Fin 768 → EReal

/-- The linear layer `(∑ e, x[b,s,e] · W[f,e]) + b[f]`. -/
def proj (x : Seq) (W : Mat) (b : Bias) : Seq := fun bb s f => (∑ e : Fin 768, x bb s e * W f e) + b f

/-- Feature `64·h + d`: the `d`-th feature of head `h`. -/
def hd (h : Fin 12) (d : Fin 64) : Fin 768 := ⟨h.val * 64 + d.val, by omega⟩

/-- The scaled score of query position `i` against key position `j` in head `h`. -/
def score (q k : Seq) (bb : Fin 2) (h : Fin 12) (i j : Fin 2048) : EReal :=
  (∑ d : Fin 64, q bb i (hd h d) * k bb j (hd h d)) * ((1 / 8 : ℝ) : EReal)

/-- A row's maximum: the fold of `max` from `⊥` over its entries. -/
def rowMax {n : ℕ} (s : Fin n → EReal) : EReal := (Finset.univ : Finset (Fin n)).fold max ⊥ s

/-- `softmax s j = exp (s j − max s) / ∑ j', exp (s j' − max s)`. -/
def softmax {n : ℕ} (s : Fin n → EReal) (j : Fin n) : EReal :=
  Ideal.div (Ideal.exp (s j - rowMax s)) (∑ j' : Fin n, Ideal.exp (s j' - rowMax s))

/-- The attention weights. -/
def attn (q k : Seq) (bb : Fin 2) (h : Fin 12) (i j : Fin 2048) : EReal := softmax (fun j' => score q k bb h i j') j

/-- One head's output: the weighted sum of the values. -/
def head (q k v : Seq) (bb : Fin 2) (h : Fin 12) (i : Fin 2048) (d : Fin 64) : EReal :=
  ∑ kk : Fin 2048, attn q k bb h i kk * v bb kk (hd h d)

/-- The heads laid side by side along the feature axis: feature `e` belongs to head `e / 64`, at `e % 64`. -/
def headFlat (q k v : Seq) : Seq := fun bb s e =>
  head q k v bb ⟨e.val / 64, by omega⟩ s ⟨e.val % 64, Nat.mod_lt _ (by decide)⟩

/-- The attention weights of the whole layer, from the arguments. -/
def attnOf (x : Seq) (Wq : Mat) (bq : Bias) (Wk : Mat) (bk : Bias) : Fin 2 → Fin 12 → Fin 2048 → Fin 2048 → EReal :=
  attn (proj x Wq bq) (proj x Wk bk)

/-- The layer's output, from the arguments. -/
def outOf (x : Seq) (Wq : Mat) (bq : Bias) (Wk : Mat) (bk : Bias) (Wv : Mat) (bv : Bias) (Wo : Mat) (bo : Bias) : Seq :=
  proj (headFlat (proj x Wq bq) (proj x Wk bk) (proj x Wv bv)) Wo bo

end Cert.Attn

end
-- ==== Proof.RefSpec.lean ====
/-
  The reference program computes the specification's attention, index by index.

  Each lemma reads one more stage of the reference at explicit coordinates. A projection is the contraction of the input
  with a weight matrix over the input feature plus the bias; reshaping `[2,2048,768]` to `[2,2048,12,64]` and exchanging the
  middle axes puts feature `64·h + d` at head `h`, head feature `d` (the row-major offsets agree). The scores are the
  contraction of queries and keys over the head feature divided by `8`, and dividing by a nonzero real is multiplying by
  its inverse on the extended reals. The row maximum is a fold of `max` from `-∞ = ⊥`, and the further `max` against a `⊥`
  splat is the identity. The softmax denominator is a sum from the initial value `0`. The heads' outputs are the contraction
  of the weights with the values over the key position; exchanging the axes back and flattening `[2,2048,12,64]` to
  `[2,2048,768]` puts head `e / 64`, head feature `e % 64` at feature `e`; the output is one more linear layer.
-/
import proofs.«150536_j50783693308250_2_alg».proof.Proof.Gen.ReferenceIdeal.Read
import proofs.«150536_j50783693308250_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.Attn

/-- The argument arrays as functions of their literal coordinates. -/
def seqOf (x : (⟨S2x2048x768, .f32⟩ : BufTy).Contents (Elt Ideal)) : Cert.Attn.Seq := fun b s e => x (ValueIdx.ix3 b s e)
def matOf (w : (⟨S768x768, .f32⟩ : BufTy).Contents (Elt Ideal)) : Cert.Attn.Mat := fun f e => w (ValueIdx.ix2 f e)
def biasOf (b : (⟨S768, .f32⟩ : BufTy).Contents (Elt Ideal)) : Cert.Attn.Bias := fun f => b (ValueIdx.ix1 f)

/-- The pattern `0xFF800000` is `-∞`, the bottom of the extended reals. -/
theorem ofBits_negInf : Ideal.ofBits .f32 0xFF800000#32 = (⊥ : EReal) := by
  simp [Ideal.ofBits, Ideal.ieee]

/-- The pattern `0x41000000` is the real `8 = √64`. -/
theorem ofBits_eight : Ideal.ofBits .f32 0x41000000#32 = ((8 : ℝ) : EReal) := by
  simp [Ideal.ofBits, Ideal.ieee, -EReal.coe_mul]; norm_num

/-- A linear layer at `(b, s, f)`: the contraction over the input feature plus the bias broadcast along batch and position. -/
theorem lin_apply (x : (⟨S2x2048x768, .f32⟩ : BufTy).Contents (Elt Ideal)) (W : (⟨S768x768, .f32⟩ : BufTy).Contents (Elt Ideal)) (bb : (⟨S768, .f32⟩ : BufTy).Contents (Elt Ideal)) (b : Fin 2) (s : Fin 2048) (f : Fin 768) :
    val_main_v3 (F := Ideal) x W bb (ix3 b s f) = proj (seqOf x) (matOf W) (biasOf bb) b s f := by
  rw [val_main_v3_apply, val_main_v0_apply, val_main_v2_apply, val_main_v1_apply]
  have e1 : ∀ k : Fin 768, lidx_main_v0 (ix3 b s f) k = ix3 b s k := fun k => funext fun a => by
    match a with | ⟨0, _⟩ => rfl | ⟨1, _⟩ => rfl | ⟨2, _⟩ => rfl
  have e2 : ∀ k : Fin 768, ridx_main_v0 (ix3 b s f) k = ix2 f k := fun k => funext fun a => by
    match a with | ⟨0, _⟩ => rfl | ⟨1, _⟩ => rfl
  have e3 : idx_main_v1 (idx_main_v2 (ix3 b s f)) = ix1 f := funext fun a => by
    match a with | ⟨0, _⟩ => rfl
  simp only [e1, e2, e3]
  rfl

/-- Splitting the feature axis into heads and moving the head axis forward: entry `(b, h, s, d)` of the `[2,12,2048,64]`
    array is entry `(b, s, 64·h + d)` of the `[2,2048,768]` one (row-major flat offsets agree). -/
theorem idx_split (b : Fin 2) (h : Fin 12) (s : Fin 2048) (d : Fin 64) :
    idx_main_v4 (idx_main_v5 (ix4 b h s d)) = ix3 b s (hd h d) := funext fun a => Fin.ext (by
  have hb := b.isLt; have hh := h.isLt; have hs := s.isLt; have hd' := d.isLt
  match a with
  | ⟨0, _⟩ => show (((b.val * 2048 + s.val) * 12 + h.val) * 64 + d.val) / 1572864 = b.val; omega
  | ⟨1, _⟩ => show (((b.val * 2048 + s.val) * 12 + h.val) * 64 + d.val) / 768 % 2048 = s.val; omega
  | ⟨2, _⟩ => show (((b.val * 2048 + s.val) * 12 + h.val) * 64 + d.val) % 768 = h.val * 64 + d.val; omega)

/-- A projection split into heads, at `(b, h, s, d)`: the linear layer at feature `64·h + d`. -/
theorem heads_apply (x : (⟨S2x2048x768, .f32⟩ : BufTy).Contents (Elt Ideal)) (W : (⟨S768x768, .f32⟩ : BufTy).Contents (Elt Ideal)) (bb : (⟨S768, .f32⟩ : BufTy).Contents (Elt Ideal)) (b : Fin 2) (h : Fin 12) (s : Fin 2048) (d : Fin 64) :
    val_main_v5 (F := Ideal) x W bb (ix4 b h s d) = proj (seqOf x) (matOf W) (biasOf bb) b s (hd h d) := by
  rw [val_main_v5_apply, val_main_v4_apply, idx_split, lin_apply]

/-- The keys and the values are the same stages as the queries, at their own weights. -/
theorem keys_apply (x : (⟨S2x2048x768, .f32⟩ : BufTy).Contents (Elt Ideal)) (W : (⟨S768x768, .f32⟩ : BufTy).Contents (Elt Ideal)) (bb : (⟨S768, .f32⟩ : BufTy).Contents (Elt Ideal)) (b : Fin 2) (h : Fin 12) (s : Fin 2048) (d : Fin 64) :
    val_main_v11 (F := Ideal) x W bb (ix4 b h s d) = proj (seqOf x) (matOf W) (biasOf bb) b s (hd h d) :=
  heads_apply x W bb b h s d
theorem values_apply (x : (⟨S2x2048x768, .f32⟩ : BufTy).Contents (Elt Ideal)) (W : (⟨S768x768, .f32⟩ : BufTy).Contents (Elt Ideal)) (bb : (⟨S768, .f32⟩ : BufTy).Contents (Elt Ideal)) (b : Fin 2) (h : Fin 12) (s : Fin 2048) (d : Fin 64) :
    val_main_v17 (F := Ideal) x W bb (ix4 b h s d) = proj (seqOf x) (matOf W) (biasOf bb) b s (hd h d) :=
  heads_apply x W bb b h s d

/-- The scaled scores: the contraction over the head feature, divided by `8`, which off zero is the product with `1/8`. -/
theorem score_apply (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (b : Fin 2) (h : Fin 12) (i j : Fin 2048) :
    val_main_v20 (F := Ideal) x0 x1 x2 x3 x4 (ix4 b h i j) = score (proj (seqOf x0) (matOf x1) (biasOf x2)) (proj (seqOf x0) (matOf x3) (biasOf x4)) b h i j := by
  rw [val_main_v20_apply, val_main_v18_apply, val_main_v19_apply, val_main_cst_apply]
  have el : ∀ k : Fin 64, lidx_main_v18 (ix4 b h i j) k = ix4 b h i k := fun k => funext fun a => by
    match a with | ⟨0, _⟩ => rfl | ⟨1, _⟩ => rfl | ⟨2, _⟩ => rfl | ⟨3, _⟩ => rfl
  have er : ∀ k : Fin 64, ridx_main_v18 (ix4 b h i j) k = ix4 b h j k := fun k => funext fun a => by
    match a with | ⟨0, _⟩ => rfl | ⟨1, _⟩ => rfl | ⟨2, _⟩ => rfl | ⟨3, _⟩ => rfl
  simp only [el, er, heads_apply, keys_apply]
  rw [Ideal.hostDivf_def, Ideal.ofBits_def, ofBits_eight, Ideal.div_coe (by norm_num)]
  rfl

/-- A maximum-reduction over the last axis from `-∞`, at `(b, h, i)`: the fold of `max` from `⊥` over the row. -/
theorem reduceMax_apply (y : (⟨S2x12x2048x2048, .f32⟩ : BufTy).Contents (Elt Ideal)) (b : Fin 2) (h : Fin 12) (i : Fin 2048) :
    Host.reduce (FloatOps.maximumf (F := Ideal) (φ := .f32)) y (val_main_cst_0 (F := Ideal)) reducesTo_S2x12x2048x2048_S2x12x2048_d3 h_S_ (ix3 b h i)
      = rowMax (fun j : Fin 2048 => y (ix4 b h i j)) := by
  refine (Host.reduce_eq_fold_single _ y _ reducesTo_S2x12x2048x2048_S2x12x2048_d3 (by decide) h_S_ (ix3 b h i)).trans ?_
  rw [val_main_cst_0_apply, Ideal.ofBits_def, ofBits_negInf]
  unfold rowMax
  refine Finset.fold_congr fun k _ => ?_
  exact congrArg y (funext fun a => Fin.ext (by match a with | ⟨0, _⟩ => rfl | ⟨1, _⟩ => rfl | ⟨2, _⟩ => rfl | ⟨3, _⟩ => rfl))

/-- The row maximum the softmax subtracts; the further `max` with a `-∞` splat changes nothing. -/
theorem max_apply (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (b : Fin 2) (h : Fin 12) (i : Fin 2048) :
    val_main_v23 (F := Ideal) x0 x1 x2 x3 x4 (ix3 b h i) = rowMax (fun j => score (proj (seqOf x0) (matOf x1) (biasOf x2)) (proj (seqOf x0) (matOf x3) (biasOf x4)) b h i j) := by
  rw [val_main_v23_apply, val_main_v22_apply, val_main_cst_1_apply]
  unfold val_main_v21
  rw [reduceMax_apply, Ideal.maximumf_def, Ideal.ofBits_def, ofBits_negInf, max_bot_left]
  simp only [score_apply]

/-- The exponential of a score less its row's maximum. -/
theorem exp_apply (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (b : Fin 2) (h : Fin 12) (i j : Fin 2048) :
    val_main_v27 (F := Ideal) x0 x1 x2 x3 x4 (ix4 b h i j)
      = Ideal.exp (score (proj (seqOf x0) (matOf x1) (biasOf x2)) (proj (seqOf x0) (matOf x3) (biasOf x4)) b h i j - rowMax (fun j' => score (proj (seqOf x0) (matOf x1) (biasOf x2)) (proj (seqOf x0) (matOf x3) (biasOf x4)) b h i j')) := by
  have e : idx_main_v24 (idx_main_v25 (ix4 b h i j)) = ix3 b h i := funext fun a => by
    match a with | ⟨0, _⟩ => rfl | ⟨1, _⟩ => rfl | ⟨2, _⟩ => rfl
  rw [val_main_v27_apply, val_main_v26_apply, val_main_v25_apply, val_main_v24_apply, e, max_apply, score_apply]
  rfl

/-- THE ATTENTION WEIGHTS of the reference are the specification's. -/
theorem ref_attn (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (b : Fin 2) (h : Fin 12) (i j : Fin 2048) :
    Read.val_main_v31 (F := Ideal) x0 x1 x2 x3 x4 (ValueIdx.ix4 b h i j)
      = Cert.Attn.attnOf (seqOf x0) (matOf x1) (biasOf x2) (matOf x3) (biasOf x4) b h i j := by
  have e : idx_main_v29 (idx_main_v30 (ix4 b h i j)) = ix3 b h i := funext fun a => by
    match a with | ⟨0, _⟩ => rfl | ⟨1, _⟩ => rfl | ⟨2, _⟩ => rfl
  have e' : ∀ k : Fin 2048, idx_main_v28 (ix3 b h i) k = ix4 b h i k := fun k => funext fun a => by
    match a with | ⟨0, _⟩ => rfl | ⟨1, _⟩ => rfl | ⟨2, _⟩ => rfl | ⟨3, _⟩ => rfl
  rw [val_main_v31_apply, val_main_v30_apply, val_main_v29_apply, e, val_main_v28_apply, val_main_cst_2_apply]
  simp only [e', exp_apply]
  rw [Ideal.ofBits_def, Ideal.ofBits_zero_f32, zero_add]
  rfl

/-- One head's output at `(b, h, s, d)`: the weights against the values, summed over the key position. -/
theorem head_apply (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 2) (h : Fin 12) (s : Fin 2048) (d : Fin 64) :
    val_main_v32 (F := Ideal) x0 x1 x2 x3 x4 x5 x6 (ix4 b h s d) = head (proj (seqOf x0) (matOf x1) (biasOf x2)) (proj (seqOf x0) (matOf x3) (biasOf x4)) (proj (seqOf x0) (matOf x5) (biasOf x6)) b h s d := by
  rw [val_main_v32_apply]
  have el : ∀ k : Fin 2048, lidx_main_v32 (ix4 b h s d) k = ix4 b h s k := fun k => funext fun a => by
    match a with | ⟨0, _⟩ => rfl | ⟨1, _⟩ => rfl | ⟨2, _⟩ => rfl | ⟨3, _⟩ => rfl
  have er : ∀ k : Fin 2048, ridx_main_v32 (ix4 b h s d) k = ix4 b h k d := fun k => funext fun a => by
    match a with | ⟨0, _⟩ => rfl | ⟨1, _⟩ => rfl | ⟨2, _⟩ => rfl | ⟨3, _⟩ => rfl
  simp only [el, er, ref_attn, values_apply]
  rfl

/-- Moving the head axis back and flattening heads into features: entry `(b, s, e)` of the `[2,2048,768]` array is entry
    `(b, e / 64, s, e % 64)` of the `[2,12,2048,64]` one. -/
theorem idx_merge (b : Fin 2) (s : Fin 2048) (e : Fin 768) :
    idx_main_v33 (idx_main_v34 (ix3 b s e))
      = ix4 b (⟨e.val / 64, by have := e.isLt; omega⟩ : Fin 12) s (⟨e.val % 64, Nat.mod_lt _ (by decide)⟩ : Fin 64) :=
  funext fun a => Fin.ext (by
    have hb := b.isLt; have hs := s.isLt; have he := e.isLt
    match a with
    | ⟨0, _⟩ => show ((b.val * 2048 + s.val) * 768 + e.val) / 1572864 = b.val; omega
    | ⟨1, _⟩ => show ((b.val * 2048 + s.val) * 768 + e.val) / 64 % 12 = e.val / 64; omega
    | ⟨2, _⟩ => show ((b.val * 2048 + s.val) * 768 + e.val) / 768 % 2048 = s.val; omega
    | ⟨3, _⟩ => show ((b.val * 2048 + s.val) * 768 + e.val) % 64 = e.val % 64; omega)

/-- The heads laid side by side along the feature axis. -/
theorem headFlat_apply (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 2) (s : Fin 2048) (e : Fin 768) :
    val_main_v34 (F := Ideal) x0 x1 x2 x3 x4 x5 x6 (ix3 b s e) = headFlat (proj (seqOf x0) (matOf x1) (biasOf x2)) (proj (seqOf x0) (matOf x3) (biasOf x4)) (proj (seqOf x0) (matOf x5) (biasOf x6)) b s e := by
  rw [val_main_v34_apply, val_main_v33_apply, idx_merge, head_apply]
  rfl

/-- THE OUTPUT of the reference is the specification's: the last linear layer applied to the heads laid side by side. -/
theorem ref_out (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S768x768, .f32⟩ : BufTy).Contents (Elt Ideal)) (x8 : (⟨S768, .f32⟩ : BufTy).Contents (Elt Ideal)) (b : Fin 2) (s : Fin 2048) (f : Fin 768) :
    Read.val_main_v38 (F := Ideal) x0 x1 x2 x3 x4 x5 x6 x7 x8 (ValueIdx.ix3 b s f)
      = Cert.Attn.outOf (seqOf x0) (matOf x1) (biasOf x2) (matOf x3) (biasOf x4) (matOf x5) (biasOf x6) (matOf x7) (biasOf x8) b s f := by
  have hflat : seqOf (val_main_v34 (F := Ideal) x0 x1 x2 x3 x4 x5 x6) = headFlat (proj (seqOf x0) (matOf x1) (biasOf x2)) (proj (seqOf x0) (matOf x3) (biasOf x4)) (proj (seqOf x0) (matOf x5) (biasOf x6)) :=
    funext fun b => funext fun s => funext fun e => headFlat_apply x0 x1 x2 x3 x4 x5 x6 b s e
  refine (lin_apply (val_main_v34 (F := Ideal) x0 x1 x2 x3 x4 x5 x6) x7 x8 b s f).trans ?_
  rw [hflat]
  rfl

end Cert.ReferenceIdeal.RefValue

end
-- ==== Proof.Layout.lean ====
/- Host layout operations read at an index: what each buffer a kernel call reads holds after the stretch of
   host operations before it, element by element, over arbitrary contents before the stretch. -/
import proofs.«150536_j50783693308250_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Layout

open Idealize.ShloMosaic Idealize.ShloMosaic.TcCoe Idealize.ShloMosaic.ValueIdx Cert.KernelIdeal Cert.KernelIdeal.Gen

/-! ## Layout operations over arbitrary contents -/

/-- A reshape [2,2048,768] → [4096,768] read at (m, e): the operand at (m / 2048, m % 2048, e). -/
theorem reshape_3_2 {α : Type} (x : S2x2048x768.Idx → α) (h : S2x2048x768.ShapeCasts S4096x768) (m : Fin 4096) (e : Fin 768) :
    shapeCast S4096x768 x h (ix2 m e)
      = x (ix3 (⟨m.val / 2048, by have := m.isLt; omega⟩ : Fin 2) (⟨m.val % 2048, Nat.mod_lt _ (by decide)⟩ : Fin 2048) e) := by
  refine shapeCast_apply x h _ _ ?_
  rw [Shape.rowMajor_val_three, Shape.rowMajor_val_two]
  have := m.isLt
  show (m.val / 2048 * 2048 + m.val % 2048) * 768 + e.val = m.val * 768 + e.val
  omega

/-- A reshape [4096,768] → [2,2048,768] read at (bb, s, f): the operand at (bb·2048+s, f). -/
theorem reshape_2_3 {α : Type} (x : S4096x768.Idx → α) (h : S4096x768.ShapeCasts S2x2048x768) (bb : Fin 2) (s : Fin 2048) (f : Fin 768) :
    shapeCast S2x2048x768 x h (ix3 bb s f)
      = x (ix2 (⟨bb.val * 2048 + s.val, by have := bb.isLt; have := s.isLt; omega⟩ : Fin 4096) f) := by
  refine shapeCast_apply x h _ _ ?_
  rw [Shape.rowMajor_val_three, Shape.rowMajor_val_two]
  rfl

/-- Columns [o, o+768) of a [4096,2304] array, split into 12 heads of 64 and the head axis moved in front of the
    sequence axis, then batch and head merged: the element at (bb·12+h, s, d) is the array's at (bb·2048+s, o+h·64+d). -/
theorem heads_read {α : Type} (o : Nat) (x : S4096x2304.Idx → α)
    (hs : S4096x2304.Slices ![0, o] S4096x768)
    (h1 : S4096x768.ShapeCasts S2x2048x12x64)
    (ht : S2x2048x12x64.Transposes [0, 2, 1, 3] S2x12x2048x64)
    (h2 : S2x12x2048x64.ShapeCasts S24x2048x64)
    (bb : Fin 2) (h : Fin 12) (s : Fin 2048) (d : Fin 64)
    (g : Fin 24) (hg : g.val = bb.val * 12 + h.val)
    (r : Fin 4096) (hr : r.val = bb.val * 2048 + s.val)
    (c : Fin 2304) (hc : c.val = o + (h.val * 64 + d.val)) :
    shapeCast S24x2048x64 (transpose S2x12x2048x64 [0, 2, 1, 3] (shapeCast S2x2048x12x64 (extractStridedSlice S4096x768 ![0, o] x hs) h1) ht) h2
        (ix3 g s d)
      = x (ix2 r c) := by
  have hbb := bb.isLt; have hh := h.isLt; have hs' := s.isLt; have hd := d.isLt
  refine (shapeCast_apply _ h2 _ (ix4 bb h s d) ?_).trans ?_
  · rw [Shape.rowMajor_val_four, Shape.rowMajor_val_three]
    show ((bb.val * 12 + h.val) * 2048 + s.val) * 64 + d.val = (g.val * 2048 + s.val) * 64 + d.val
    rw [hg]
  refine (transpose_apply [0, 2, 1, 3] _ ht _ (ix4 bb s h d) (fun b => match b with
    | ⟨0, _⟩ => rfl | ⟨1, _⟩ => rfl | ⟨2, _⟩ => rfl | ⟨3, _⟩ => rfl)).trans ?_
  refine (shapeCast_apply _ h1 _ (ix2 r (⟨h.val * 64 + d.val, by omega⟩ : Fin 768)) ?_).trans ?_
  · rw [Shape.rowMajor_val_two, Shape.rowMajor_val_four]
    show r.val * 768 + (h.val * 64 + d.val) = ((bb.val * 2048 + s.val) * 12 + h.val) * 64 + d.val
    rw [hr]; omega
  exact slice2_axis1_apply o x hs r _ c hc

/-- Three [768,768] arrays laid side by side along axis 1, read at column k·768+f: piece k at column f. -/
theorem concat3_cols {α : Type} (y0 y1 y2 : S768x768.Idx → α)
    (hc : Shape.Concatenates [S768x768, S768x768, S768x768] S768x2304 1)
    (e : Fin 768) (f : Fin 768) (n : Fin 2304) :
    (n.val = f.val → concatenate S768x2304 1 [⟨S768x768, y0⟩, ⟨S768x768, y1⟩, ⟨S768x768, y2⟩] hc (ix2 e n) = y0 (ix2 e f))
    ∧ (n.val = 768 + f.val → concatenate S768x2304 1 [⟨S768x768, y0⟩, ⟨S768x768, y1⟩, ⟨S768x768, y2⟩] hc (ix2 e n) = y1 (ix2 e f))
    ∧ (n.val = 1536 + f.val → concatenate S768x2304 1 [⟨S768x768, y0⟩, ⟨S768x768, y1⟩, ⟨S768x768, y2⟩] hc (ix2 e n) = y2 (ix2 e f)) := by
  refine ⟨fun hn => ?_, fun hn => ?_, fun hn => ?_⟩
  · exact concatenate_apply_piece (t := S768x2304) (1 : Fin 2) [⟨S768x768, y0⟩, ⟨S768x768, y1⟩, ⟨S768x768, y2⟩] hc (ix2 e n) 0
      (Nat.succ_pos _) S768x768 y0 rfl rfl 0 rfl (ix2 e f)
      (fun b => match b with | ⟨0, _⟩ => fun _ => rfl | ⟨1, _⟩ => fun hne => absurd (Fin.ext rfl) hne)
      (by show 0 + f.val = n.val; omega)
  · exact concatenate_apply_piece (t := S768x2304) (1 : Fin 2) [⟨S768x768, y0⟩, ⟨S768x768, y1⟩, ⟨S768x768, y2⟩] hc (ix2 e n) 1
      (Nat.succ_lt_succ (Nat.succ_pos _)) S768x768 y1 rfl rfl 768 rfl (ix2 e f)
      (fun b => match b with | ⟨0, _⟩ => fun _ => rfl | ⟨1, _⟩ => fun hne => absurd (Fin.ext rfl) hne)
      (by show 768 + f.val = n.val; omega)
  · exact concatenate_apply_piece (t := S768x2304) (1 : Fin 2) [⟨S768x768, y0⟩, ⟨S768x768, y1⟩, ⟨S768x768, y2⟩] hc (ix2 e n) 2
      (Nat.succ_lt_succ (Nat.succ_lt_succ (Nat.succ_pos _))) S768x768 y2 rfl rfl 1536 rfl (ix2 e f)
      (fun b => match b with | ⟨0, _⟩ => fun _ => rfl | ⟨1, _⟩ => fun hne => absurd (Fin.ext rfl) hne)
      (by show 1536 + f.val = n.val; omega)

/-- Three [768] arrays laid end to end, read at k·768+f: piece k at f. -/
theorem concat3_vec {α : Type} (y0 y1 y2 : S768.Idx → α)
    (hc : Shape.Concatenates [S768, S768, S768] S2304 0)
    (f : Fin 768) (n : Fin 2304) :
    (n.val = f.val → concatenate S2304 0 [⟨S768, y0⟩, ⟨S768, y1⟩, ⟨S768, y2⟩] hc (ix1 n) = y0 (ix1 f))
    ∧ (n.val = 768 + f.val → concatenate S2304 0 [⟨S768, y0⟩, ⟨S768, y1⟩, ⟨S768, y2⟩] hc (ix1 n) = y1 (ix1 f))
    ∧ (n.val = 1536 + f.val → concatenate S2304 0 [⟨S768, y0⟩, ⟨S768, y1⟩, ⟨S768, y2⟩] hc (ix1 n) = y2 (ix1 f)) := by
  refine ⟨fun hn => ?_, fun hn => ?_, fun hn => ?_⟩
  · exact concatenate_apply_piece (t := S2304) (0 : Fin 1) [⟨S768, y0⟩, ⟨S768, y1⟩, ⟨S768, y2⟩] hc (ix1 n) 0
      (Nat.succ_pos _) S768 y0 rfl rfl 0 rfl (ix1 f)
      (fun b => match b with | ⟨0, _⟩ => fun hne => absurd (Fin.ext rfl) hne)
      (by show 0 + f.val = n.val; omega)
  · exact concatenate_apply_piece (t := S2304) (0 : Fin 1) [⟨S768, y0⟩, ⟨S768, y1⟩, ⟨S768, y2⟩] hc (ix1 n) 1
      (Nat.succ_lt_succ (Nat.succ_pos _)) S768 y1 rfl rfl 768 rfl (ix1 f)
      (fun b => match b with | ⟨0, _⟩ => fun hne => absurd (Fin.ext rfl) hne)
      (by show 768 + f.val = n.val; omega)
  · exact concatenate_apply_piece (t := S2304) (0 : Fin 1) [⟨S768, y0⟩, ⟨S768, y1⟩, ⟨S768, y2⟩] hc (ix1 n) 2
      (Nat.succ_lt_succ (Nat.succ_lt_succ (Nat.succ_pos _))) S768 y2 rfl rfl 1536 rfl (ix1 f)
      (fun b => match b with | ⟨0, _⟩ => fun hne => absurd (Fin.ext rfl) hne)
      (by show 1536 + f.val = n.val; omega)

/-! ## The contents after each stretch, as one term of the contents before it -/

/-- A three-operand operation's result with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

open Idealize.ShloMosaic.StableHlo in
/-- The contents after a stretch, one operation's result at a time. -/
local macro "after_results3" : tactic =>
  `(tactic| (simp only [after_cons, after_nil]
             repeat (first
               | rw [unary_result] | rw [reshape_result] | rw [nary3_result]
               | (rw [unary_result_ne]; rotate_left; decide)
               | (rw [reshape_result_ne]; rotate_left; decide)
               | (rw [nary_result_ne]; rotate_left; decide))))

variable (Vl : Valuation τ sig (Elt Ideal))

/-! ### Stretch 0 -/

theorem term_main_v0 :
    (StableHlo.after (hostOps0 (F := Ideal)) Vl (Proc.devRef .tc main_v0) : S4096x768.Idx → EReal)
      = shapeCast S4096x768 (Vl (Proc.devRef .tc main_arg0) : S2x2048x768.Idx → EReal) Facts₀.shapeCasts_S2x2048x768_S4096x768 := by
  after_results3 <;> rfl

/-- The activations as rows: row m is batch m / 2048, position m % 2048. -/
theorem read_main_v0 (m : Fin 4096) (e : Fin 768) :
    (StableHlo.after (hostOps0 (F := Ideal)) Vl (Proc.devRef .tc main_v0) : S4096x768.Idx → EReal) (ix2 m e)
      = (Vl (Proc.devRef .tc main_arg0) : S2x2048x768.Idx → EReal)
          (ix3 (⟨m.val / 2048, by have := m.isLt; omega⟩ : Fin 2) (⟨m.val % 2048, Nat.mod_lt _ (by decide)⟩ : Fin 2048) e) := by
  rw [term_main_v0]; exact reshape_3_2 _ _ m e

theorem term_main_v5 :
    (StableHlo.after (hostOps0 (F := Ideal)) Vl (Proc.devRef .tc main_v5) : S768x2304.Idx → EReal)
      = truncf .bf16 (concatenate S768x2304 1
          [⟨S768x768, transpose S768x768 [1, 0] (Vl (Proc.devRef .tc main_arg1) : S768x768.Idx → EReal) Facts₀.transposes_S768x768_S768x768_1_0⟩,
           ⟨S768x768, transpose S768x768 [1, 0] (Vl (Proc.devRef .tc main_arg3) : S768x768.Idx → EReal) Facts₀.transposes_S768x768_S768x768_1_0⟩,
           ⟨S768x768, transpose S768x768 [1, 0] (Vl (Proc.devRef .tc main_arg5) : S768x768.Idx → EReal) Facts₀.transposes_S768x768_S768x768_1_0⟩]
          Facts₀.concatenates_S768x768_S768x768_S768x768_S768x2304_d1 : FVec Ideal S768x2304 .f32) Facts₀.bitsLt_bf16_f32 := by
  after_results3 <;> rfl

/-- The fused weight's first third of columns is the first weight transposed. -/
theorem read_main_v5_0 (e : Fin 768) (f : Fin 768) :
    (StableHlo.after (hostOps0 (F := Ideal)) Vl (Proc.devRef .tc main_v5) : S768x2304.Idx → EReal)
        (ix2 e (⟨f.val, by have := f.isLt; omega⟩ : Fin 2304))
      = (Vl (Proc.devRef .tc main_arg1) : S768x768.Idx → EReal) (ix2 f e) := by
  rw [term_main_v5]
  refine (truncf_apply (φ := .f32) (ψ := .bf16) _ Facts₀.bitsLt_bf16_f32 _).trans ?_
  refine ((concat3_cols _ _ _ Facts₀.concatenates_S768x768_S768x768_S768x768_S768x2304_d1 e f _).1 rfl).trans ?_
  exact transpose_ix2_apply _ _ e f

/-- The fused weight's second third of columns is the second weight transposed. -/
theorem read_main_v5_1 (e : Fin 768) (f : Fin 768) :
    (StableHlo.after (hostOps0 (F := Ideal)) Vl (Proc.devRef .tc main_v5) : S768x2304.Idx → EReal)
        (ix2 e (⟨768 + f.val, by have := f.isLt; omega⟩ : Fin 2304))
      = (Vl (Proc.devRef .tc main_arg3) : S768x768.Idx → EReal) (ix2 f e) := by
  rw [term_main_v5]
  refine (truncf_apply (φ := .f32) (ψ := .bf16) _ Facts₀.bitsLt_bf16_f32 _).trans ?_
  refine ((concat3_cols _ _ _ Facts₀.concatenates_S768x768_S768x768_S768x768_S768x2304_d1 e f _).2.1 rfl).trans ?_
  exact transpose_ix2_apply _ _ e f

/-- The fused weight's last third of columns is the third weight transposed. -/
theorem read_main_v5_2 (e : Fin 768) (f : Fin 768) :
    (StableHlo.after (hostOps0 (F := Ideal)) Vl (Proc.devRef .tc main_v5) : S768x2304.Idx → EReal)
        (ix2 e (⟨1536 + f.val, by have := f.isLt; omega⟩ : Fin 2304))
      = (Vl (Proc.devRef .tc main_arg5) : S768x768.Idx → EReal) (ix2 f e) := by
  rw [term_main_v5]
  refine (truncf_apply (φ := .f32) (ψ := .bf16) _ Facts₀.bitsLt_bf16_f32 _).trans ?_
  refine ((concat3_cols _ _ _ Facts₀.concatenates_S768x768_S768x768_S768x768_S768x2304_d1 e f _).2.2 rfl).trans ?_
  exact transpose_ix2_apply _ _ e f

theorem term_main_v7 :
    (StableHlo.after (hostOps0 (F := Ideal)) Vl (Proc.devRef .tc main_v7) : S1x2304.Idx → EReal)
      = shapeCast S1x2304 (concatenate S2304 0
          [⟨S768, (Vl (Proc.devRef .tc main_arg2) : S768.Idx → EReal)⟩,
           ⟨S768, (Vl (Proc.devRef .tc main_arg4) : S768.Idx → EReal)⟩,
           ⟨S768, (Vl (Proc.devRef .tc main_arg6) : S768.Idx → EReal)⟩]
          Facts₀.concatenates_S768_S768_S768_S2304_d0) Facts₀.shapeCasts_S2304_S1x2304 := by
  after_results3 <;> rfl

/-- The fused bias's first third is the first bias. -/
theorem read_main_v7_0 (f : Fin 768) :
    (StableHlo.after (hostOps0 (F := Ideal)) Vl (Proc.devRef .tc main_v7) : S1x2304.Idx → EReal)
        (ix2 (0 : Fin 1) (⟨f.val, by have := f.isLt; omega⟩ : Fin 2304))
      = (Vl (Proc.devRef .tc main_arg2) : S768.Idx → EReal) (ix1 f) := by
  rw [term_main_v7]
  refine (shapeCast_a_1a_apply _ _ 0 _).trans ?_
  exact (concat3_vec _ _ _ Facts₀.concatenates_S768_S768_S768_S2304_d0 f _).1 rfl

/-- The fused bias's second third is the second bias. -/
theorem read_main_v7_1 (f : Fin 768) :
    (StableHlo.after (hostOps0 (F := Ideal)) Vl (Proc.devRef .tc main_v7) : S1x2304.Idx → EReal)
        (ix2 (0 : Fin 1) (⟨768 + f.val, by have := f.isLt; omega⟩ : Fin 2304))
      = (Vl (Proc.devRef .tc main_arg4) : S768.Idx → EReal) (ix1 f) := by
  rw [term_main_v7]
  refine (shapeCast_a_1a_apply _ _ 0 _).trans ?_
  exact (concat3_vec _ _ _ Facts₀.concatenates_S768_S768_S768_S2304_d0 f _).2.1 rfl

/-- The fused bias's last third is the third bias. -/
theorem read_main_v7_2 (f : Fin 768) :
    (StableHlo.after (hostOps0 (F := Ideal)) Vl (Proc.devRef .tc main_v7) : S1x2304.Idx → EReal)
        (ix2 (0 : Fin 1) (⟨1536 + f.val, by have := f.isLt; omega⟩ : Fin 2304))
      = (Vl (Proc.devRef .tc main_arg6) : S768.Idx → EReal) (ix1 f) := by
  rw [term_main_v7]
  refine (shapeCast_a_1a_apply _ _ 0 _).trans ?_
  exact (concat3_vec _ _ _ Facts₀.concatenates_S768_S768_S768_S2304_d0 f _).2.2 rfl

/-! ### Stretch 1 -/

theorem term_main_v14 :
    (StableHlo.after (hostOps1 (F := Ideal)) Vl (Proc.devRef .tc main_v14) : S24x2048x64.Idx → EReal)
      = shapeCast S24x2048x64 (transpose S2x12x2048x64 [0, 2, 1, 3] (shapeCast S2x2048x12x64
          (extractStridedSlice S4096x768 ![0, 0] (Vl (Proc.devRef .tc main_v8) : S4096x2304.Idx → EReal) Facts₀.slices_S4096x2304_S4096x768_0_0)
          Facts₀.shapeCasts_S4096x768_S2x2048x12x64) Facts₀.transposes_S2x2048x12x64_S2x12x2048x64_0_2_1_3) Facts₀.shapeCasts_S2x12x2048x64_S24x2048x64 := by
  after_results3 <;> rfl

theorem term_main_v17 :
    (StableHlo.after (hostOps1 (F := Ideal)) Vl (Proc.devRef .tc main_v17) : S24x2048x64.Idx → EReal)
      = shapeCast S24x2048x64 (transpose S2x12x2048x64 [0, 2, 1, 3] (shapeCast S2x2048x12x64
          (extractStridedSlice S4096x768 ![0, 768] (Vl (Proc.devRef .tc main_v8) : S4096x2304.Idx → EReal) Facts₀.slices_S4096x2304_S4096x768_0_768)
          Facts₀.shapeCasts_S4096x768_S2x2048x12x64) Facts₀.transposes_S2x2048x12x64_S2x12x2048x64_0_2_1_3) Facts₀.shapeCasts_S2x12x2048x64_S24x2048x64 := by
  after_results3 <;> rfl

theorem term_main_v20 :
    (StableHlo.after (hostOps1 (F := Ideal)) Vl (Proc.devRef .tc main_v20) : S24x2048x64.Idx → EReal)
      = shapeCast S24x2048x64 (transpose S2x12x2048x64 [0, 2, 1, 3] (shapeCast S2x2048x12x64
          (extractStridedSlice S4096x768 ![0, 1536] (Vl (Proc.devRef .tc main_v8) : S4096x2304.Idx → EReal) Facts₀.slices_S4096x2304_S4096x768_0_1536)
          Facts₀.shapeCasts_S4096x768_S2x2048x12x64) Facts₀.transposes_S2x2048x12x64_S2x12x2048x64_0_2_1_3) Facts₀.shapeCasts_S2x12x2048x64_S24x2048x64 := by
  after_results3 <;> rfl

/-- The queries by head: head h of batch bb at position s is row bb·2048+s, columns h·64 … of the projection. -/
theorem read_main_v14 (bb : Fin 2) (h : Fin 12) (s : Fin 2048) (d : Fin 64) :
    (StableHlo.after (hostOps1 (F := Ideal)) Vl (Proc.devRef .tc main_v14) : S24x2048x64.Idx → EReal)
        (ix3 (⟨bb.val * 12 + h.val, by have := bb.isLt; have := h.isLt; omega⟩ : Fin 24) s d)
      = (Vl (Proc.devRef .tc main_v8) : S4096x2304.Idx → EReal)
          (ix2 (⟨bb.val * 2048 + s.val, by have := bb.isLt; have := s.isLt; omega⟩ : Fin 4096)
               (⟨h.val * 64 + d.val, by have := h.isLt; have := d.isLt; omega⟩ : Fin 2304)) := by
  rw [term_main_v14]
  exact heads_read 0 _ _ _ _ _ bb h s d _ rfl _ rfl _ (Nat.zero_add _).symm

/-- The keys by head: columns 768 + h·64 … of the projection. -/
theorem read_main_v17 (bb : Fin 2) (h : Fin 12) (s : Fin 2048) (d : Fin 64) :
    (StableHlo.after (hostOps1 (F := Ideal)) Vl (Proc.devRef .tc main_v17) : S24x2048x64.Idx → EReal)
        (ix3 (⟨bb.val * 12 + h.val, by have := bb.isLt; have := h.isLt; omega⟩ : Fin 24) s d)
      = (Vl (Proc.devRef .tc main_v8) : S4096x2304.Idx → EReal)
          (ix2 (⟨bb.val * 2048 + s.val, by have := bb.isLt; have := s.isLt; omega⟩ : Fin 4096)
               (⟨768 + h.val * 64 + d.val, by have := h.isLt; have := d.isLt; omega⟩ : Fin 2304)) := by
  rw [term_main_v17]
  exact heads_read 768 _ _ _ _ _ bb h s d _ rfl _ rfl _ (Nat.add_assoc _ _ _)

/-- The values by head: columns 1536 + h·64 … of the projection. -/
theorem read_main_v20 (bb : Fin 2) (h : Fin 12) (s : Fin 2048) (d : Fin 64) :
    (StableHlo.after (hostOps1 (F := Ideal)) Vl (Proc.devRef .tc main_v20) : S24x2048x64.Idx → EReal)
        (ix3 (⟨bb.val * 12 + h.val, by have := bb.isLt; have := h.isLt; omega⟩ : Fin 24) s d)
      = (Vl (Proc.devRef .tc main_v8) : S4096x2304.Idx → EReal)
          (ix2 (⟨bb.val * 2048 + s.val, by have := bb.isLt; have := s.isLt; omega⟩ : Fin 4096)
               (⟨1536 + h.val * 64 + d.val, by have := h.isLt; have := d.isLt; omega⟩ : Fin 2304)) := by
  rw [term_main_v20]
  exact heads_read 1536 _ _ _ _ _ bb h s d _ rfl _ rfl _ (Nat.add_assoc _ _ _)

theorem term_main_v22 :
    (StableHlo.after (hostOps1 (F := Ideal)) Vl (Proc.devRef .tc main_v22) : S768x768.Idx → EReal)
      = truncf .bf16 (transpose S768x768 [1, 0] (Vl (Proc.devRef .tc main_arg7) : S768x768.Idx → EReal)
          Facts₀.transposes_S768x768_S768x768_1_0 : FVec Ideal S768x768 .f32) Facts₀.bitsLt_bf16_f32 := by
  after_results3 <;> rfl

/-- The output weight transposed. -/
theorem read_main_v22 (e : Fin 768) (f : Fin 768) :
    (StableHlo.after (hostOps1 (F := Ideal)) Vl (Proc.devRef .tc main_v22) : S768x768.Idx → EReal) (ix2 e f)
      = (Vl (Proc.devRef .tc main_arg7) : S768x768.Idx → EReal) (ix2 f e) := by
  rw [term_main_v22]
  refine (truncf_apply (φ := .f32) (ψ := .bf16) _ Facts₀.bitsLt_bf16_f32 _).trans ?_
  exact transpose_ix2_apply _ _ e f

theorem term_main_v23 :
    (StableHlo.after (hostOps1 (F := Ideal)) Vl (Proc.devRef .tc main_v23) : S1x768.Idx → EReal)
      = shapeCast S1x768 (Vl (Proc.devRef .tc main_arg8) : S768.Idx → EReal) Facts₀.shapeCasts_S768_S1x768 := by
  after_results3 <;> rfl

/-- The output bias as one row. -/
theorem read_main_v23 (f : Fin 768) :
    (StableHlo.after (hostOps1 (F := Ideal)) Vl (Proc.devRef .tc main_v23) : S1x768.Idx → EReal) (ix2 (0 : Fin 1) f)
      = (Vl (Proc.devRef .tc main_arg8) : S768.Idx → EReal) (ix1 f) := by
  rw [term_main_v23]
  exact shapeCast_a_1a_apply _ _ 0 f

/-! ### Stretch 2 -/

theorem term_main_v25 :
    (StableHlo.after (hostOps2 (F := Ideal)) Vl (Proc.devRef .tc main_v25) : S2x2048x768.Idx → EReal)
      = shapeCast S2x2048x768 (Vl (Proc.devRef .tc main_v24_1) : S4096x768.Idx → EReal) Facts₀.shapeCasts_S4096x768_S2x2048x768 := by
  after_results3 <;> rfl

/-- The output rows split back into batch and position. -/
theorem read_main_v25 (bb : Fin 2) (s : Fin 2048) (f : Fin 768) :
    (StableHlo.after (hostOps2 (F := Ideal)) Vl (Proc.devRef .tc main_v25) : S2x2048x768.Idx → EReal) (ix3 bb s f)
      = (Vl (Proc.devRef .tc main_v24_1) : S4096x768.Idx → EReal)
          (ix2 (⟨bb.val * 2048 + s.val, by have := bb.isLt; have := s.isLt; omega⟩ : Fin 4096) f) := by
  rw [term_main_v25]; exact reshape_2_3 _ _ bb s f

end Cert.KernelIdeal.Layout

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.PayLinear.lean ====
/-
  The linear layer's stored value read at an index, on the extended reals.

  The body rounds the activations to the narrow format (the identity on extended reals), multiplies by the weight
  block into an all-zero accumulator, and adds the one-row bias broadcast down the rows. At entry (p, n) that is
      (sum over e < 768 of x (p, e) * w (e, n)) + b (0, n).
-/
import proofs.«150536_j50783693308250_2_alg».proof.Proof.Gen.KernelIdeal.Skeleton
import proofs.«150536_j50783693308250_2_alg».proof.Proof.Spec
import proofs.«150536_j50783693308250_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- Entry (p, n) of the linear layer's stored block: the row of x against the column of w, plus the bias at n. -/
theorem linear_apply (x : Vec Ideal S512x768 .f32) (w : Vec Ideal S768x2304 .bf16) (b : Vec Ideal S1x2304 .f32)
    (p : Fin 512) (n : Fin 2304) :
    k0_pay1 (F := Ideal) x w b (ix2 p n) = (∑ e : Fin 768, x (ix2 p e) * w (ix2 e n)) + b (ix2 0 n) := by
  unfold k0_pay1
  refine (congrArg₂ (· + ·)
    (PlainDot.matmul_zero_apply dot_S512x768_S768x2304_S512x2304_1_0_0_1_n_n rfl rfl rfl rfl rfl rfl rfl rfl none _ _ p n)
    (broadcastTo_1b_ab_apply _ broadcasts_S1x2304_S512x2304 p n)).trans ?_
  rw [shapeCast_self, shapeCast_self, shapeCast_self]
  rfl

end Cert.KernelIdeal.Pay

end
-- ==== Proof.LinearValue.lean ====
/-
  The first pipeline's output array after the run, on the extended reals: the linear layer of the three arrays the
  region finds, index by index.

  The output is written back block by block, one block of 512 rows at each of the 8 grid points. Point `t` stores, at
  `(p, n)` of its block, the row `p` of the activations' block against column `n` of the weights plus the bias at `n`; the
  activations' block at point `t` is rows `512·t …` of their array, and the weights' and the bias's blocks are the whole
  arrays at every point. So block `t` of the output is block `t` of ONE function of the whole arrays, and since row `r`
  lies in the block of point `r / 512`, the blocks cover the array: it ends holding that function.
-/
import proofs.«150536_j50783693308250_2_alg».proof.Proof.KI.Linear
import proofs.«150536_j50783693308250_2_alg».proof.Proof.PayLinear
import Idealize.ShloMosaic.Lib.Pipeline.Value

noncomputable section

namespace Cert.KernelIdeal.LinVal

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, as the accesses spell them. -/
theorem hz : (![0, 0] : Fin 2 → Nat) = fun _ => 0 := funext fun a => by fin_cases a <;> rfl

/-- The linear layer of whole arrays at row `r`, column `n`: the row of the activations against the column of the weights, plus the bias. -/
def linOf (a0 : S4096x768.Idx → EReal) (a1 : S768x2304.Idx → EReal) (a2 : S1x2304.Idx → EReal) (r : Fin 4096) (n : Fin 2304) : EReal :=
  (∑ e : Fin 768, a0 (ix2 r e) * a1 (ix2 e n)) + a2 (ix2 0 n)

/-- The same as one function of the output array's index. -/
def linArr (a0 : S4096x768.Idx → EReal) (a1 : S768x2304.Idx → EReal) (a2 : S1x2304.Idx → EReal) : S4096x2304.Idx → EReal :=
  fun i => linOf a0 a1 a2 ⟨(i 0).val, (i 0).isLt⟩ ⟨(i 1).val, (i 1).isLt⟩

/-- At an index given by its coordinates. -/
theorem linArr_ix2 (a0 : S4096x768.Idx → EReal) (a1 : S768x2304.Idx → EReal) (a2 : S1x2304.Idx → EReal) (r : Fin 4096) (n : Fin 2304) :
    linArr a0 a1 a2 (ix2 r n) = linOf a0 a1 a2 r n := rfl

/-- What the body leaves in the output block, at `(p, n)`, from the three loaded blocks. -/
theorem out_apply (x0 : Vec Ideal S512x768 .f32) (x1 : Vec Ideal S768x2304 .bf16) (x2 : Vec Ideal S1x2304 .f32) (p : Fin 512) (n : Fin 2304) :
    out0_3 (F := Ideal) x0 x1 x2 (ix2 p n) = (∑ e : Fin 768, x0 (ix2 p e) * x1 (ix2 e n)) + x2 (ix2 0 n) := by
  unfold out0_3
  rw [View.canon_unit_zero hz]
  simp only [View.ld_unit_zero (S := S512x768) hz, View.ld_unit_zero (S := S768x2304) hz, View.ld_unit_zero (S := S1x2304) hz]
  exact Pay.linear_apply x0 x1 x2 p n

/-- The index maps over the grid: the activations' and the output's block row is the point, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations' block at point `t` is rows `512·t …` of the array. -/
theorem blk0_apply (c : Dev nD) (t : Fin cfg0.N) (p : Fin 512) (e : Fin 768) (r : Fin 4096) (hr : r.val = t.val * 512 + p.val) :
    (iblk0 V c 0 t : Vec Ideal S512x768 .f32) (ix2 p e) = (V c main_v0 : S4096x768.Idx → EReal) (ix2 r e) := by
  obtain ⟨e0, e1, -⟩ := idx_facts t
  unfold iblk0
  rw [View.read_apply]
  show V c main_v0 _ = V c main_v0 _
  refine congrArg (V c main_v0) (funext fun a => Fin.ext ?_)
  match a with
  | ⟨0, _⟩ => show win0_0.index t (0 : Fin 2) * 512 + 1 * p.val = r.val; omega
  | ⟨1, _⟩ => show win0_0.index t (1 : Fin 2) * 768 + 1 * e.val = e.val; omega

/-- The weights' block is the whole array at every point. -/
theorem blk1_apply (c : Dev nD) (t : Fin cfg0.N) (e : Fin 768) (n : Fin 2304) :
    (iblk0 V c 1 t : Vec Ideal S768x2304 .bf16) (ix2 e n) = (V c main_v5 : S768x2304.Idx → EReal) (ix2 e n) := by
  obtain ⟨-, -, e0, e1, -⟩ := idx_facts t
  unfold iblk0
  rw [View.read_apply]
  show V c main_v5 _ = V c main_v5 _
  refine congrArg (V c main_v5) (funext fun a => Fin.ext ?_)
  match a with
  | ⟨0, _⟩ => show win0_1.index t (0 : Fin 2) * 768 + 1 * e.val = e.val; omega
  | ⟨1, _⟩ => show win0_1.index t (1 : Fin 2) * 2304 + 1 * n.val = n.val; omega

/-- So is the bias's. -/
theorem blk2_apply (c : Dev nD) (t : Fin cfg0.N) (z : Fin 1) (n : Fin 2304) :
    (iblk0 V c 2 t : Vec Ideal S1x2304 .f32) (ix2 z n) = (V c main_v7 : S1x2304.Idx → EReal) (ix2 z n) := by
  obtain ⟨-, -, -, -, e0, e1, -⟩ := idx_facts t
  unfold iblk0
  rw [View.read_apply]
  show V c main_v7 _ = V c main_v7 _
  refine congrArg (V c main_v7) (funext fun a => Fin.ext ?_)
  match a with
  | ⟨0, _⟩ => show win0_2.index t (0 : Fin 2) * 1 + 1 * z.val = z.val; omega
  | ⟨1, _⟩ => show win0_2.index t (1 : Fin 2) * 2304 + 1 * n.val = n.val; omega

/-- WHAT POINT `t` WRITES BACK is block `t` of the linear layer of the arrays as the region finds them. -/
theorem flushed_eq (c : Dev nD) (t : Fin cfg0.N) :
    (dat0 V c).flushed 3 t = ((cfg0.win 3).blk t).view.read (Elt Ideal) (linArr (V c main_v0) (V c main_v5) (V c main_v7)) := by
  show (cfg0.win 3).cut (grid0.coords t) ((dat0 V c).after 3 t) = _
  rw [after0_3]
  obtain ⟨-, -, -, -, -, -, e0, e1⟩ := idx_facts t
  have ht : t.val < 8 := t.isLt.trans_eq N_0
  funext j
  have hp : (j 0).val < 512 := (j 0).isLt
  have hn : (j 1).val < 2304 := (j 1).isLt
  have hemb : ((cfg0.win 3).blk t).view.emb j
      = ix2 (⟨t.val * 512 + (j 0).val, by omega⟩ : Fin 4096) (⟨(j 1).val, hn⟩ : Fin 2304) :=
    funext fun a => Fin.ext (by
      match a with
      | ⟨0, _⟩ => show win0_3.index t (0 : Fin 2) * 512 + 1 * (j 0).val = t.val * 512 + (j 0).val; omega
      | ⟨1, _⟩ => show win0_3.index t (1 : Fin 2) * 2304 + 1 * (j 1).val = (j 1).val; omega)
  have hinj : (cfg0.win 3).xinj (grid0.coords t) j = ix2 (⟨(j 0).val, hp⟩ : Fin 512) (⟨(j 1).val, hn⟩ : Fin 2304) :=
    funext fun a => by match a with | ⟨0, _⟩ => rfl | ⟨1, _⟩ => rfl
  show out0_3 (iblk0 V c 0 t) (iblk0 V c 1 t) (iblk0 V c 2 t) ((cfg0.win 3).xinj (grid0.coords t) j)
    = linArr (V c main_v0) (V c main_v5) (V c main_v7) (((cfg0.win 3).blk t).view.emb j)
  rw [hinj, hemb]
  refine (out_apply (iblk0 V c 0 t) (iblk0 V c 1 t) (iblk0 V c 2 t) ⟨(j 0).val, hp⟩ ⟨(j 1).val, hn⟩).trans ?_
  refine Eq.trans ?_ (linArr_ix2 (V c main_v0) (V c main_v5) (V c main_v7) ⟨t.val * 512 + (j 0).val, by omega⟩ ⟨(j 1).val, hn⟩).symm
  unfold linOf
  rw [blk2_apply V c t 0 ⟨(j 1).val, hn⟩]
  refine congrArg (· + _) (Finset.sum_congr rfl fun e _ => ?_)
  rw [blk0_apply V c t ⟨(j 0).val, hp⟩ e ⟨t.val * 512 + (j 0).val, by omega⟩ rfl, blk1_apply V c t e ⟨(j 1).val, hn⟩]

/-- An index of the array is in point `t`'s block iff each coordinate is in the block's range on its axis. -/
theorem mem_blk (t : Fin cfg0.N) (i : S4096x2304.Idx) :
    i ∈ ((cfg0.win 3).blk t).view.set ↔ ∀ a : Fin 2, win0_3.index t a * S512x2304.size a ≤ (i a).val
      ∧ (i a).val < win0_3.index t a * S512x2304.size a + S512x2304.size a := by
  show i ∈ ((View.whole main_v8).slice (win0_3.rect t)).set ↔ _
  rw [View.set_slice_whole, Rect.mem_set_unit]
  exact Iff.rfl

/-- Every index is in some point's block: row `r` is in the block of point `r / 512`. -/
theorem cover (i : S4096x2304.Idx) : ∃ t : Fin cfg0.N, (cfg0.win 3).flush t = true ∧ i ∈ ((cfg0.win 3).blk t).view.set := by
  have hi0 : (i 0).val < 4096 := (i 0).isLt
  have hi1 : (i 1).val < 2304 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2304 ≤ (i 1).val ∧ (i 1).val < win0_3.index t (1 : Fin 2) * 2304 + 2304; omega

/-- THE ARRAY after the run is the linear layer of the arrays as the region finds them. -/
theorem linear_arr (c : Dev nD) : (dat0 V c).arrAt 3 cfg0.N = linArr (V c main_v0) (V c main_v5) (V c main_v7) :=
  (dat0 V c).arrAt_eq_of_cover 3 (linArr (V c main_v0) (V c main_v5) (V c main_v7)) (fun t _ => flushed_eq V c t) cover

/-- At row `r`, column `n`. -/
theorem linear_final (c : Dev nD) (r : Fin 4096) (n : Fin 2304) :
    ((dat0 (F := Ideal) V c).arrAt 3 cfg0.N : S4096x2304.Idx → EReal) (ix2 r n)
      = linOf (V c main_v0) (V c main_v5) (V c main_v7) r n := by
  rw [linear_arr]
  rfl

/-- The linear layer, spelled out. -/
theorem linOf_def (a0 : S4096x768.Idx → EReal) (a1 : S768x2304.Idx → EReal) (a2 : S1x2304.Idx → EReal) (r : Fin 4096) (n : Fin 2304) :
    linOf a0 a1 a2 r n = (∑ e : Fin 768, a0 (ix2 r e) * a1 (ix2 e n)) + a2 (ix2 0 n) := rfl

end Cert.KernelIdeal.LinVal

end
-- ==== Proof.Entry.lean ====
/- The contents the two kernel calls read and leave, tied to the launch memory: each array the attention call reads
   is a linear layer of the arguments (or an argument re-laid), index by index, and the program's results are the
   arrays the attention call leaves. -/
import proofs.«150536_j50783693308250_2_alg».proof.Proof.KI.Run
import proofs.«150536_j50783693308250_2_alg».proof.Proof.Layout
import proofs.«150536_j50783693308250_2_alg».proof.Proof.LinearValue
import proofs.«150536_j50783693308250_2_alg».proof.Proof.Spec

noncomputable section

namespace Cert.KernelIdeal.Val

open Idealize.ShloMosaic Idealize.ShloMosaic.TcCoe Idealize.ShloMosaic.ValueIdx
open Cert.KernelIdeal Cert.KernelIdeal.Gen Cert.KernelIdeal.Frm Cert.KernelIdeal.Layout Cert.KernelIdeal.LinVal

/-- An argument array as a batch of sequences, a weight matrix, a bias, by coordinates. -/
def seqOfK (x : S2x2048x768.Idx → EReal) : Cert.Attn.Seq := fun b s e => x (ix3 b s e)
def matOfK (w : S768x768.Idx → EReal) : Cert.Attn.Mat := fun f e => w (ix2 f e)
def biasOfK (b : S768.Idx → EReal) : Cert.Attn.Bias := fun f => b (ix1 f)

/-- A row of the fused linear layer whose operands read as one layer's: that layer's value. -/
theorem proj_of_reads (X : S4096x768.Idx → EReal) (Wc : S768x2304.Idx → EReal) (bc : S1x2304.Idx → EReal)
    (x : S2x2048x768.Idx → EReal) (W : S768x768.Idx → EReal) (b : S768.Idx → EReal)
    (bb : Fin 2) (s : Fin 2048) (f : Fin 768) (r : Fin 4096) (n : Fin 2304)
    (hX : ∀ e, X (ix2 r e) = x (ix3 bb s e))
    (hW : ∀ e, Wc (ix2 e n) = W (ix2 f e))
    (hb : bc (ix2 (0 : Fin 1) n) = b (ix1 f)) :
    (∑ e : Fin 768, X (ix2 r e) * Wc (ix2 e n)) + bc (ix2 (0 : Fin 1) n)
      = Cert.Attn.proj (seqOfK x) (matOfK W) (biasOfK b) bb s f := by
  unfold Cert.Attn.proj seqOfK matOfK biasOfK
  rw [hb]
  refine congrArg (· + b (ix1 f)) ?_
  exact Finset.sum_congr rfl fun e _ => by rw [hX e, hW e]

variable (m : (ℓ : Loc nD τ sig) → Buf (Elt Ideal) ℓ) (ρ : Dev nD → PrngReg)

/-- The rows the projection call reads are the activations, row bb·2048+s the position s of batch bb. -/
theorem x_entry (c : Dev nD) (bb : Fin 2) (s : Fin 2048) (e : Fin 768) (r : Fin 4096) (hr : r.val = bb.val * 2048 + s.val) :
    (E1 (F := Ideal) m ρ c main_v0 : S4096x768.Idx → EReal) (ix2 r e)
      = (m ((c.tc : Thread nD τ).loc main_arg0) : S2x2048x768.Idx → EReal) (ix3 bb s e) := by
  refine (read_main_v0 (B0 m ρ c) r e).trans ?_
  have hbb := bb.isLt; have hs := s.isLt
  have h1 : (⟨r.val / 2048, by have := r.isLt; omega⟩ : Fin 2) = bb := Fin.ext (by show r.val / 2048 = bb.val; omega)
  have h2 : (⟨r.val % 2048, Nat.mod_lt _ (by decide)⟩ : Fin 2048) = s := Fin.ext (by show r.val % 2048 = s.val; omega)
  rw [h1, h2]

/-- The fused weight's column f is row f of the queries' weight. -/
theorem wq_entry (c : Dev nD) (e f : Fin 768) (n : Fin 2304) (hn : n.val = f.val) :
    (E1 (F := Ideal) m ρ c main_v5 : S768x2304.Idx → EReal) (ix2 e n) = (m ((c.tc : Thread nD τ).loc main_arg1) : S768x768.Idx → EReal) (ix2 f e) := by
  obtain ⟨nv, hlt⟩ := n
  have hn' : nv = f.val := hn
  subst hn'
  exact read_main_v5_0 (B0 m ρ c) e f

/-- The fused bias at f is the queries' bias at f. -/
theorem bq_entry (c : Dev nD) (f : Fin 768) (n : Fin 2304) (hn : n.val = f.val) :
    (E1 (F := Ideal) m ρ c main_v7 : S1x2304.Idx → EReal) (ix2 (0 : Fin 1) n) = (m ((c.tc : Thread nD τ).loc main_arg2) : S768.Idx → EReal) (ix1 f) := by
  obtain ⟨nv, hlt⟩ := n
  have hn' : nv = f.val := hn
  subst hn'
  exact read_main_v7_0 (B0 m ρ c) f

/-- The queries the attention call reads, by head: the queries' linear layer of the activations. -/
theorem q_entry (c : Dev nD) (bb : Fin 2) (h : Fin 12) (s : Fin 2048) (d : Fin 64) :
    (E3 (F := Ideal) m ρ c main_v14 : S24x2048x64.Idx → EReal)
        (ix3 (⟨bb.val * 12 + h.val, by have := bb.isLt; have := h.isLt; omega⟩ : Fin 24) s d)
      = Cert.Attn.proj (seqOfK (m ((c.tc : Thread nD τ).loc main_arg0) : S2x2048x768.Idx → EReal)) (matOfK (m ((c.tc : Thread nD τ).loc main_arg1) : S768x768.Idx → EReal)) (biasOfK (m ((c.tc : Thread nD τ).loc main_arg2) : S768.Idx → EReal)) bb s (Cert.Attn.hd h d) := by
  refine (read_main_v14 (B2 m ρ c) bb h s d).trans ?_
  have h8 : B2 m ρ c (Proc.devRef .tc main_v8) = (dat0 (E1 m ρ) c).arrAt 3 cfg0.N := B2_arr m ρ c 3
  rw [h8, linear_final (E1 m ρ) c, linOf_def]
  refine proj_of_reads _ _ _ _ _ _ bb s (Cert.Attn.hd h d) _ _ ?_ ?_ ?_
  · exact fun e => x_entry m ρ c bb s e _ rfl
  · exact fun e => wq_entry m ρ c e (Cert.Attn.hd h d) _ rfl
  · exact bq_entry m ρ c (Cert.Attn.hd h d) _ rfl

/-- The fused weight's column 768 + f is row f of the keys' weight. -/
theorem wk_entry (c : Dev nD) (e f : Fin 768) (n : Fin 2304) (hn : n.val = 768 + f.val) :
    (E1 (F := Ideal) m ρ c main_v5 : S768x2304.Idx → EReal) (ix2 e n) = (m ((c.tc : Thread nD τ).loc main_arg3) : S768x768.Idx → EReal) (ix2 f e) := by
  obtain ⟨nv, hlt⟩ := n
  have hn' : nv = 768 + f.val := hn
  subst hn'
  exact read_main_v5_1 (B0 m ρ c) e f

/-- The fused bias at 768 + f is the keys' bias at f. -/
theorem bk_entry (c : Dev nD) (f : Fin 768) (n : Fin 2304) (hn : n.val = 768 + f.val) :
    (E1 (F := Ideal) m ρ c main_v7 : S1x2304.Idx → EReal) (ix2 (0 : Fin 1) n) = (m ((c.tc : Thread nD τ).loc main_arg4) : S768.Idx → EReal) (ix1 f) := by
  obtain ⟨nv, hlt⟩ := n
  have hn' : nv = 768 + f.val := hn
  subst hn'
  exact read_main_v7_1 (B0 m ρ c) f

/-- The keys the attention call reads, by head: the keys' linear layer of the activations. -/
theorem k_entry (c : Dev nD) (bb : Fin 2) (h : Fin 12) (s : Fin 2048) (d : Fin 64) :
    (E3 (F := Ideal) m ρ c main_v17 : S24x2048x64.Idx → EReal)
        (ix3 (⟨bb.val * 12 + h.val, by have := bb.isLt; have := h.isLt; omega⟩ : Fin 24) s d)
      = Cert.Attn.proj (seqOfK (m ((c.tc : Thread nD τ).loc main_arg0) : S2x2048x768.Idx → EReal)) (matOfK (m ((c.tc : Thread nD τ).loc main_arg3) : S768x768.Idx → EReal)) (biasOfK (m ((c.tc : Thread nD τ).loc main_arg4) : S768.Idx → EReal)) bb s (Cert.Attn.hd h d) := by
  refine (read_main_v17 (B2 m ρ c) bb h s d).trans ?_
  have h8 : B2 m ρ c (Proc.devRef .tc main_v8) = (dat0 (E1 m ρ) c).arrAt 3 cfg0.N := B2_arr m ρ c 3
  rw [h8, linear_final (E1 m ρ) c, linOf_def]
  refine proj_of_reads _ _ _ _ _ _ bb s (Cert.Attn.hd h d) _ _ ?_ ?_ ?_
  · exact fun e => x_entry m ρ c bb s e _ rfl
  · exact fun e => wk_entry m ρ c e (Cert.Attn.hd h d) _ (Nat.add_assoc _ _ _)
  · exact bk_entry m ρ c (Cert.Attn.hd h d) _ (Nat.add_assoc _ _ _)

/-- The fused weight's column 1536 + f is row f of the values' weight. -/
theorem wv_entry (c : Dev nD) (e f : Fin 768) (n : Fin 2304) (hn : n.val = 1536 + f.val) :
    (E1 (F := Ideal) m ρ c main_v5 : S768x2304.Idx → EReal) (ix2 e n) = (m ((c.tc : Thread nD τ).loc main_arg5) : S768x768.Idx → EReal) (ix2 f e) := by
  obtain ⟨nv, hlt⟩ := n
  have hn' : nv = 1536 + f.val := hn
  subst hn'
  exact read_main_v5_2 (B0 m ρ c) e f

/-- The fused bias at 1536 + f is the values' bias at f. -/
theorem bv_entry (c : Dev nD) (f : Fin 768) (n : Fin 2304) (hn : n.val = 1536 + f.val) :
    (E1 (F := Ideal) m ρ c main_v7 : S1x2304.Idx → EReal) (ix2 (0 : Fin 1) n) = (m ((c.tc : Thread nD τ).loc main_arg6) : S768.Idx → EReal) (ix1 f) := by
  obtain ⟨nv, hlt⟩ := n
  have hn' : nv = 1536 + f.val := hn
  subst hn'
  exact read_main_v7_2 (B0 m ρ c) f

/-- The values the attention call reads, by head: the values' linear layer of the activations. -/
theorem v_entry (c : Dev nD) (bb : Fin 2) (h : Fin 12) (s : Fin 2048) (d : Fin 64) :
    (E3 (F := Ideal) m ρ c main_v20 : S24x2048x64.Idx → EReal)
        (ix3 (⟨bb.val * 12 + h.val, by have := bb.isLt; have := h.isLt; omega⟩ : Fin 24) s d)
      = Cert.Attn.proj (seqOfK (m ((c.tc : Thread nD τ).loc main_arg0) : S2x2048x768.Idx → EReal)) (matOfK (m ((c.tc : Thread nD τ).loc main_arg5) : S768x768.Idx → EReal)) (biasOfK (m ((c.tc : Thread nD τ).loc main_arg6) : S768.Idx → EReal)) bb s (Cert.Attn.hd h d) := by
  refine (read_main_v20 (B2 m ρ c) bb h s d).trans ?_
  have h8 : B2 m ρ c (Proc.devRef .tc main_v8) = (dat0 (E1 m ρ) c).arrAt 3 cfg0.N := B2_arr m ρ c 3
  rw [h8, linear_final (E1 m ρ) c, linOf_def]
  refine proj_of_reads _ _ _ _ _ _ bb s (Cert.Attn.hd h d) _ _ ?_ ?_ ?_
  · exact fun e => x_entry m ρ c bb s e _ rfl
  · exact fun e => wv_entry m ρ c e (Cert.Attn.hd h d) _ (Nat.add_assoc _ _ _)
  · exact bv_entry m ρ c (Cert.Attn.hd h d) _ (Nat.add_assoc _ _ _)

/-- An argument no stretch before the attention call writes and the projection call does not stage is as launched. -/
theorem B2_arg (c : Dev nD) (r : Ref sig .tc) (h0 : r ∉ (hostOps0_W : List (Ref sig .tc))) (hw0 : ∀ w, Pipeline.arrRef spec0 w ≠ r) :
    B2 (F := Ideal) m ρ c (Proc.devRef .tc r) = m ((c : Thread nD τ).loc r) :=
  (B2_of_ne m ρ c r hw0).trans (StableHlo.after_of_writes_sub hostOps0 _ hostOps0_writes h0)

/-- The output weight the attention call reads, row 64·h+d: the output weight's column, transposed. -/
theorem wo_entry (c : Dev nD) (h : Fin 12) (d : Fin 64) (f : Fin 768) :
    (E3 (F := Ideal) m ρ c main_v22 : S768x768.Idx → EReal)
        (ix2 (⟨h.val * 64 + d.val, by have := h.isLt; have := d.isLt; omega⟩ : Fin 768) f)
      = matOfK (m ((c.tc : Thread nD τ).loc main_arg7) : S768x768.Idx → EReal) f (Cert.Attn.hd h d) := by
  refine (read_main_v22 (B2 m ρ c) _ f).trans ?_
  rw [B2_arg m ρ c main_arg7 (by decide) (by decide)]
  rfl

/-- The output bias the attention call reads. -/
theorem bo_entry (c : Dev nD) (f : Fin 768) :
    (E3 (F := Ideal) m ρ c main_v23 : S1x768.Idx → EReal) (ix2 (0 : Fin 1) f) = biasOfK (m ((c.tc : Thread nD τ).loc main_arg8) : S768.Idx → EReal) f := by
  refine (read_main_v23 (B2 m ρ c) f).trans ?_
  rw [B2_arg m ρ c main_arg8 (by decide) (by decide)]
  rfl

/-- The program's first result, by batch and position: the rows the attention call leaves. -/
theorem out_exit (c : Dev nD) (bb : Fin 2) (s : Fin 2048) (f : Fin 768) :
    (B5 (F := Ideal) m ρ c (Proc.devRef .tc main_v25) : S2x2048x768.Idx → EReal) (ix3 bb s f)
      = (dat1 (F := Ideal) (E3 m ρ) c).arrAt 6 cfg1.N
          (ix2 (⟨bb.val * 2048 + s.val, by have := bb.isLt; have := s.isLt; omega⟩ : Fin 4096) f) := by
  refine (read_main_v25 (B4 m ρ c) bb s f).trans ?_
  have h6 : B4 m ρ c (Proc.devRef .tc main_v24_1) = (dat1 (E3 m ρ) c).arrAt 6 cfg1.N := B4_arr m ρ c 6
  rw [h6]

/-- The program's second result: the attention weights the attention call leaves. -/
theorem attn_exit (c : Dev nD) :
    B5 (F := Ideal) m ρ c (Proc.devRef .tc main_v24_0) = (dat1 (F := Ideal) (E3 m ρ) c).arrAt 5 cfg1.N :=
  (StableHlo.after_of_writes_sub hostOps2 _ hostOps2_writes (by decide)).trans (B4_arr m ρ c 5)

end Cert.KernelIdeal.Val

end
-- ==== Proof.LibRowLayout.lean ====
/-
  Column forms of the layout operations, read at an index written by coordinates.

  A row-wise reduction with the reduced axis kept (a mean or a variance per row) meets three layout steps:
  the vector of row sums [a] is cast to a column [a, 1]; the column is broadcast along the rows to [a, b];
  and the sum itself runs over the second coordinate of the row. Each lemma reads one of these steps at an
  index given by its coordinates.
-/
import Idealize.ShloMosaic.Lib.ValueIdx
import Idealize.ShloMosaic.Lib.ValueLayout
import Idealize.ShloMosaic.Lib.Pipeline.Value
import Idealize.ShloMosaic.PureOps.Ideal.Laws

namespace Cert.LibRowLayout

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the second axis of `[a, b]` visits at row `i` and position `k` is `(i, k)`. -/
theorem lift_row {a b : ℕ} (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- A sum over the second axis of an `[a, b]` array of extended reals, read at row `i`: the sum of the row. -/
theorem multiReduction_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRowLayout
-- ==== Proof.PayAttn.lean ====
/-
  The attention weights' stored value read at an index, on the extended reals.

  The body forms the scores q (i, ·) · k (j, ·) scaled by 1/8 (a product into an all-zero accumulator against the
  transposed keys), takes each row's maximum (a fold of max from minus infinity), subtracts it, exponentiates,
  and divides by the row's sum. At entry (i, j) that is the softmax of row i of the scaled scores, at j.
-/
import proofs.«150536_j50783693308250_2_alg».proof.Proof.Gen.KernelIdeal.Skeleton
import proofs.«150536_j50783693308250_2_alg».proof.Proof.Spec
import proofs.«150536_j50783693308250_2_alg».proof.Proof.LibPlainDot
import proofs.«150536_j50783693308250_2_alg».proof.Proof.LibRowLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## Two constants -/

/-- The pattern of 0.125 denotes the real 1/8. -/
theorem ofBits_eighth : Ideal.ofBits .f32 0x3E000000#32 = ((1 / 8 : ℝ) : EReal) := by
  simp [Ideal.ofBits, Ideal.ieee, -EReal.coe_mul]; norm_num

/-- The pattern of minus infinity denotes the bottom element. -/
theorem ofBits_negInf : FloatOps.ofBits (F := Ideal) .f32 0xFF800000#32 = (⊥ : EReal) := by
  simp [Ideal.ofBits, Ideal.ieee]

/-! ## A row's maximum as a fold over its entries -/

/-- A maximum over the second axis of an [a, b] array of extended reals, read at row i: the fold of max, from the
    accumulator's value, over the row. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (FloatOps.ofBits φ acc) (fun k => src (ix2 i k)) := by
  refine (Ideal.multiReduction_maximumf_single src acc h hφ hacc (ix1 i)).trans ?_
  exact congrArg (fun g => (Finset.univ : Finset (Fin b)).fold max (FloatOps.ofBits φ acc) g)
    (funext fun k => congrArg src (LibRowLayout.lift_row h i k))

/-! ## The pieces of the body, named -/

/-- The scaled score of query row i against key row j. -/
def rowScore (q : Vec Ideal S1x512x64 .bf16) (k : Vec Ideal S1x2048x64 .bf16) (i : Fin 512) (j : Fin 2048) : EReal :=
  (∑ d : Fin 64, q (ix3 0 i d) * k (ix3 0 j d)) * ((1 / 8 : ℝ) : EReal)

/-- The array of scaled scores as the body computes it. -/
def scoreV (q : Vec Ideal S1x512x64 .bf16) (k : Vec Ideal S1x2048x64 .bf16) : FVec Ideal S512x2048 .f32 :=
  have q' : FVec Ideal S512x64 .bf16 := shapeCast S512x64 q shapeCasts_S1x512x64_S512x64
  have k' : FVec Ideal S2048x64 .bf16 := shapeCast S2048x64 k shapeCasts_S1x2048x64_S2048x64
  have kT : FVec Ideal S64x2048 .bf16 := transpose S64x2048 [1, 0] k' transposes_S2048x64_p1_0_S64x2048
  have z : FVec Ideal S512x2048 .f32 := constant S512x2048 .f32 0x00000000#32
  have qk : FVec Ideal S512x2048 .f32 := matmul dot_S512x64_S64x2048_S512x2048_1_0_0_1_n_n none q' kT z
  have c : Ideal .f32 := Scalar.ofBits .f32 0x3E000000#32
  mulf qk (broadcast S512x2048 c)

/-- Each row's maximum, laid along the row. -/
def colMax (S : FVec Ideal S512x2048 .f32) : FVec Ideal S512x2048 .f32 :=
  broadcastTo S512x2048 (shapeCast S512x1 (multiReduction .maximumf [1] S512 S 0xFF800000#32 reduces_S512x2048_S512 (.inl rfl) rfl)
    shapeCasts_S512_S512x1) broadcasts_S512x1_S512x2048

/-- Each row's sum, laid along the row. -/
def colSum (E : FVec Ideal S512x2048 .f32) : FVec Ideal S512x2048 .f32 :=
  broadcastTo S512x2048 (shapeCast S512x1 (multiReduction .add [1] S512 E 0x00000000#32 reduces_S512x2048_S512 (.inl rfl) rfl)
    shapeCasts_S512_S512x1) broadcasts_S512x1_S512x2048

/-- The exponentials of the entries less their row's maximum. -/
def expV (S : FVec Ideal S512x2048 .f32) : FVec Ideal S512x2048 .f32 := exp (subf S (colMax S))

/-- The row-wise softmax as the body computes it. -/
def softmaxV (S : FVec Ideal S512x2048 .f32) : FVec Ideal S512x2048 .f32 := divf (expV S) (colSum (expV S))

/-- The stored value is the row-wise softmax of the scaled scores. -/
theorem k1_pay2_eq (q : Vec Ideal S1x512x64 .bf16) (k : Vec Ideal S1x2048x64 .bf16) :
    k1_pay2 (F := Ideal) q k = softmaxV (scoreV q k) := rfl

/-! ## Each piece read at an index -/

/-- Entry (i, j) of the scaled scores. -/
theorem scoreV_apply (q : Vec Ideal S1x512x64 .bf16) (k : Vec Ideal S1x2048x64 .bf16) (i : Fin 512) (j : Fin 2048) :
    scoreV q k (ix2 i j) = rowScore q k i j := by
  unfold scoreV rowScore
  refine (congrArg₂ (· * ·)
    (PlainDot.matmul_zero_apply dot_S512x64_S64x2048_S512x2048_1_0_0_1_n_n rfl rfl rfl rfl rfl rfl rfl rfl none _ _ i j)
    ofBits_eighth).trans ?_
  refine congrArg (· * ((1 / 8 : ℝ) : EReal)) (Finset.sum_congr rfl fun d _ => ?_)
  exact congrArg₂ (· * ·) (shapeCast_1ab_ab_apply q shapeCasts_S1x512x64_S512x64 i d)
    ((transpose_ix2_apply _ transposes_S2048x64_p1_0_S64x2048 d j).trans
      (shapeCast_1ab_ab_apply k shapeCasts_S1x2048x64_S2048x64 j d))

/-- The row maximum laid along the row reads, anywhere in row i, the maximum of row i. -/
theorem colMax_apply (S : FVec Ideal S512x2048 .f32) (i : Fin 512) (c : Fin 2048) :
    colMax S (ix2 i c) = Cert.Attn.rowMax (fun j' => S (ix2 i j')) := by
  unfold colMax Cert.Attn.rowMax
  refine (LibRowLayout.broadcastTo_a1_ab_apply _ broadcasts_S512x1_S512x2048 i c).trans ?_
  refine (LibRowLayout.shapeCast_a_a1_apply _ shapeCasts_S512_S512x1 i 0).trans ?_
  refine (multiReduction_max_row S _ reduces_S512x2048_S512 _ _ i).trans ?_
  rw [ofBits_negInf]

/-- The row sum laid along the row reads, anywhere in row i, the sum of row i. -/
theorem colSum_apply (E : FVec Ideal S512x2048 .f32) (i : Fin 512) (c : Fin 2048) :
    colSum E (ix2 i c) = ∑ j' : Fin 2048, E (ix2 i j') := by
  unfold colSum
  refine (LibRowLayout.broadcastTo_a1_ab_apply _ broadcasts_S512x1_S512x2048 i c).trans ?_
  refine (LibRowLayout.shapeCast_a_a1_apply _ shapeCasts_S512_S512x1 i 0).trans ?_
  exact LibRowLayout.multiReduction_row E _ reduces_S512x2048_S512 _ _ i

/-- Entry (i, j) of the exponentials. -/
theorem expV_apply (S : FVec Ideal S512x2048 .f32) (i : Fin 512) (j : Fin 2048) :
    expV S (ix2 i j) = Ideal.exp (S (ix2 i j) - Cert.Attn.rowMax (fun j' => S (ix2 i j'))) := by
  unfold expV
  show Ideal.exp (S (ix2 i j) - colMax S (ix2 i j)) = _
  rw [colMax_apply]

/-- Entry (i, j) of the row-wise softmax. -/
theorem softmaxV_apply (S : FVec Ideal S512x2048 .f32) (i : Fin 512) (j : Fin 2048) :
    softmaxV S (ix2 i j) = Cert.Attn.softmax (fun j' => S (ix2 i j')) j := by
  unfold softmaxV Cert.Attn.softmax
  show Ideal.div (expV S (ix2 i j)) (colSum (expV S) (ix2 i j)) = _
  rw [colSum_apply, expV_apply]
  exact congrArg (Ideal.div _) (Finset.sum_congr rfl fun j' _ => expV_apply S i j')

/-! ## The stored values -/

/-- Entry (i, j) of the attention weights: the softmax of row i of the scaled scores, at j. -/
theorem attn_apply (q : Vec Ideal S1x512x64 .bf16) (k : Vec Ideal S1x2048x64 .bf16) (i : Fin 512) (j : Fin 2048) :
    k1_pay2 (F := Ideal) q k (ix2 i j) = Cert.Attn.softmax (rowScore q k i) j := by
  rw [k1_pay2_eq]
  refine (softmaxV_apply (scoreV q k) i j).trans ?_
  exact congrArg (fun s => Cert.Attn.softmax s j) (funext fun j' => scoreV_apply q k i j')

/-- The weights stored as a [1, 1, 512, 2048] block read, at (0, 0, i, j), the weights at (i, j). -/
theorem attn_store_apply (q : Vec Ideal S1x512x64 .bf16) (k : Vec Ideal S1x2048x64 .bf16) (i : Fin 512) (j : Fin 2048) :
    k1_pay3 (F := Ideal) q k (ix4 0 0 i j) = k1_pay2 (F := Ideal) q k (ix2 i j) := by
  unfold k1_pay3
  generalize k1_pay2 (F := Ideal) q k = y
  refine shapeCast_apply y shapeCasts_S512x2048_S1x1x512x2048 _ _ ?_
  rw [Shape.rowMajor_val_two, Shape.rowMajor_val_four]
  show i.val * 2048 + j.val = ((0 * 1 + 0) * 512 + i.val) * 2048 + j.val
  omega

end Cert.KernelIdeal.Pay

end
-- ==== Proof.AttnValue.lean ====
/-
  The second pipeline's attention-weight array after the run, on the extended reals: the softmax over the key position
  of the scaled scores of the two arrays the region finds, index by index.

  The grid has 2 × 4 × 12 points, point `t = (b·4 + tile)·12 + h`, and the weights' block `[1, 1, 512, 2048]` at block index
  `(b, h, tile, 0)` is written back at every point. Point `t` stores, at `(0, 0, i, j)` of its block, the softmax of row `i`
  of the scaled scores of its queries' block against its keys' block, at `j`; the queries' block is rows `512·tile …` of
  slice `12·b + h` of their array and the keys' block is all of slice `12·b + h` of theirs. So block `t` of the output is
  block `t` of ONE function of the whole arrays, and since `(b, h, i, ·)` lies in the block of point
  `(b·4 + i / 512)·12 + h`, the blocks cover the array: it ends holding that function.
-/
import proofs.«150536_j50783693308250_2_alg».proof.Proof.KI.Attn
import proofs.«150536_j50783693308250_2_alg».proof.Proof.PayAttn
import Idealize.ShloMosaic.Lib.Pipeline.Value

noncomputable section

namespace Cert.KernelIdeal.AttnVal

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, as the accesses spell them. -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The attention weights of whole arrays of queries and keys, heads flattened into the leading axis (`12·b + h`), at
    batch `b`, head `h`, query position `i`, key position `j`: the softmax over the key position of the scaled scores. -/
def attnW (a0 : S24x2048x64.Idx → EReal) (a1 : S24x2048x64.Idx → EReal) (bb : Fin 2) (h : Fin 12) (i j : Fin 2048) : EReal :=
  Cert.Attn.softmax (fun j' => (∑ d : Fin 64, a0 (ix3 (⟨bb.val * 12 + h.val, by omega⟩ : Fin 24) i d)
    * a1 (ix3 (⟨bb.val * 12 + h.val, by omega⟩ : Fin 24) j' d)) * ((1 / 8 : ℝ) : EReal)) j

/-- The same as one function of the output array's index. -/
def attnArr (a0 : S24x2048x64.Idx → EReal) (a1 : S24x2048x64.Idx → EReal) : S2x12x2048x2048.Idx → EReal :=
  fun x => attnW a0 a1 ⟨(x 0).val, (x 0).isLt⟩ ⟨(x 1).val, (x 1).isLt⟩ ⟨(x 2).val, (x 2).isLt⟩ ⟨(x 3).val, (x 3).isLt⟩

/-- At an index given by its coordinates. -/
theorem attnArr_ix4 (a0 : S24x2048x64.Idx → EReal) (a1 : S24x2048x64.Idx → EReal) (bb : Fin 2) (h : Fin 12) (i j : Fin 2048) :
    attnArr a0 a1 (ix4 bb h i j) = attnW a0 a1 bb h i j := rfl

/-- What the body leaves in the attention-weight block, at `(0, 0, i, j)`, from the two loaded blocks. -/
theorem outAttn_apply (q : Vec Ideal S1x512x64 .bf16) (k : Vec Ideal S1x2048x64 .bf16) (i : Fin 512) (j : Fin 2048) :
    outAttn (F := Ideal) q k (ix4 0 0 i j) = Cert.Attn.softmax (Pay.rowScore q k i) j := by
  unfold outAttn
  rw [View.canon_unit_zero hz4]
  simp only [View.ld_unit_zero (S := S1x512x64) hz3, View.ld_unit_zero (S := S1x2048x64) hz3]
  exact (Pay.attn_store_apply q k i j).trans (Pay.attn_apply q k i j)

/-- The index maps over the grid, point `t = (b·4 + tile)·12 + h`: the queries' block is (12·b + h, tile, 0), the keys'
    (12·b + h, 0, 0), the weights' (b, h, tile, 0). -/
theorem idx_facts1 : ∀ t : Fin cfg1.N,
    win1_0.index t (0 : Fin 3) = t.val / 48 * 12 + t.val % 12 ∧ win1_0.index t (1 : Fin 3) = t.val / 12 % 4 ∧ win1_0.index t (2 : Fin 3) = 0
    ∧ win1_1.index t (0 : Fin 3) = t.val / 48 * 12 + t.val % 12 ∧ win1_1.index t (1 : Fin 3) = 0 ∧ win1_1.index t (2 : Fin 3) = 0
    ∧ win1_5.index t (0 : Fin 4) = t.val / 48 ∧ win1_5.index t (1 : Fin 4) = t.val % 12
    ∧ win1_5.index t (2 : Fin 4) = t.val / 12 % 4 ∧ win1_5.index t (3 : Fin 4) = 0 :=
  (by decide +kernel : ∀ t : Fin grid1.N, _)

/-- The queries' block at point `t`: rows `512·tile …` of head-and-batch `12·b + h`. -/
theorem blkQ_apply (c : Dev nD) (t : Fin cfg1.N) (z : Fin 1) (i : Fin 512) (d : Fin 64) (g : Fin 24) (r : Fin 2048)
    (hg : g.val = t.val / 48 * 12 + t.val % 12) (hr : r.val = t.val / 12 % 4 * 512 + i.val) :
    (iblk1 V c 0 t : Vec Ideal S1x512x64 .bf16) (ix3 z i d) = (V c main_v14 : S24x2048x64.Idx → EReal) (ix3 g r d) := by
  obtain ⟨e0, e1, e2, -⟩ := idx_facts1 t
  have hz : z.val = 0 := by have := z.isLt; omega
  unfold iblk1
  rw [View.read_apply]
  show V c main_v14 _ = V c main_v14 _
  refine congrArg (V c main_v14) (funext fun a => Fin.ext ?_)
  match a with
  | ⟨0, _⟩ => show win1_0.index t (0 : Fin 3) * 1 + 1 * z.val = g.val; omega
  | ⟨1, _⟩ => show win1_0.index t (1 : Fin 3) * 512 + 1 * i.val = r.val; omega
  | ⟨2, _⟩ => show win1_0.index t (2 : Fin 3) * 64 + 1 * d.val = d.val; omega

/-- The keys' block at point `t`: all of head-and-batch `12·b + h`. -/
theorem blkK_apply (c : Dev nD) (t : Fin cfg1.N) (z : Fin 1) (j : Fin 2048) (d : Fin 64) (g : Fin 24)
    (hg : g.val = t.val / 48 * 12 + t.val % 12) :
    (iblk1 V c 1 t : Vec Ideal S1x2048x64 .bf16) (ix3 z j d) = (V c main_v17 : S24x2048x64.Idx → EReal) (ix3 g j d) := by
  obtain ⟨-, -, -, e0, e1, e2, -⟩ := idx_facts1 t
  have hz : z.val = 0 := by have := z.isLt; omega
  unfold iblk1
  rw [View.read_apply]
  show V c main_v17 _ = V c main_v17 _
  refine congrArg (V c main_v17) (funext fun a => Fin.ext ?_)
  match a with
  | ⟨0, _⟩ => show win1_1.index t (0 : Fin 3) * 1 + 1 * z.val = g.val; omega
  | ⟨1, _⟩ => show win1_1.index t (1 : Fin 3) * 2048 + 1 * j.val = j.val; omega
  | ⟨2, _⟩ => show win1_1.index t (2 : Fin 3) * 64 + 1 * d.val = d.val; omega

/-- WHAT POINT `t` WRITES BACK is block `t` of the attention weights of the arrays as the region finds them. -/
theorem flushedAttn_eq (c : Dev nD) (t : Fin cfg1.N) :
    (dat1 V c).flushed 5 t = ((cfg1.win 5).blk t).view.read (Elt Ideal) (attnArr (V c main_v14) (V c main_v17)) := by
  show (cfg1.win 5).cut (grid1.coords t) ((dat1 V c).after 5 t) = _
  rw [after1_5]
  obtain ⟨-, -, -, -, -, -, e0, e1, e2, e3⟩ := idx_facts1 t
  have ht : t.val < 96 := t.isLt.trans_eq N_1
  funext y
  have h0 : (y 0).val < 1 := (y 0).isLt
  have h1 : (y 1).val < 1 := (y 1).isLt
  have hi : (y 2).val < 512 := (y 2).isLt
  have hj : (y 3).val < 2048 := (y 3).isLt
  have hemb : ((cfg1.win 5).blk t).view.emb y
      = ix4 (⟨t.val / 48, by omega⟩ : Fin 2) (⟨t.val % 12, by omega⟩ : Fin 12)
          (⟨t.val / 12 % 4 * 512 + (y 2).val, by omega⟩ : Fin 2048) (⟨(y 3).val, hj⟩ : Fin 2048) :=
    funext fun a => Fin.ext (by
      match a with
      | ⟨0, _⟩ => show win1_5.index t (0 : Fin 4) * 1 + 1 * (y 0).val = t.val / 48; omega
      | ⟨1, _⟩ => show win1_5.index t (1 : Fin 4) * 1 + 1 * (y 1).val = t.val % 12; omega
      | ⟨2, _⟩ => show win1_5.index t (2 : Fin 4) * 512 + 1 * (y 2).val = t.val / 12 % 4 * 512 + (y 2).val; omega
      | ⟨3, _⟩ => show win1_5.index t (3 : Fin 4) * 2048 + 1 * (y 3).val = (y 3).val; omega)
  have hinj : (cfg1.win 5).xinj (grid1.coords t) y = ix4 (0 : Fin 1) (0 : Fin 1) (⟨(y 2).val, hi⟩ : Fin 512) (⟨(y 3).val, hj⟩ : Fin 2048) :=
    funext fun a => Fin.ext (by
      match a with
      | ⟨0, _⟩ => show (y 0).val = 0; omega
      | ⟨1, _⟩ => show (y 1).val = 0; omega
      | ⟨2, _⟩ => rfl
      | ⟨3, _⟩ => rfl)
  show outAttn (iblk1 V c 0 t) (iblk1 V c 1 t) ((cfg1.win 5).xinj (grid1.coords t) y)
    = attnArr (V c main_v14) (V c main_v17) (((cfg1.win 5).blk t).view.emb y)
  rw [hinj, hemb]
  refine (outAttn_apply (iblk1 V c 0 t) (iblk1 V c 1 t) ⟨(y 2).val, hi⟩ ⟨(y 3).val, hj⟩).trans ?_
  refine Eq.trans ?_ (attnArr_ix4 (V c main_v14) (V c main_v17) ⟨t.val / 48, by omega⟩ ⟨t.val % 12, by omega⟩
    ⟨t.val / 12 % 4 * 512 + (y 2).val, by omega⟩ ⟨(y 3).val, hj⟩).symm
  unfold attnW
  refine congrArg (fun s => Cert.Attn.softmax s (⟨(y 3).val, hj⟩ : Fin 2048)) (funext fun j' => ?_)
  unfold Pay.rowScore
  refine congrArg (· * ((1 / 8 : ℝ) : EReal)) (Finset.sum_congr rfl fun d _ => ?_)
  rw [blkQ_apply V c t 0 ⟨(y 2).val, hi⟩ d ⟨t.val / 48 * 12 + t.val % 12, by omega⟩ ⟨t.val / 12 % 4 * 512 + (y 2).val, by omega⟩ rfl rfl,
    blkK_apply V c t 0 j' d ⟨t.val / 48 * 12 + t.val % 12, by omega⟩ rfl]

/-- An index of the array is in point `t`'s block iff each coordinate is in the block's range on its axis. -/
theorem mem_blkAttn (t : Fin cfg1.N) (x : S2x12x2048x2048.Idx) :
    x ∈ ((cfg1.win 5).blk t).view.set ↔ ∀ a : Fin 4, win1_5.index t a * S1x1x512x2048.size a ≤ (x a).val
      ∧ (x a).val < win1_5.index t a * S1x1x512x2048.size a + S1x1x512x2048.size a := by
  show x ∈ ((View.whole main_v24_0).slice (win1_5.rect t)).set ↔ _
  rw [View.set_slice_whole, Rect.mem_set_unit]
  exact Iff.rfl

/-- Every index is in some point's block: `(b, h, i, ·)` is in the block of point `(b·4 + i / 512)·12 + h`. -/
theorem coverAttn (x : S2x12x2048x2048.Idx) : ∃ t : Fin cfg1.N, (cfg1.win 5).flush t = true ∧ x ∈ ((cfg1.win 5).blk t).view.set := by
  have hx0 : (x 0).val < 2 := (x 0).isLt
  have hx1 : (x 1).val < 12 := (x 1).isLt
  have hx2 : (x 2).val < 2048 := (x 2).isLt
  have hx3 : (x 3).val < 2048 := (x 3).isLt
  obtain ⟨t, ht⟩ : ∃ t : Fin cfg1.N, t.val = ((x 0).val * 4 + (x 2).val / 512) * 12 + (x 1).val :=
    ⟨⟨((x 0).val * 4 + (x 2).val / 512) * 12 + (x 1).val, by show _ < grid1.N; rw [N_1]; omega⟩, rfl⟩
  obtain ⟨-, -, -, -, -, -, e0, e1, e2, e3⟩ := idx_facts1 t
  refine ⟨t, flush1_5 t, ?_⟩
  rw [mem_blkAttn]
  intro a
  match a with
  | ⟨0, _⟩ => show win1_5.index t (0 : Fin 4) * 1 ≤ (x 0).val ∧ (x 0).val < win1_5.index t (0 : Fin 4) * 1 + 1; omega
  | ⟨1, _⟩ => show win1_5.index t (1 : Fin 4) * 1 ≤ (x 1).val ∧ (x 1).val < win1_5.index t (1 : Fin 4) * 1 + 1; omega
  | ⟨2, _⟩ => show win1_5.index t (2 : Fin 4) * 512 ≤ (x 2).val ∧ (x 2).val < win1_5.index t (2 : Fin 4) * 512 + 512; omega
  | ⟨3, _⟩ => show win1_5.index t (3 : Fin 4) * 2048 ≤ (x 3).val ∧ (x 3).val < win1_5.index t (3 : Fin 4) * 2048 + 2048; omega

/-- THE ARRAY after the run is the attention weights of the arrays as the region finds them. -/
theorem attn_arr (c : Dev nD) : (dat1 V c).arrAt 5 cfg1.N = attnArr (V c main_v14) (V c main_v17) :=
  (dat1 V c).arrAt_eq_of_cover 5 (attnArr (V c main_v14) (V c main_v17)) (fun t _ => flushedAttn_eq V c t) coverAttn

/-- At batch `b`, head `h`, query position `i`, key position `j`. -/
theorem attn_final (c : Dev nD) (bb : Fin 2) (h : Fin 12) (i j : Fin 2048) :
    ((dat1 (F := Ideal) V c).arrAt 5 cfg1.N : S2x12x2048x2048.Idx → EReal) (ix4 bb h i j)
      = attnW (V c main_v14) (V c main_v17) bb h i j := by
  rw [attn_arr]
  rfl

/-- The attention weights, spelled out. -/
theorem attnW_def (a0 : S24x2048x64.Idx → EReal) (a1 : S24x2048x64.Idx → EReal) (bb : Fin 2) (h : Fin 12) (i j : Fin 2048) :
    attnW a0 a1 bb h i j = Cert.Attn.softmax (fun j' => (∑ d : Fin 64, a0 (ix3 (⟨bb.val * 12 + h.val, by omega⟩ : Fin 24) i d)
      * a1 (ix3 (⟨bb.val * 12 + h.val, by omega⟩ : Fin 24) j' d)) * ((1 / 8 : ℝ) : EReal)) j := rfl

end Cert.KernelIdeal.AttnVal

end
-- ==== Proof.PayOut.lean ====
/-
  The output kernel's stored values read at an index, on the extended reals.

  One head's contribution is (weights · values) · the head's slice of the output weights: two products into all-zero
  accumulators, with a rounding to the narrow format in between (the identity on extended reals). The first head
  stores the one-row bias broadcast down the rows plus its contribution; each later head stores the block already
  there plus its contribution.
-/
import proofs.«150536_j50783693308250_2_alg».proof.Proof.Gen.KernelIdeal.Skeleton
import proofs.«150536_j50783693308250_2_alg».proof.Proof.Spec
import proofs.«150536_j50783693308250_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- Entry (i, f) of a head's contribution: over the head's 64 features d, (row i of the weights against column d of the
    values) times the output weight at (d, f). -/
theorem contrib_apply (q : Vec Ideal S1x512x64 .bf16) (k : Vec Ideal S1x2048x64 .bf16) (v : Vec Ideal S1x2048x64 .bf16)
    (w : Vec Ideal S64x768 .bf16) (i : Fin 512) (f : Fin 768) :
    k1_pay4 (F := Ideal) q k v w (ix2 i f)
      = ∑ d : Fin 64, (∑ kk : Fin 2048, k1_pay2 (F := Ideal) q k (ix2 i kk) * v (ix3 0 kk d)) * w (ix2 d f) := by
  unfold k1_pay4
  generalize k1_pay2 (F := Ideal) q k = P
  refine (PlainDot.matmul_zero_apply dot_S512x64_S64x768_S512x768_1_0_0_1_n_n rfl rfl rfl rfl rfl rfl rfl rfl none _ _ i f).trans ?_
  refine Finset.sum_congr rfl fun d _ => ?_
  refine congrArg₂ (· * ·) ?_ (congrFun (shapeCast_self w shapeCasts_S64x768_S64x768) (ix2 d f))
  refine (PlainDot.matmul_zero_apply dot_S512x2048_S2048x64_S512x64_1_0_0_1_n_n rfl rfl rfl rfl rfl rfl rfl rfl none _ _ i d).trans ?_
  refine Finset.sum_congr rfl fun kk _ => ?_
  exact congrArg (P (ix2 i kk) * ·) (shapeCast_1ab_ab_apply v shapeCasts_S1x2048x64_S2048x64 kk d)

/-- Entry (i, f) of what the first head stores: the bias at f plus the head's contribution. -/
theorem first_apply (q : Vec Ideal S1x512x64 .bf16) (k : Vec Ideal S1x2048x64 .bf16) (v : Vec Ideal S1x2048x64 .bf16)
    (w : Vec Ideal S64x768 .bf16) (b : Vec Ideal S1x768 .f32) (i : Fin 512) (f : Fin 768) :
    k1_pay5 (F := Ideal) q k v w b (ix2 i f) = b (ix2 0 f) + k1_pay4 (F := Ideal) q k v w (ix2 i f) := by
  unfold k1_pay5
  generalize k1_pay4 (F := Ideal) q k v w = C
  refine congrArg (· + C (ix2 i f)) ?_
  refine (broadcastTo_1b_ab_apply _ broadcasts_S1x768_S512x768 i f).trans ?_
  rw [shapeCast_self, shapeCast_self]

/-- Entry (i, f) of what a later head stores: the block already there plus the head's contribution. -/
theorem acc_apply (c : FVec Ideal S512x768 .f32) (prev : Vec Ideal S512x768 .f32) (i : Fin 512) (f : Fin 768) :
    k1_pay1 (F := Ideal) c prev (ix2 i f) = prev (ix2 i f) + c (ix2 i f) := by
  unfold k1_pay1
  rw [shapeCast_self]
  rfl

end Cert.KernelIdeal.Pay

end
-- ==== Proof.OutBlocks.lean ====
/-
  The second call's input blocks read where the grid point says, and one head's contribution in closed form.

  Point t of the grid (batch bb, query tile jt, head h; t = (bb*4 + jt)*12 + h) reads: rows jt*512 .. jt*512+511 of
  slab bb*12 + h of the queries; all of slab bb*12 + h of the keys and of the values; rows h*64 .. h*64+63 of the output
  weights; the bias row. An element of a block sits in its array, on each axis, at block index times block size plus
  its coordinate in the block. With the blocks read there, the head's contribution at (i, f) is, over the head's 64
  features d, (the softmax of the scaled scores of query row jt*512+i against all keys, weighted over the values'
  column d) times the output weight at (h*64+d, f).
-/
import proofs.«150536_j50783693308250_2_alg».proof.Proof.KI.AttnShared
import proofs.«150536_j50783693308250_2_alg».proof.Proof.PayAttn
import proofs.«150536_j50783693308250_2_alg».proof.Proof.PayOut
import Idealize.ShloMosaic.Lib.Pipeline.Value

set_option maxRecDepth 16384

noncomputable section

namespace Cert.KernelIdeal.Val

open Cert.KernelIdeal Cert.KernelIdeal.Gen Cert.KernelIdeal.Frm Cert.KernelIdeal.Pay
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The arrays the call reads, by their literal shapes -/

/-- The queries, keys and values, one [2048, 64] slab per (batch, head); the output weights; the bias row. -/
abbrev aQ (c : Dev nD) : S24x2048x64.Idx → EReal := V c main_v14
abbrev aK (c : Dev nD) : S24x2048x64.Idx → EReal := V c main_v17
abbrev aV (c : Dev nD) : S24x2048x64.Idx → EReal := V c main_v20
abbrev aWo (c : Dev nD) : S768x768.Idx → EReal := V c main_v22
abbrev aBo (c : Dev nD) : S1x768.Idx → EReal := V c main_v23

/-! ## Where each window's block sits at a point -/

/-- The block indices of the windows at point t, as arithmetic of t: decided over the 96 points. -/
theorem idx_facts : ∀ t : Fin cfg1.N,
    win1_0.index t (0 : Fin 3) = t.val / 48 * 12 + t.val % 12 ∧ win1_0.index t (1 : Fin 3) = t.val / 12 % 4 ∧ win1_0.index t (2 : Fin 3) = 0
    ∧ win1_1.index t (0 : Fin 3) = t.val / 48 * 12 + t.val % 12 ∧ win1_1.index t (1 : Fin 3) = 0 ∧ win1_1.index t (2 : Fin 3) = 0
    ∧ win1_2.index t (0 : Fin 3) = t.val / 48 * 12 + t.val % 12 ∧ win1_2.index t (1 : Fin 3) = 0 ∧ win1_2.index t (2 : Fin 3) = 0
    ∧ win1_3.index t (0 : Fin 2) = t.val % 12 ∧ win1_3.index t (1 : Fin 2) = 0
    ∧ win1_4.index t (0 : Fin 2) = 0 ∧ win1_4.index t (1 : Fin 2) = 0
    ∧ win1_6.index t (0 : Fin 2) = t.val / 12 ∧ win1_6.index t (1 : Fin 2) = 0 :=
  (by decide +kernel : ∀ t : Fin grid1.N, _)

/-- The query block at point t reads, at (0, i, d), the queries at (slab, query row, d). -/
theorem blkQ_apply (c : Dev nD) (t : Fin cfg1.N) (i : Fin 512) (d : Fin 64) (g : Fin 24) (s : Fin 2048)
    (hg : g.val = t.val / 48 * 12 + t.val % 12) (hs : s.val = t.val / 12 % 4 * 512 + i.val) :
    (iblk1 V c 0 t : Vec Ideal S1x512x64 .bf16) (ix3 0 i d) = aQ V c (ix3 g s d) := by
  obtain ⟨e0, e1, e2, -⟩ := idx_facts t
  show V c main_v14 (((cfg1.win 0).blk t).view.emb (ix3 0 i d)) = V c main_v14 (ix3 g s d)
  refine congrArg (V c main_v14) (funext fun a => Fin.ext ?_)
  match a with
  | ⟨0, _⟩ => show win1_0.index t (0 : Fin 3) * 1 + 1 * 0 = g.val; omega
  | ⟨1, _⟩ => show win1_0.index t (1 : Fin 3) * 512 + 1 * i.val = s.val; omega
  | ⟨2, _⟩ => show win1_0.index t (2 : Fin 3) * 64 + 1 * d.val = d.val; omega

/-- The key block at point t reads, at (0, j, d), the keys at (slab, j, d). -/
theorem blkK_apply (c : Dev nD) (t : Fin cfg1.N) (j : Fin 2048) (d : Fin 64) (g : Fin 24)
    (hg : g.val = t.val / 48 * 12 + t.val % 12) :
    (iblk1 V c 1 t : Vec Ideal S1x2048x64 .bf16) (ix3 0 j d) = aK V c (ix3 g j d) := by
  obtain ⟨-, -, -, e0, e1, e2, -⟩ := idx_facts t
  show V c main_v17 (((cfg1.win 1).blk t).view.emb (ix3 0 j d)) = V c main_v17 (ix3 g j d)
  refine congrArg (V c main_v17) (funext fun a => Fin.ext ?_)
  match a with
  | ⟨0, _⟩ => show win1_1.index t (0 : Fin 3) * 1 + 1 * 0 = g.val; omega
  | ⟨1, _⟩ => show win1_1.index t (1 : Fin 3) * 2048 + 1 * j.val = j.val; omega
  | ⟨2, _⟩ => show win1_1.index t (2 : Fin 3) * 64 + 1 * d.val = d.val; omega

/-- The value block at point t reads, at (0, j, d), the values at (slab, j, d). -/
theorem blkV_apply (c : Dev nD) (t : Fin cfg1.N) (j : Fin 2048) (d : Fin 64) (g : Fin 24)
    (hg : g.val = t.val / 48 * 12 + t.val % 12) :
    (iblk1 V c 2 t : Vec Ideal S1x2048x64 .bf16) (ix3 0 j d) = aV V c (ix3 g j d) := by
  obtain ⟨-, -, -, -, -, -, e0, e1, e2, -⟩ := idx_facts t
  show V c main_v20 (((cfg1.win 2).blk t).view.emb (ix3 0 j d)) = V c main_v20 (ix3 g j d)
  refine congrArg (V c main_v20) (funext fun a => Fin.ext ?_)
  match a with
  | ⟨0, _⟩ => show win1_2.index t (0 : Fin 3) * 1 + 1 * 0 = g.val; omega
  | ⟨1, _⟩ => show win1_2.index t (1 : Fin 3) * 2048 + 1 * j.val = j.val; omega
  | ⟨2, _⟩ => show win1_2.index t (2 : Fin 3) * 64 + 1 * d.val = d.val; omega

/-- The output-weight block at point t reads, at (d, f), the output weights at (head * 64 + d, f). -/
theorem blkWo_apply (c : Dev nD) (t : Fin cfg1.N) (d : Fin 64) (f : Fin 768) (r : Fin 768)
    (hr : r.val = t.val % 12 * 64 + d.val) :
    (iblk1 V c 3 t : Vec Ideal S64x768 .bf16) (ix2 d f) = aWo V c (ix2 r f) := by
  obtain ⟨-, -, -, -, -, -, -, -, -, e0, e1, -⟩ := idx_facts t
  show V c main_v22 (((cfg1.win 3).blk t).view.emb (ix2 d f)) = V c main_v22 (ix2 r f)
  refine congrArg (V c main_v22) (funext fun a => Fin.ext ?_)
  match a with
  | ⟨0, _⟩ => show win1_3.index t (0 : Fin 2) * 64 + 1 * d.val = r.val; omega
  | ⟨1, _⟩ => show win1_3.index t (1 : Fin 2) * 768 + 1 * f.val = f.val; omega

/-- The bias block at any point is the bias row. -/
theorem blkBo_apply (c : Dev nD) (t : Fin cfg1.N) (f : Fin 768) :
    (iblk1 V c 4 t : Vec Ideal S1x768 .f32) (ix2 0 f) = aBo V c (ix2 0 f) := by
  obtain ⟨-, -, -, -, -, -, -, -, -, -, -, e0, e1, -⟩ := idx_facts t
  show V c main_v23 (((cfg1.win 4).blk t).view.emb (ix2 0 f)) = V c main_v23 (ix2 0 f)
  refine congrArg (V c main_v23) (funext fun a => Fin.ext ?_)
  match a with
  | ⟨0, _⟩ => show win1_4.index t (0 : Fin 2) * 1 + 1 * 0 = 0; omega
  | ⟨1, _⟩ => show win1_4.index t (1 : Fin 2) * 768 + 1 * f.val = f.val; omega

/-! ## One head's contribution, in closed form -/

/-- Head hd's contribution to output row s of slab g's batch, at feature f. -/
def headTerm (c : Dev nD) (g : Fin 24) (s : Fin 2048) (hd : Fin 12) (f : Fin 768) : EReal :=
  ∑ d : Fin 64, (∑ kk : Fin 2048, Cert.Attn.softmax (fun j' => (∑ d' : Fin 64, aQ V c (ix3 g s d') * aK V c (ix3 g j' d')) * ((1 / 8 : ℝ) : EReal)) kk
      * aV V c (ix3 g kk d)) * aWo V c (ix2 ⟨hd.val * 64 + d.val, by omega⟩ f)

/-- The contribution the body computes at point t from the blocks there, at (i, f), is the head's term. -/
theorem contrib_closed (c : Dev nD) (t : Fin cfg1.N) (i : Fin 512) (f : Fin 768) (g : Fin 24) (s : Fin 2048) (hd : Fin 12)
    (hg : g.val = t.val / 48 * 12 + t.val % 12) (hs : s.val = t.val / 12 % 4 * 512 + i.val) (hh : hd.val = t.val % 12) :
    k1_pay4 (F := Ideal) (iblk1 V c 0 t) (iblk1 V c 1 t) (iblk1 V c 2 t) (iblk1 V c 3 t) (ix2 i f) = headTerm V c g s hd f := by
  refine (contrib_apply (iblk1 V c 0 t) (iblk1 V c 1 t) (iblk1 V c 2 t) (iblk1 V c 3 t) i f).trans ?_
  unfold headTerm
  refine Finset.sum_congr rfl fun d _ => ?_
  refine congrArg₂ (· * ·) (Finset.sum_congr rfl fun kk _ => congrArg₂ (· * ·) ?_ (blkV_apply V c t kk d g hg))
    (blkWo_apply V c t d f ⟨hd.val * 64 + d.val, by omega⟩ (by show hd.val * 64 + d.val = _; rw [hh]))
  refine (attn_apply (iblk1 V c 0 t) (iblk1 V c 1 t) i kk).trans ?_
  refine congrArg (fun sc => Cert.Attn.softmax sc kk) (funext fun j' => ?_)
  unfold rowScore
  refine congrArg (· * ((1 / 8 : ℝ) : EReal)) (Finset.sum_congr rfl fun d' _ => ?_)
  exact congrArg₂ (· * ·) (blkQ_apply V c t i d' g s hg hs) (blkK_apply V c t j' d' g hg)

end Cert.KernelIdeal.Val

end
-- ==== Proof.OutTile.lean ====
/-
  One output tile accumulated over the twelve heads.

  The twelve points of a tile (batch bb, query tile jt; T = bb*4 + jt) run one after another. The first head leaves,
  in the tile's buffer, the bias row plus its contribution; each later head leaves what it found plus its own
  contribution; the buffer is written back after the twelfth. Addition of extended reals is associative, so after
  head h the buffer holds the bias plus the sum of the contributions of heads 0 .. h: by induction on h.
-/
import proofs.«150536_j50783693308250_2_alg».proof.Proof.KI.Attn
import proofs.«150536_j50783693308250_2_alg».proof.Proof.PayOut
import proofs.«150536_j50783693308250_2_alg».proof.Proof.OutBlocks
import Idealize.ShloMosaic.Lib.Pipeline.Value

set_option maxRecDepth 16384

noncomputable section

namespace Cert.KernelIdeal.Val

open Cert.KernelIdeal Cert.KernelIdeal.Gen Cert.KernelIdeal.Frm Cert.KernelIdeal.Pay
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- What the first head's one store leaves in the tile is its stored value, the loads reading their whole blocks. -/
theorem outFirst_eq (x0 : Vec Ideal S1x512x64 .bf16) (x1 x2 : Vec Ideal S1x2048x64 .bf16) (x3 : Vec Ideal S64x768 .bf16)
    (x4 : Vec Ideal S1x768 .f32) : outFirst x0 x1 x2 x3 x4 = k1_pay5 x0 x1 x2 x3 x4 := by
  unfold outFirst
  rw [View.canon_unit_zero hz2]
  simp only [View.ld_unit_zero (S := S1x512x64) hz3, View.ld_unit_zero (S := S1x2048x64) hz3,
    View.ld_unit_zero (S := S64x768) hz2, View.ld_unit_zero (S := S1x768) hz2]

/-- What a later head's one store leaves in the tile is what the tile held plus its contribution. -/
theorem outLater_eq (x0 : Vec Ideal S1x512x64 .bf16) (x1 x2 : Vec Ideal S1x2048x64 .bf16) (x3 : Vec Ideal S64x768 .bf16)
    (xo : Vec Ideal S512x768 .f32) : outLater x0 x1 x2 x3 xo = k1_pay1 (k1_pay4 x0 x1 x2 x3) xo := by
  unfold outLater
  rw [View.canon_unit_zero hz2]
  simp only [View.ld_unit_zero (S := S1x512x64) hz3, View.ld_unit_zero (S := S1x2048x64) hz3,
    View.ld_unit_zero (S := S64x768) hz2, View.ld_unit_zero (S := S512x768) hz2]

/-- Head h of tile T is a point of the grid. -/
theorem pt_lt {T h : ℕ} (hT : T < 8) (hh : h < 12) : T * 12 + h < cfg1.N :=
  lt_of_lt_of_eq (by omega : T * 12 + h < 96) (show 96 = cfg1.N from N_1.symm)

/-- At a tile's first head, entry (i, f) of the buffer: the bias at f plus the head's contribution. -/
theorem acc_first_apply (c : Dev nD) (t : Fin cfg1.N) (h0 : t.val % 12 = 0) (i : Fin 512) (f : Fin 768) :
    accAt V c t.val t.isLt (ix2 i f)
      = aBo V c (ix2 0 f) + k1_pay4 (F := Ideal) (iblk1 V c 0 t) (iblk1 V c 1 t) (iblk1 V c 2 t) (iblk1 V c 3 t) (ix2 i f) := by
  refine (congrFun ((accAt_first V c t h0).trans
    (outFirst_eq (iblk1 V c 0 t) (iblk1 V c 1 t) (iblk1 V c 2 t) (iblk1 V c 3 t) (iblk1 V c 4 t))) (ix2 i f)).trans ?_
  refine (first_apply (iblk1 V c 0 t) (iblk1 V c 1 t) (iblk1 V c 2 t) (iblk1 V c 3 t) (iblk1 V c 4 t) i f).trans ?_
  exact congrArg (· + k1_pay4 (F := Ideal) (iblk1 V c 0 t) (iblk1 V c 1 t) (iblk1 V c 2 t) (iblk1 V c 3 t) (ix2 i f)) (blkBo_apply V c t f)

/-- At a later head, entry (i, f) of the buffer: what the point before left there plus the head's contribution. -/
theorem acc_later_apply (c : Dev nD) (t : Fin cfg1.N) (h0 : ¬t.val % 12 = 0) (i : Fin 512) (f : Fin 768) :
    accAt V c t.val t.isLt (ix2 i f)
      = accAt V c (t.val - 1) (Nat.lt_of_le_of_lt (Nat.sub_le _ _) t.isLt) (ix2 i f)
        + k1_pay4 (F := Ideal) (iblk1 V c 0 t) (iblk1 V c 1 t) (iblk1 V c 2 t) (iblk1 V c 3 t) (ix2 i f) := by
  refine (congrFun ((accAt_later V c t h0).trans
    (outLater_eq (iblk1 V c 0 t) (iblk1 V c 1 t) (iblk1 V c 2 t) (iblk1 V c 3 t)
      (accAt V c (t.val - 1) (Nat.lt_of_le_of_lt (Nat.sub_le _ _) t.isLt)))) (ix2 i f)).trans ?_
  exact acc_apply (k1_pay4 (F := Ideal) (iblk1 V c 0 t) (iblk1 V c 1 t) (iblk1 V c 2 t) (iblk1 V c 3 t))
    (accAt V c (t.val - 1) (Nat.lt_of_le_of_lt (Nat.sub_le _ _) t.isLt)) i f

/-- THE TILE'S RUNNING SUM. After head h of tile T, entry (i, f) of the buffer is the bias at f plus the terms of heads
    0 .. h, for query row (T mod 4) * 512 + i of batch T / 4. -/
theorem tile_acc (c : Dev nD) (T : ℕ) (hT : T < 8) (i : Fin 512) (f : Fin 768) :
    ∀ (h : ℕ) (hh : h < 12), accAt V c (T * 12 + h) (pt_lt hT hh) (ix2 i f)
      = aBo V c (ix2 0 f) + ∑ h' : Fin (h + 1),
          headTerm V c ⟨T / 4 * 12 + h'.val, by omega⟩ ⟨T % 4 * 512 + i.val, by omega⟩ ⟨h'.val, by omega⟩ f
  | 0, hh => by
    refine (acc_first_apply V c ⟨T * 12 + 0, pt_lt hT hh⟩ (by show (T * 12 + 0) % 12 = 0; omega) i f).trans ?_
    rw [Fin.sum_univ_castSucc, Fin.sum_univ_zero, zero_add]
    refine congrArg (aBo V c (ix2 0 f) + ·) ?_
    refine contrib_closed V c ⟨T * 12 + 0, pt_lt hT hh⟩ i f _ _ _ ?_ ?_ ?_
    · show T / 4 * 12 + 0 = (T * 12 + 0) / 48 * 12 + (T * 12 + 0) % 12; omega
    · show T % 4 * 512 + i.val = (T * 12 + 0) / 12 % 4 * 512 + i.val; omega
    · show 0 = (T * 12 + 0) % 12; omega
  | h + 1, hh => by
    refine (acc_later_apply V c ⟨T * 12 + (h + 1), pt_lt hT hh⟩ (by show ¬(T * 12 + (h + 1)) % 12 = 0; omega) i f).trans ?_
    rw [Fin.sum_univ_castSucc]
    refine Eq.trans ?_ (add_assoc (aBo V c (ix2 0 f)) _ _)
    refine congrArg₂ (· + ·) ?_ ?_
    · exact tile_acc c T hT i f h (by omega)
    · refine contrib_closed V c ⟨T * 12 + (h + 1), pt_lt hT hh⟩ i f _ _ _ ?_ ?_ ?_
      · show T / 4 * 12 + (h + 1) = (T * 12 + (h + 1)) / 48 * 12 + (T * 12 + (h + 1)) % 12; omega
      · show T % 4 * 512 + i.val = (T * 12 + (h + 1)) / 12 % 4 * 512 + i.val; omega
      · show h + 1 = (T * 12 + (h + 1)) % 12; omega

end Cert.KernelIdeal.Val

end
-- ==== Proof.OutValue.lean ====
/-
  The second call's output array after the run, index by index.

  Entry (bb * 2048 + s, f) of the [4096, 768] array is the bias at f plus, over the twelve heads h and each head's 64
  features d, (the softmax of the scaled scores of query s against all keys of slab bb * 12 + h, weighted over the
  values' column d) times the output weight at (h * 64 + d, f). A tile's buffer is written back after its twelfth head,
  when it holds the bias plus all twelve contributions; the eight tiles' blocks (rows T * 512 .. T * 512 + 511) tile
  the array, and row r lies in the block of tile r / 512.
-/
import proofs.«150536_j50783693308250_2_alg».proof.Proof.OutTile

set_option maxRecDepth 16384

noncomputable section

namespace Cert.KernelIdeal.Val

open Cert.KernelIdeal Cert.KernelIdeal.Gen Cert.KernelIdeal.Frm Cert.KernelIdeal.Pay
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The output at batch bb, position s, feature f. -/
def outVal (c : Dev nD) (bb : Fin 2) (s : Fin 2048) (f : Fin 768) : EReal :=
  aBo V c (ix2 0 f) + ∑ h : Fin 12, headTerm V c ⟨bb.val * 12 + h.val, by omega⟩ s h f

/-- The whole output array: row r is batch r / 2048, position r mod 2048. -/
def outArr (c : Dev nD) : S4096x768.Idx → EReal := fun i =>
  outVal V c ⟨(i 0).val / 2048, by have := idx2_lt0 i; omega⟩ ⟨(i 0).val % 2048, by omega⟩ (i 1)

/-- After its twelfth head a tile's buffer holds, at (i, f), the output at its row. -/
theorem tile_final (c : Dev nD) (T : ℕ) (hT : T < 8) (i : Fin 512) (f : Fin 768) :
    accAt V c (T * 12 + 11) (pt_lt hT (by omega)) (ix2 i f) = outVal V c ⟨T / 4, by omega⟩ ⟨T % 4 * 512 + i.val, by omega⟩ f :=
  tile_acc V c T hT i f 11 (by omega)

/-- The buffer's contents after a point depend on the point's position only. -/
theorem accAt_congr (c : Dev nD) {n n' : ℕ} (e : n = n') (hn : n < cfg1.N) (hn' : n' < cfg1.N) :
    accAt V c n hn = accAt V c n' hn' := by subst e; rfl

/-- WHAT A TWELFTH HEAD WRITES BACK is its tile's block of the output array. -/
theorem flushed_eq (c : Dev nD) (t : Fin cfg1.N) (hf : (cfg1.win 6).flush t = true) :
    (dat1 V c).flushed 6 t = ((cfg1.win 6).blk t).view.read (Elt Ideal) (outArr V c) := by
  have h11 : t.val % 12 = 11 := (flush1_6 t).mp hf
  have hN : t.val < 96 := lt_of_lt_of_eq t.isLt (show cfg1.N = 96 from N_1)
  obtain ⟨-, -, -, -, -, -, -, -, -, -, -, -, -, e0, e1⟩ := idx_facts t
  show (cfg1.win 6).cut (grid1.coords t) ((dat1 V c).after 6 t) = _
  rw [after1_6]
  funext y
  obtain ⟨i, f, rfl⟩ : ∃ (i : Fin 512) (f : Fin 768), y = ix2 i f := ⟨y 0, y 1, eq_ix2 y⟩
  show accAt V c t.val t.isLt (ix2 i f) = outArr V c (((cfg1.win 6).blk t).view.emb (ix2 i f))
  have hemb : ((cfg1.win 6).blk t).view.emb (ix2 i f) = ix2 (⟨t.val / 12 * 512 + i.val, by omega⟩ : Fin 4096) f :=
    funext fun a => Fin.ext (by
      match a with
      | ⟨0, _⟩ => show win1_6.index t (0 : Fin 2) * 512 + 1 * i.val = t.val / 12 * 512 + i.val; omega
      | ⟨1, _⟩ => show win1_6.index t (1 : Fin 2) * 768 + 1 * f.val = f.val; omega)
  rw [hemb, accAt_congr V c (show t.val = t.val / 12 * 12 + 11 by omega) t.isLt (pt_lt (by omega) (by omega))]
  refine (tile_final V c (t.val / 12) (by omega) i f).trans ?_
  unfold outArr
  refine congrArg₂ (fun a b => outVal V c a b f) (Fin.ext ?_) (Fin.ext ?_)
  · show t.val / 12 / 4 = (t.val / 12 * 512 + i.val) / 2048; omega
  · show t.val / 12 % 4 * 512 + i.val = (t.val / 12 * 512 + i.val) % 2048; omega

/-- Every row of the array lies in the block its tile writes back. -/
theorem cover (i : S4096x768.Idx) :
    ∃ t : Fin cfg1.N, (cfg1.win 6).flush t = true ∧ i ∈ ((cfg1.win 6).blk t).view.set := by
  have hi0 : (i 0).val < 4096 := idx2_lt0 i
  have hi1 : (i 1).val < 768 := idx2_lt1 i
  obtain ⟨t, htv⟩ : ∃ t : Fin cfg1.N, t.val = (i 0).val / 512 * 12 + 11 :=
    ⟨⟨(i 0).val / 512 * 12 + 11, pt_lt (by omega) (by omega)⟩, rfl⟩
  obtain ⟨-, -, -, -, -, -, -, -, -, -, -, -, -, e0, e1⟩ := idx_facts t
  refine ⟨t, (flush1_6 t).mpr (by omega), ?_⟩
  show i ∈ ((View.whole main_v24_1).slice (win1_6.rect t)).set
  rw [View.set_slice_whole, Rect.mem_set_unit]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 768 ≤ (i 1).val ∧ (i 1).val < win1_6.index t (1 : Fin 2) * 768 + 768; omega

/-- THE OUTPUT ARRAY after the run. -/
theorem out_array (c : Dev nD) : (dat1 (F := Ideal) V c).arrAt 6 cfg1.N = outArr V c :=
  (dat1 V c).arrAt_eq_of_cover 6 (outArr V c) (fun t hf => flushed_eq V c t hf) (fun i => cover i)

/-- Entry (bb * 2048 + s, f) of the output array after the run, compactly. -/
theorem out_final_val (c : Dev nD) (bb : Fin 2) (s : Fin 2048) (f : Fin 768) :
    (dat1 (F := Ideal) V c).arrAt 6 cfg1.N (ix2 ⟨bb.val * 2048 + s.val, by omega⟩ f) = outVal V c bb s f := by
  refine (congrFun (out_array V c) (ix2 ⟨bb.val * 2048 + s.val, by omega⟩ f)).trans ?_
  refine congrArg₂ (fun a b => outVal V c a b f) (Fin.ext ?_) (Fin.ext ?_)
  · show (bb.val * 2048 + s.val) / 2048 = bb.val; omega
  · show (bb.val * 2048 + s.val) % 2048 = s.val; omega

/-- Entry (bb * 2048 + s, f) of the output array after the run, written out. -/
theorem out_final (c : Dev nD) (bb : Fin 2) (s : Fin 2048) (f : Fin 768) :
    (dat1 (F := Ideal) V c).arrAt 6 cfg1.N (ix2 ⟨bb.val * 2048 + s.val, by omega⟩ f)
      = aBo V c (ix2 0 f) + ∑ h : Fin 12, ∑ d : Fin 64,
          (∑ kk : Fin 2048, Cert.Attn.softmax (fun j' => (∑ d' : Fin 64, aQ V c (ix3 ⟨bb.val * 12 + h.val, by omega⟩ s d')
              * aK V c (ix3 ⟨bb.val * 12 + h.val, by omega⟩ j' d')) * ((1 / 8 : ℝ) : EReal)) kk
            * aV V c (ix3 ⟨bb.val * 12 + h.val, by omega⟩ kk d)) * aWo V c (ix2 ⟨h.val * 64 + d.val, by omega⟩ f) :=
  out_final_val V c bb s f

end Cert.KernelIdeal.Val

end
-- ==== Proof.LibBlockSum.lean ====
/-
  Summing in blocks.

  A sum over the indices 0 .. a*b - 1 can be taken b consecutive indices at a time: block s collects the indices
  b*s, b*s + 1, .., b*s + b - 1. Only associativity and commutativity of addition are used, so the statement holds in
  every commutative monoid; on the extended reals it therefore holds whether or not the summands are finite.
-/
import Idealize.ShloMosaic.Lib.ValueIdx

namespace Idealize.ShloMosaic.BlockSum

/-- Index q of block s is a valid index of the whole range. -/
theorem block_index_lt {a b : ℕ} (s : Fin a) (q : Fin b) : b * s.val + q.val < a * b := by
  have hs := s.isLt
  have hq := q.isLt
  calc b * s.val + q.val < b * s.val + b := by omega
    _ = b * (s.val + 1) := by ring
    _ ≤ b * a := Nat.mul_le_mul_left b hs
    _ = a * b := Nat.mul_comm b a

/-- The sum over all a*b indices is the sum over the a blocks of the b indices in each. -/
theorem sum_blocks {M : Type*} [AddCommMonoid M] (a b : ℕ) (g : Fin (a * b) → M) :
    ∑ k : Fin (a * b), g k = ∑ s : Fin a, ∑ q : Fin b, g ⟨b * s.val + q.val, block_index_lt s q⟩ := by
  rw [← Equiv.sum_comp finProdFinEquiv g, Fintype.sum_prod_type]
  refine Finset.sum_congr rfl fun s _ => Finset.sum_congr rfl fun q _ => congrArg g (Fin.ext ?_)
  show q.val + b * s.val = b * s.val + q.val
  omega

end Idealize.ShloMosaic.BlockSum
-- ==== Proof.Regroup.lean ====
/-
  The output projection taken head by head.  The kernel adds, head after head, `∑ d, head[b,h,s,d] · Wo[f, 64·h+d]` to the
  bias; the reference multiplies the heads laid side by side by `Wo` in one sum over all 768 features and adds the bias
  last.  A sum over 768 = 12 · 64 indices taken 64 at a time is the same sum (addition on the extended reals is
  commutative and associative, whatever is finite), and feature `64·h + d` of the flat layout is entry `d` of head `h`.
-/
import proofs.«150536_j50783693308250_2_alg».proof.Proof.Spec
import proofs.«150536_j50783693308250_2_alg».proof.Proof.LibBlockSum

noncomputable section

namespace Cert.Attn

open Idealize.ShloMosaic

/-- Feature `64·h + d` of the flat layout is entry `d` of head `h`. -/
theorem headFlat_hd (q k v : Seq) (bb : Fin 2) (s : Fin 2048) (h : Fin 12) (d : Fin 64) :
    headFlat q k v bb s (hd h d) = head q k v bb h s d := by
  unfold headFlat hd
  have hh := h.isLt
  have hd' := d.isLt
  have e1 : (⟨(h.val * 64 + d.val) / 64, by omega⟩ : Fin 12) = h := Fin.ext (by show (h.val * 64 + d.val) / 64 = h.val; omega)
  have e2 : (⟨(h.val * 64 + d.val) % 64, Nat.mod_lt _ (by decide)⟩ : Fin 64) = d := Fin.ext (by show (h.val * 64 + d.val) % 64 = d.val; omega)
  show head q k v bb ⟨(h.val * 64 + d.val) / 64, _⟩ s ⟨(h.val * 64 + d.val) % 64, _⟩ = _
  rw [e1, e2]

/-- The bias plus the heads' contributions, head by head, is the output projection of the heads laid side by side. -/
theorem proj_by_heads (q k v : Seq) (Wo : Mat) (bo : Bias) (bb : Fin 2) (s : Fin 2048) (f : Fin 768) :
    bo f + ∑ h : Fin 12, ∑ d : Fin 64, head q k v bb h s d * Wo f (hd h d) = proj (headFlat q k v) Wo bo bb s f := by
  unfold proj
  rw [add_comm]
  refine congrArg (· + bo f) ?_
  have hb := BlockSum.sum_blocks 12 64 (fun e : Fin (12 * 64) => headFlat q k v bb s e * Wo f e)
  refine Eq.trans ?_ hb.symm
  refine Finset.sum_congr rfl fun h _ => Finset.sum_congr rfl fun d _ => ?_
  have e : (⟨64 * h.val + d.val, BlockSum.block_index_lt h d⟩ : Fin (12 * 64)) = hd h d :=
    Fin.ext (by show 64 * h.val + d.val = h.val * 64 + d.val; omega)
  show _ = headFlat q k v bb s ⟨64 * h.val + d.val, _⟩ * Wo f ⟨64 * h.val + d.val, _⟩
  rw [e, headFlat_hd]

end Cert.Attn

end
-- ==== Proof.Bridge.lean ====
/-
  The kernel program's two results as the specification's functions of the argument arrays.  The attention weights:
  what the second pipeline leaves in its weight array is, row by row, the softmax of the scaled scores of the projected
  queries and keys, and the projections are the first pipeline's rows read through the head layout.  The output: the
  bias plus the heads' contributions, regrouped into one projection of the heads laid side by side.
-/
import proofs.«150536_j50783693308250_2_alg».proof.Proof.Entry
import proofs.«150536_j50783693308250_2_alg».proof.Proof.AttnValue
import proofs.«150536_j50783693308250_2_alg».proof.Proof.OutValue
import proofs.«150536_j50783693308250_2_alg».proof.Proof.Regroup

noncomputable section

namespace Cert.KernelIdeal.Val

open Cert.KernelIdeal Cert.KernelIdeal.Gen Cert.KernelIdeal.Frm Cert.KernelIdeal.AttnVal
open Idealize.ShloMosaic Idealize.ShloMosaic.TcCoe Idealize.ShloMosaic.ValueIdx Idealize.SL.Sem

variable (m : (ℓ : Loc nD τ sig) → Buf (Elt Ideal) ℓ) (ρ : Dev nD → PrngReg)

/-- THE ATTENTION WEIGHTS the kernel program returns. -/
theorem kernel_attn (c : Dev nD) (bb : Fin 2) (h : Fin 12) (i j : Fin 2048) :
    (B5 (F := Ideal) m ρ c (Proc.devRef .tc main_v24_0) : S2x12x2048x2048.Idx → EReal) (ix4 bb h i j)
      = Cert.Attn.attnOf (seqOfK (m ((c.tc : Thread nD τ).loc main_arg0) : S2x2048x768.Idx → EReal))
          (matOfK (m ((c.tc : Thread nD τ).loc main_arg1) : S768x768.Idx → EReal))
          (biasOfK (m ((c.tc : Thread nD τ).loc main_arg2) : S768.Idx → EReal))
          (matOfK (m ((c.tc : Thread nD τ).loc main_arg3) : S768x768.Idx → EReal))
          (biasOfK (m ((c.tc : Thread nD τ).loc main_arg4) : S768.Idx → EReal)) bb h i j := by
  rw [attn_exit m ρ c]
  refine (attn_final (E3 m ρ) c bb h i j).trans ?_
  rw [attnW_def]
  unfold Cert.Attn.attnOf Cert.Attn.attn Cert.Attn.score
  refine congrArg (fun s => Cert.Attn.softmax s j) (funext fun j' => ?_)
  refine congrArg (· * ((1 / 8 : ℝ) : EReal)) (Finset.sum_congr rfl fun d _ => ?_)
  rw [q_entry m ρ c bb h i d, k_entry m ρ c bb h j' d]

/-- THE OUTPUT the kernel program returns. -/
theorem kernel_out (c : Dev nD) (bb : Fin 2) (s : Fin 2048) (f : Fin 768) :
    (B5 (F := Ideal) m ρ c (Proc.devRef .tc main_v25) : S2x2048x768.Idx → EReal) (ix3 bb s f)
      = Cert.Attn.outOf (seqOfK (m ((c.tc : Thread nD τ).loc main_arg0) : S2x2048x768.Idx → EReal))
          (matOfK (m ((c.tc : Thread nD τ).loc main_arg1) : S768x768.Idx → EReal))
          (biasOfK (m ((c.tc : Thread nD τ).loc main_arg2) : S768.Idx → EReal))
          (matOfK (m ((c.tc : Thread nD τ).loc main_arg3) : S768x768.Idx → EReal))
          (biasOfK (m ((c.tc : Thread nD τ).loc main_arg4) : S768.Idx → EReal))
          (matOfK (m ((c.tc : Thread nD τ).loc main_arg5) : S768x768.Idx → EReal))
          (biasOfK (m ((c.tc : Thread nD τ).loc main_arg6) : S768.Idx → EReal))
          (matOfK (m ((c.tc : Thread nD τ).loc main_arg7) : S768x768.Idx → EReal))
          (biasOfK (m ((c.tc : Thread nD τ).loc main_arg8) : S768.Idx → EReal)) bb s f := by
  rw [out_exit m ρ c bb s f]
  refine (out_final (E3 m ρ) c bb s f).trans ?_
  unfold Cert.Attn.outOf
  rw [← Cert.Attn.proj_by_heads]
  dsimp only [aQ, aK, aV, aWo, aBo]
  rw [bo_entry m ρ c f]
  refine congrArg (_ + ·) (Finset.sum_congr rfl fun h _ => Finset.sum_congr rfl fun d _ => ?_)
  rw [wo_entry m ρ c h d f]
  refine congrArg (· * _) ?_
  unfold Cert.Attn.head
  refine Finset.sum_congr rfl fun kk _ => ?_
  rw [v_entry m ρ c bb h kk d]
  refine congrArg (· * _) ?_
  unfold Cert.Attn.attn Cert.Attn.score
  refine congrArg (fun s' => Cert.Attn.softmax s' kk) (funext fun j' => ?_)
  refine congrArg (· * ((1 / 8 : ℝ) : EReal)) (Finset.sum_congr rfl fun d' _ => ?_)
  rw [q_entry m ρ c bb h s d', k_entry m ρ c bb h j' d']

end Cert.KernelIdeal.Val

end
-- ==== Proof.lean ====
/-
  Multi-head self-attention: a fused q/k/v projection pipeline and an attention pipeline that accumulates the output
  projection head by head, against the plain reference (three projections, softmax of the scaled scores, the weighted
  values, one output projection).

  Every program runs to the end without a fault and leaves its nine argument arrays as launched: for the kernel program,
  at the word-level instance and at the extended reals alike, @main is five items (host operations, the projection
  pipeline, host operations, the attention pipeline, a last reshape) run through the pipeline library's launch theorem
  from each pipeline's body obligation; for the reference, its run read back.  The idealization rewrote nothing.

  At the extended reals both programs return the same two arrays.  The attention weights are, on both sides,
  `softmax` of the rows of `(∑ d, q·k)·(1/8)`: the kernel multiplies by the literal 0.125, the reference divides by 8,
  one function on every extended real.  The output is `bias + ∑ over heads of (weights·values)·Woᵀ` accumulated head
  after head in the kernel and one sum over all 768 features in the reference: the same sum, taken 64 features at a
  time, with no finiteness needed (only associativity and commutativity of addition are used).
-/
import proofs.«150536_j50783693308250_2_alg».proof.Defs
import proofs.«150536_j50783693308250_2_alg».proof.Proof.Gen.Kernel
import proofs.«150536_j50783693308250_2_alg».proof.Proof.Gen.KernelIdeal
import proofs.«150536_j50783693308250_2_alg».proof.Proof.Gen.ReferenceIdeal
import proofs.«150536_j50783693308250_2_alg».proof.Proof.Gen.Pre_finite_inputs
import proofs.«150536_j50783693308250_2_alg».proof.Proof.Gen.ReferenceIdeal.Run
import proofs.«150536_j50783693308250_2_alg».proof.Proof.Gen.ReferenceIdeal.Read
import proofs.«150536_j50783693308250_2_alg».proof.Proof.KB.Run
import proofs.«150536_j50783693308250_2_alg».proof.Proof.KI.Run
import proofs.«150536_j50783693308250_2_alg».proof.Proof.RefSpec
import proofs.«150536_j50783693308250_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k [Cert.Kernel.Facts] [Cert.Pre_finite_inputs.Facts] : Cert.frame_Kernel := fun m ρ _ => Cert.Kernel.Frm.frame m ρ
theorem frame_ki [Cert.KernelIdeal.Facts] [Cert.Pre_finite_inputs.Facts] : Cert.frame_KernelIdeal := fun m ρ _ => Cert.KernelIdeal.Frm.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- The reference's coordinate readings of an array are the kernel side's. -/
theorem seqOf_eq (x : Cert.ReferenceIdeal.S2x2048x768.Idx → EReal) :
    Cert.ReferenceIdeal.RefValue.seqOf x = Cert.KernelIdeal.Val.seqOfK x := rfl
theorem matOf_eq (x : Cert.ReferenceIdeal.S768x768.Idx → EReal) :
    Cert.ReferenceIdeal.RefValue.matOf x = Cert.KernelIdeal.Val.matOfK x := rfl
theorem biasOf_eq (x : Cert.ReferenceIdeal.S768.Idx → EReal) :
    Cert.ReferenceIdeal.RefValue.biasOf x = Cert.KernelIdeal.Val.biasOfK x := rfl

/-- From memories agreeing on the arguments both programs end with the specification's two arrays of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Frm.B5 (F := Ideal) m ρ c (Proc.devRef .tc Cert.KernelIdeal.main_v25),
    fun c => Cert.KernelIdeal.Frm.B5 (F := Ideal) m ρ c (Proc.devRef .tc Cert.KernelIdeal.main_v24_0),
    Cert.KernelIdeal.Frm.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v38_eq]
    obtain ⟨h0, h1, h2, h3, h4, h5, h6, h7, h8⟩ := hagree c
    rw [h0, h1, h2, h3, h4, h5, h6, h7, h8]
    funext i
    obtain ⟨bb, s, f, rfl⟩ : ∃ (bb : Fin 2) (s : Fin 2048) (f : Fin 768), i = ix3 bb s f := ⟨i 0, i 1, i 2, eq_ix3 i⟩
    rw [Cert.ReferenceIdeal.RefValue.ref_out]
    exact (Cert.KernelIdeal.Val.kernel_out m ρ c bb s f).symm
  · rw [Cert.ReferenceIdeal.Read.val_main_v31_eq]
    obtain ⟨h0, h1, h2, h3, h4, -⟩ := hagree c
    rw [h0, h1, h2, h3, h4]
    funext i
    obtain ⟨bb, h, q, j, rfl⟩ : ∃ (bb : Fin 2) (h : Fin 12) (q j : Fin 2048), i = ix4 bb h q j := ⟨i 0, i 1, i 2, i 3, eq_ix4 i⟩
    rw [Cert.ReferenceIdeal.RefValue.ref_attn]
    exact (Cert.KernelIdeal.Val.kernel_attn m ρ c bb h q j).symm

theorem claim : Cert.Claim :=
  ⟨Cert.Kernel.Gen.facts, Cert.KernelIdeal.Gen.facts, Cert.ReferenceIdeal.Gen.facts, Cert.Pre_finite_inputs.Gen.facts,
    @frame_k Cert.Kernel.Gen.facts Cert.Pre_finite_inputs.Gen.facts,
    @frame_ki Cert.KernelIdeal.Gen.facts Cert.Pre_finite_inputs.Gen.facts,
    @frame_ri Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
